-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S15000x256 : Shape := ⟨2, ![15000, 256]⟩
abbrev S15000x128 : Shape := ⟨2, ![15000, 128]⟩
abbrev S512x128 : Shape := ⟨2, ![512, 128]⟩
abbrev S128 : Shape := ⟨1, ![128]⟩
abbrev S256x128 : Shape := ⟨2, ![256, 128]⟩
abbrev S128x128 : Shape := ⟨2, ![128, 128]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S15000x256 : S_.BroadcastsInDim S15000x256 (![] : Fin 0 → Fin S15000x256.rank)
  reducesTo_S15000x256_S_d0_1 : S15000x256.ReducesTo [0, 1] S_
  bcast_S_S15000x128 : S_.BroadcastsInDim S15000x128 (![] : Fin 0 → Fin S15000x128.rank)
  reducesTo_S15000x128_S_d0_1 : S15000x128.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128x64 .f32) (main_arg13 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg12
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg7 : FVec F S128x128 .f32) (main_arg8 : FVec F S128 .f32) (main_arg9 : FVec F S128 .f32) (main_arg10 : FVec F S128x128 .f32) (main_arg11 : FVec F S128 .f32) (main_arg12 : FVec F S128x64 .f32) (main_arg13 : FVec F S64 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_v48 main_v49 main_v50

def fn_part1 {F : FTy → Type} [FloatOps F] (main_arg4 : FVec F S128 .f32) (main_arg5 : FVec F S256x128 .f32) (main_arg6 : FVec F S128 .f32) (main_arg7 : FVec F S128x128 .f32) (main_arg8 : FVec F S128 .f32) (main_arg9 : FVec F S128 .f32) (main_arg10 : FVec F S128x128 .f32) (main_arg11 : FVec F S128 .f32) (main_arg12 : FVec F S128x64 .f32) (main_arg13 : FVec F S64 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S20000x512 .f32) (main_arg1 : FVec F S15000x256 .f32) (main_arg2 : FVec F S15000x128 .f32) (main_arg3 : FVec F S512x128 .f32) (main_arg4 : FVec F S128 .f32) (main_arg5 : FVec F S256x128 .f32) (main_arg6 : FVec F S128 .f32) (main_arg7 : FVec F S128x128 .f32) (main_arg8 : FVec F S128 .f32) (main_arg9 : FVec F S128 .f32) (main_arg10 : FVec F S128x128 .f32) (main_arg11 : FVec F S128 .f32) (main_arg12 : FVec F S128x64 .f32) (main_arg13 : FVec F S64 .f32) (main_arg14 : IVec S800000 32) (main_arg15 : IVec S800000 32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S15000x256 .f32 := Host.absf main_arg1
  let main_cst_0 : FVec F S_ .f32 := constant S_ .f32 0x7F800000#32
  let main_v5 : FVec F S15000x256 .f32 := broadcastInDim S15000x256 ![] bcast_S_S15000x256 main_cst_0
  let main_v6 : IVec S15000x256 1 := cmpf .olt main_v4 main_v5
  let main_c_1 : IVec S_ 1 := constantI S_ 1 1#1
  let main_v7 : IVec S_ 1 := (fun x v => Host.reduce IntOp.andi x v reducesTo_S15000x256_S_d0_1 h_S_) main_v6 main_c_1
  let main_v8 : IVec S_ 1 := andi main_v3 main_v7
  let main_v9 : FVec F S15000x128 .f32 := Host.absf main_arg2
  let main_cst_2 : FVec F S_ .f32 := constant S_ .f32 0x7F800000#32
  let main_v10 : FVec F S15000x128 .f32 := broadcastInDim S15000x128 ![] bcast_S_S15000x128 main_cst_2
  let main_v11 : IVec S15000x128 1 := cmpf .olt main_v9 main_v10
  let main_c_3 : IVec S_ 1 := constantI S_ 1 1#1
  let main_v12 : IVec S_ 1 := (fun x v => Host.reduce IntOp.andi x v reducesTo_S15000x128_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_arg7 main_arg8 main_arg9 main_arg10 main_arg11 main_arg12 main_arg13 main_v13 main_v16
-- ==== Kernel.lean ====
abbrev S20000x512 : Shape := ⟨2, ![20000, 512]⟩
abbrev S15000x256 : Shape := ⟨2, ![15000, 256]⟩
abbrev S15000x128 : Shape := ⟨2, ![15000, 128]⟩
abbrev S512x128 : Shape := ⟨2, ![512, 128]⟩
abbrev S128 : Shape := ⟨1, ![128]⟩
abbrev S256x128 : Shape := ⟨2, ![256, 128]⟩
abbrev S128x128 : Shape := ⟨2, ![128, 128]⟩
abbrev S128x64 : Shape := ⟨2, ![128, 64]⟩
abbrev S64 : Shape := ⟨1, ![64]⟩
abbrev S800000 : Shape := ⟨1, ![800000]⟩
abbrev S1x128 : Shape := ⟨2, ![1, 128]⟩
abbrev S20000x128 : Shape := ⟨2, ![20000, 128]⟩
abbrev S2000x512 : Shape := ⟨2, ![2000, 512]⟩
abbrev S2000x128 : Shape := ⟨2, ![2000, 128]⟩
abbrev S1000x256 : Shape := ⟨2, ![1000, 256]⟩
abbrev S1000x128 : Shape := ⟨2, ![1000, 128]⟩
abbrev S50000x128 : Shape := ⟨2, ![50000, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 108
  | .vmem => 35
  | .smem => 0
  | _ => 0

abbrev bufTy : (tb : Table) → Fin (tcTables nBuf tb) → BufTy
  | .hbm, ⟨0, _⟩ => ⟨S20000x512, .f32⟩
  | .hbm, ⟨1, _⟩ => ⟨S15000x256, .f32⟩
  | .hbm, ⟨2, _⟩ => ⟨S15000x128, .f32⟩
  | .hbm, ⟨3, _⟩ => ⟨S512x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S800000, .i32⟩
  | .hbm, ⟨15, _⟩ => ⟨S800000, .i32⟩
  | .hbm, ⟨16, _⟩ => ⟨S1x128, .f32⟩
  | .hbm, ⟨17, _⟩ => ⟨S20000x128, .f32⟩
  | .hbm, ⟨18, _⟩ => ⟨S1x128, .f32⟩
  | .hbm, ⟨19, _⟩ => ⟨S15000x128, .f32⟩
  | .hbm, ⟨20, _⟩ => ⟨S1x128, .f32⟩
  | .hbm, ⟨21, _⟩ => ⟨S15000x128, .f32⟩
  | .hbm, ⟨22, _⟩ => ⟨S50000x128, .f32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S50000x1, .f32⟩
  | .hbm, ⟨83, _⟩ => ⟨S50000x128, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x1, .f32⟩
  | .hbm, ⟨88, _⟩ => ⟨S50000x128, .f32⟩
  | .hbm, ⟨89, _⟩ => ⟨S50000x128, .f32⟩
  | .hbm, ⟨90, _⟩ => ⟨S_, .i32⟩
  | .hbm, ⟨91, _⟩ => ⟨S800000, .i32⟩
  | .hbm, ⟨92, _⟩ => ⟨S800000, .i1⟩
  | .hbm, ⟨93, _⟩ => ⟨S_, .i32⟩
  | .hbm, ⟨94, _⟩ => ⟨S800000, .i32⟩
  | .hbm, ⟨95, _⟩ => ⟨S800000, .i32⟩
  | .hbm, ⟨96, _⟩ => ⟨S800000, .i32⟩
  | .hbm, ⟨97, _⟩ => ⟨S800000x1, .i32⟩
  | .hbm, ⟨98, _⟩ => ⟨S800000x128, .f32⟩
  | .hbm, ⟨99, _⟩ => ⟨S_, .f32⟩
  | .hbm, ⟨100, _⟩ => ⟨S50000x128, .f32⟩
  | .hbm, ⟨101, _⟩ => ⟨S800000x1, .i32⟩
  | .hbm, ⟨102, _⟩ => ⟨S50000x128, .f32⟩
  | .hbm, ⟨103, _⟩ => ⟨S50000x1, .f32⟩
  | .hbm, ⟨104, _⟩ => ⟨S50000x128, .f32⟩
  | .hbm, ⟨105, _⟩ => ⟨S50000x128, .f32⟩
  | .hbm, ⟨106, _⟩ => ⟨S1x64, .f32⟩
  | .hbm, ⟨107, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S1000x256, .f32⟩
  | .local _ .vmem, ⟨7, _⟩ => ⟨S1000x256, .f32⟩
  | .local _ .vmem, ⟨8, _⟩ => ⟨S256x128, .f32⟩
  | .local _ .vmem, ⟨9, _⟩ => ⟨S1x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S128x128, .f32⟩
  | .local _ .vmem, ⟨15, _⟩ => ⟨S1x128, .f32⟩
  | .local _ .vmem, ⟨16, _⟩ => ⟨S1000x128, .f32⟩
  | .local _ .vmem, ⟨17, _⟩ => ⟨S1000x128, .f32⟩
  | .local _ .vmem, ⟨18, _⟩ => ⟨S2000x128, .f32⟩
  | .local _ .vmem, ⟨19, _⟩ => ⟨S2000x128, .f32⟩
  | .local _ .vmem, ⟨20, _⟩ => ⟨S1x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S128x128, .f32⟩
  | .local _ .vmem, ⟨26, _⟩ => ⟨S1x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S128x64, .f32⟩
  | .local _ .vmem, ⟨32, _⟩ => ⟨S1x64, .f32⟩
  | .local _ .vmem, ⟨33, _⟩ => ⟨S2000x64, .f32⟩
  | .local _ .vmem, ⟨34, _⟩ => ⟨S2000x64, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_cst_5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_8 : Ref sig .tc := ⟨.hbm, 69, rfl⟩
abbrev main_v43 : Ref sig .tc := ⟨.hbm, 70, rfl⟩
abbrev main_v44 : Ref sig .tc := ⟨.hbm, 71, rfl⟩
abbrev main_c_9 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_11 : Ref sig .tc := ⟨.hbm, 90, rfl⟩
abbrev main_v61 : Ref sig .tc := ⟨.hbm, 91, rfl⟩
abbrev main_v62 : Ref sig .tc := ⟨.hbm, 92, rfl⟩
abbrev main_c_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_13 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg3_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg3_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem3_1 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  shapeCasts_S128_S1x128 : S128.ShapeCasts S1x128
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  inb_S1000x256_S1000x256_0_0 : ∀ a, (![0, 0] : Fin 2 → Nat) a + S1000x256.size a ≤ S1000x256.size a
  h_S1000x256 : 0 < S1000x256.numel
  inb_S256x128_S256x128_0_0 : ∀ a, (![0, 0] : Fin 2 → Nat) a + S256x128.size a ≤ S256x128.size a
  h_S256x128 : 0 < S256x128.numel
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  concatenates_S20000x128_S15000x128_S15000x128_S50000x128_d0 : Shape.Concatenates [S20000x128, S15000x128, S15000x128] S50000x128 0
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S2000x128_S2000x128 : S2000x128.ShapeCasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  dot_S2000x512_S512x128_S2000x128_1_0_0_1_n_n_wf : DotDims.WF S2000x512 S512x128 S2000x128 [1] [0] [0] [1] [] []
  dot_S1000x256_S256x128_S1000x128_1_0_0_1_n_n_wf : DotDims.WF S1000x256 S256x128 S1000x128 [1] [0] [0] [1] [] []
  dot_S1000x128_S128x128_S1000x128_1_0_0_1_n_n_wf : DotDims.WF S1000x128 S128x128 S1000x128 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S20000x512.size a
  hwx0_0 : ∀ i : grid0.Coords, EltTy.bits .f32 = 32 ∨ (Rect.block (s := S20000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S20000x128.size a
  hwx0_3 : ∀ i : grid0.Coords, EltTy.bits .f32 = 32 ∨ (Rect.block (s := S20000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S15000x256.size a
  hwx1_0 : ∀ i : grid1.Coords, EltTy.bits .f32 = 32 ∨ (Rect.block (s := S15000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S15000x128.size a
  hwx1_3 : ∀ i : grid1.Coords, EltTy.bits .f32 = 32 ∨ (Rect.block (s := S15000x128) S1000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S15000x128.size a
  hwx2_0 : ∀ i : grid2.Coords, EltTy.bits .f32 = 32 ∨ (Rect.block (s := S15000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x128.size a ≤ S15000x128.size a
  hwx2_3 : ∀ i : grid2.Coords, EltTy.bits .f32 = 32 ∨ (Rect.block (s := S15000x128) S1000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S50000x64.size a
  hwx5_3 : ∀ i : grid5.Coords, EltTy.bits .f32 = 32 ∨ (Rect.block (s := S50000x64) S2000x64.size (cc5_transform_3 i) (hinb5_3 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v37) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v55) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v56) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v57) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v73) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg12) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v75) S2000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S20000x512 : Shape := ⟨2, ![20000, 512]⟩
abbrev S15000x256 : Shape := ⟨2, ![15000, 256]⟩
abbrev S15000x128 : Shape := ⟨2, ![15000, 128]⟩
abbrev S512x128 : Shape := ⟨2, ![512, 128]⟩
abbrev S128 : Shape := ⟨1, ![128]⟩
abbrev S256x128 : Shape := ⟨2, ![256, 128]⟩
abbrev S128x128 : Shape := ⟨2, ![128, 128]⟩
abbrev S128x64 : Shape := ⟨2, ![128, 64]⟩
abbrev S64 : Shape := ⟨1, ![64]⟩
abbrev S800000 : Shape := ⟨1, ![800000]⟩
abbrev S20000x128 : Shape := ⟨2, ![20000, 128]⟩
abbrev S1x128 : Shape := ⟨2, ![1, 128]⟩
abbrev S50000x128 : Shape := ⟨2, ![50000, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x64 : Shape := ⟨2, ![50000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S20000x512, .f32⟩
  | .hbm, ⟨1, _⟩ => ⟨S15000x256, .f32⟩
  | .hbm, ⟨2, _⟩ => ⟨S15000x128, .f32⟩
  | .hbm, ⟨3, _⟩ => ⟨S512x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S800000, .i32⟩
  | .hbm, ⟨15, _⟩ => ⟨S800000, .i32⟩
  | .hbm, ⟨16, _⟩ => ⟨S20000x128, .f32⟩
  | .hbm, ⟨17, _⟩ => ⟨S1x128, .f32⟩
  | .hbm, ⟨18, _⟩ => ⟨S20000x128, .f32⟩
  | .hbm, ⟨19, _⟩ => ⟨S20000x128, .f32⟩
  | .hbm, ⟨20, _⟩ => ⟨S15000x128, .f32⟩
  | .hbm, ⟨21, _⟩ => ⟨S1x128, .f32⟩
  | .hbm, ⟨22, _⟩ => ⟨S15000x128, .f32⟩
  | .hbm, ⟨23, _⟩ => ⟨S15000x128, .f32⟩
  | .hbm, ⟨24, _⟩ => ⟨S15000x128, .f32⟩
  | .hbm, ⟨25, _⟩ => ⟨S1x128, .f32⟩
  | .hbm, ⟨26, _⟩ => ⟨S15000x128, .f32⟩
  | .hbm, ⟨27, _⟩ => ⟨S15000x128, .f32⟩
  | .hbm, ⟨28, _⟩ => ⟨S50000x128, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S800000x1, .i32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S50000x1, .f32⟩
  | .hbm, ⟨52, _⟩ => ⟨S50000x128, .f32⟩
  | .hbm, ⟨53, _⟩ => ⟨S50000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000x128, .f32⟩
  | .hbm, ⟨88, _⟩ => ⟨S_, .f32⟩
  | .hbm, ⟨89, _⟩ => ⟨S50000x128, .f32⟩
  | .hbm, ⟨90, _⟩ => ⟨S800000x1, .i32⟩
  | .hbm, ⟨91, _⟩ => ⟨S50000x128, .f32⟩
  | .hbm, ⟨92, _⟩ => ⟨S50000x1, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S1x128, .f32⟩
  | .hbm, ⟨97, _⟩ => ⟨S50000x128, .f32⟩
  | .hbm, ⟨98, _⟩ => ⟨S50000x128, .f32⟩
  | .hbm, ⟨99, _⟩ => ⟨S_, .f32⟩
  | .hbm, ⟨100, _⟩ => ⟨S50000x128, .f32⟩
  | .hbm, ⟨101, _⟩ => ⟨S50000x128, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S_, .i32⟩
  | .hbm, ⟨106, _⟩ => ⟨S800000, .i32⟩
  | .hbm, ⟨107, _⟩ => ⟨S800000, .i1⟩
  | .hbm, ⟨108, _⟩ => ⟨S_, .i32⟩
  | .hbm, ⟨109, _⟩ => ⟨S800000, .i32⟩
  | .hbm, ⟨110, _⟩ => ⟨S800000, .i32⟩
  | .hbm, ⟨111, _⟩ => ⟨S800000, .i32⟩
  | .hbm, ⟨112, _⟩ => ⟨S800000x1, .i32⟩
  | .hbm, ⟨113, _⟩ => ⟨S800000x128, .f32⟩
  | .hbm, ⟨114, _⟩ => ⟨S_, .f32⟩
  | .hbm, ⟨115, _⟩ => ⟨S50000x128, .f32⟩
  | .hbm, ⟨116, _⟩ => ⟨S800000x1, .i32⟩
  | .hbm, ⟨117, _⟩ => ⟨S50000x128, .f32⟩
  | .hbm, ⟨118, _⟩ => ⟨S50000x1, .f32⟩
  | .hbm, ⟨119, _⟩ => ⟨S50000x128, .f32⟩
  | .hbm, ⟨120, _⟩ => ⟨S50000x128, .f32⟩
  | .hbm, ⟨121, _⟩ => ⟨S50000x64, .f32⟩
  | .hbm, ⟨122, _⟩ => ⟨S1x64, .f32⟩
  | .hbm, ⟨123, _⟩ => ⟨S50000x64, .f32⟩
  | .hbm, ⟨124, _⟩ => ⟨S50000x64, .f32⟩
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call0_cst : Ref sig .tc := ⟨.hbm, 73, rfl⟩
abbrev main_call0_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_8 : Ref sig .tc := ⟨.hbm, 79, rfl⟩
abbrev main_v51 : Ref sig .tc := ⟨.hbm, 80, rfl⟩
abbrev main_v52 : Ref sig .tc := ⟨.hbm, 81, rfl⟩
abbrev main_c_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_call1_cst : Ref sig .tc := ⟨.hbm, 99, rfl⟩
abbrev main_call1_v0 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_11 : Ref sig .tc := ⟨.hbm, 105, rfl⟩
abbrev main_v72 : Ref sig .tc := ⟨.hbm, 106, rfl⟩
abbrev main_v73 : Ref sig .tc := ⟨.hbm, 107, rfl⟩
abbrev main_c_12 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_13 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S1x128_S15000x128_0_1 : S1x128.BroadcastsInDim S15000x128 (![0, 1] : Fin 2 → Fin S15000x128.rank)
  concatenates_S20000x128_S15000x128_S15000x128_S50000x128_d0 : Shape.Concatenates [S20000x128, S15000x128, S15000x128] S50000x128 0
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S20000x512_S512x128_S20000x128_1_0_0_1_n_n_wf : DotDims.WF S20000x512 S512x128 S20000x128 [1] [0] [0] [1] [] []
  dot_S15000x256_S256x128_S15000x128_1_0_0_1_n_n_wf : DotDims.WF S15000x256 S256x128 S15000x128 [1] [0] [0] [1] [] []
  dot_S15000x128_S128x128_S15000x128_1_0_0_1_n_n_wf : DotDims.WF S15000x128 S128x128 S15000x128 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def dot_S20000x512_S512x128_S20000x128_1_0_0_1_n_n : DotDims S20000x512 S512x128 S20000x128 where
  lhsContracting := [1]
  rhsContracting := [0]
  lhsNonContracting := [0]
  rhsNonContracting := [1]
  lhsBatch := []
  rhsBatch := []
  wf := dot_S20000x512_S512x128_S20000x128_1_0_0_1_n_n_wf
def dot_S15000x256_S256x128_S15000x128_1_0_0_1_n_n : DotDims S15000x256 S256x128 S15000x128 where
  lhsContracting := [1]
  rhsContracting := [0]
  lhsNonContracting := [0]
  rhsNonContracting := [1]
  lhsBatch := []
  rhsBatch := []
  wf := dot_S15000x256_S256x128_S15000x128_1_0_0_1_n_n_wf
def dot_S15000x128_S128x128_S15000x128_1_0_0_1_n_n : DotDims S15000x128 S128x128 S15000x128 where
  lhsContracting := [1]
  rhsContracting := [0]
  lhsNonContracting := [0]
  rhsNonContracting := [1]
  lhsBatch := []
  rhsBatch := []
  wf := dot_S15000x128_S128x128_S15000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.K.Reg0.lean ====
/-
  Region 0 of the program (the pallas_call running `cc0__proj_kernel`), read at a parameter `V`: the buffer contents the
  region finds when it is entered. A window's block at a grid point is the rectangle of its array the point's index map
  selects. The body loads its three input blocks whole (a tile of rows, the weights, the bias row), computes one value
  from them and stores it whole into the output block, so after the body the output block is that value of the input
  blocks and every input block is as it was. From this: the proof data of the region's pipeline, and the body's
  obligation at every grid point.
-/
import proofs.«121421_j52656299049561_1_alg».proof.Proof.Gen.Kernel.Launch
import proofs.«121421_j52656299049561_1_alg».proof.Proof.Gen.Kernel.Skeleton
import proofs.«121421_j52656299049561_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of the window's array (as the region finds it) that the
    point's index map selects. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The value the body stores into the output block, as a function of the input blocks: one whole-block store of
    the body's arithmetic applied to the whole-block loads. -/
def out0 (x0 : Vec F S2000x512 .f32) (x1 : Vec F S512x128 .f32) (x2 : Vec F S1x128 .f32) : Vec F S2000x128 .f32 :=
  View.canon [⟨(Rect.unit (s := S2000x128) ![0, 0] S2000x128.size inb_S2000x128_S2000x128_0_0), k0_pay1 (View.ld x0 (Rect.unit (s := S2000x512) ![0, 0] S2000x512.size inb_S2000x512_S2000x512_0_0)) (View.ld x1 (Rect.unit (s := S512x128) ![0, 0] S512x128.size inb_S512x128_S512x128_0_0)) (View.ld x2 (Rect.unit (s := S1x128) ![0, 0] S1x128.size inb_S1x128_S1x128_0_0))⟩]

/-- The one store covers the whole output block. -/
theorem out0_cover (p : Vec F S2000x128 .f32) (y : S2000x128.Idx) :
    ∃ pc ∈ ([⟨(Rect.unit (s := S2000x128) ![0, 0] S2000x128.size inb_S2000x128_S2000x128_0_0), p⟩] : List (View.Piece (Elt F) S2000x128 .f32)), y ∈ pc.1.set :=
  View.cover_of_tiled [⟨(Rect.unit (s := S2000x128) ![0, 0] S2000x128.size inb_S2000x128_S2000x128_0_0), p⟩] S2000x128.size (by rfl) y

set_option maxHeartbeats 1000000 in
/-- The body run on whole staging buffers: the inputs hold `x`s, the output anything; it ends with the inputs as
    they were and the output at `out0` of the inputs. -/
theorem body0 (c : Dev nD) (E : Set ℕ) (i : grid0.Coords) (a0 : Memref sig .tc .vmem S2000x512 .f32) (h0 : a0.IsWhole) (a1 : Memref sig .tc .vmem S512x128 .f32) (h1 : a1.IsWhole) (a2 : Memref sig .tc .vmem S1x128 .f32) (h2 : a2.IsWhole) (a3 : Memref sig .tc .vmem S2000x128 .f32) (h3 : a3.IsWhole)
    (x0 : Vec F S2000x512 .f32) (x1 : Vec F S512x128 .f32) (x2 : Vec F S1x128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out0 x0 x1 x2)) -∗ K ⟨⟩))
      ⊢ wp frame (wpE (defs₀ (F := F)) Variants.none c none) E (cc0__proj_kernel i a0 h0 a1 h1 a2 h2 a3 h3) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (out0_cover _)

/-- The pipeline's proof data on core `c`: the arrays as the region finds them; after the body at point `t` every
    input buffer still holds its block and the output buffer holds `out0` of the input blocks; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => out0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) : (dat0 V c).after 3 t = out0 (blk0 V c 0 t) (blk0 V c 1 t) (blk0 V c 2 t) := by dsimp only [dat0]

/-- Input window 0's staging buffer holds its block when the body is called, whether or not the point fetched it. -/
theorem dat0_before0 (c : Dev nD) (t : Fin cfg0.N) (d) : (dat0 V c).before 0 t d = blk0 V c 0 t :=
  ((dat0 V c).before_in_eq_fetched 0 rfl (fun _ => rfl) (fun _ _ _ => rfl)
    (fun t => by rw [dat0_after0]; unfold Dat.blockOf blk0; rw [dat0_A]; try rfl) t d).trans
    (by unfold Dat.fetched Dat.blockOf blk0; rw [dat0_A]; try rfl)

/-- Input window 1's staging buffer holds its block when the body is called, whether or not the point fetched it. -/
theorem dat0_before1 (c : Dev nD) (t : Fin cfg0.N) (d) : (dat0 V c).before 1 t d = blk0 V c 1 t :=
  ((dat0 V c).before_in_eq_fetched 1 rfl (fun _ => rfl) (fun _ _ _ => rfl)
    (fun t => by rw [dat0_after1]; unfold Dat.blockOf blk0; rw [dat0_A]; try rfl) t d).trans
    (by unfold Dat.fetched Dat.blockOf blk0; rw [dat0_A]; try rfl)

/-- Input window 2's staging buffer holds its block when the body is called, whether or not the point fetched it. -/
theorem dat0_before2 (c : Dev nD) (t : Fin cfg0.N) (d) : (dat0 V c).before 2 t d = blk0 V c 2 t :=
  ((dat0 V c).before_in_eq_fetched 2 rfl (fun _ => rfl) (fun _ _ _ => rfl)
    (fun t => by rw [dat0_after2]; unfold Dat.blockOf blk0; rw [dat0_A]; try rfl) t d).trans
    (by unfold Dat.fetched Dat.blockOf blk0; rw [dat0_A]; try rfl)

/-- What the pipeline hands the body at point `t`, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it takes back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: its input buffers hold their blocks, so `body0` applies; the invariant and the
    core's dues pass through untouched. -/
theorem atPoint0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (body0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 0's pipeline, at every grid point. -/
theorem obligation0 (c : Dev nD) : BodyObligation (dat0 (F := F) V c) (defs₀ (F := F)) Variants.none () Set.univ := fun t => by
  rw [bigSep_W0, bigSep_W0]
  exact atPoint0 V c t

end Cert.Kernel.Rg

end
-- ==== Proof.K.Reg1.lean ====
/-
  Region 1 of the program (the pallas_call running `cc1__proj_kernel`), read at a parameter `V`: the buffer contents the
  region finds when it is entered. A window's block at a grid point is the rectangle of its array the point's index map
  selects. The body loads its three input blocks whole (a tile of rows, the weights, the bias row), computes one value
  from them and stores it whole into the output block, so after the body the output block is that value of the input
  blocks and every input block is as it was. From this: the proof data of the region's pipeline, and the body's
  obligation at every grid point.
-/
import proofs.«121421_j52656299049561_1_alg».proof.Proof.Gen.Kernel.Launch
import proofs.«121421_j52656299049561_1_alg».proof.Proof.Gen.Kernel.Skeleton
import proofs.«121421_j52656299049561_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of the window's array (as the region finds it) that the
    point's index map selects. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The value the body stores into the output block, as a function of the input blocks: one whole-block store of
    the body's arithmetic applied to the whole-block loads. -/
def out1 (x0 : Vec F S1000x256 .f32) (x1 : Vec F S256x128 .f32) (x2 : Vec F S1x128 .f32) : Vec F S1000x128 .f32 :=
  View.canon [⟨(Rect.unit (s := S1000x128) ![0, 0] S1000x128.size inb_S1000x128_S1000x128_0_0), k1_pay1 (View.ld x0 (Rect.unit (s := S1000x256) ![0, 0] S1000x256.size inb_S1000x256_S1000x256_0_0)) (View.ld x1 (Rect.unit (s := S256x128) ![0, 0] S256x128.size inb_S256x128_S256x128_0_0)) (View.ld x2 (Rect.unit (s := S1x128) ![0, 0] S1x128.size inb_S1x128_S1x128_0_0))⟩]

/-- The one store covers the whole output block. -/
theorem out1_cover (p : Vec F S1000x128 .f32) (y : S1000x128.Idx) :
    ∃ pc ∈ ([⟨(Rect.unit (s := S1000x128) ![0, 0] S1000x128.size inb_S1000x128_S1000x128_0_0), p⟩] : List (View.Piece (Elt F) S1000x128 .f32)), y ∈ pc.1.set :=
  View.cover_of_tiled [⟨(Rect.unit (s := S1000x128) ![0, 0] S1000x128.size inb_S1000x128_S1000x128_0_0), p⟩] S1000x128.size (by rfl) y

set_option maxHeartbeats 1000000 in
/-- The body run on whole staging buffers: the inputs hold `x`s, the output anything; it ends with the inputs as
    they were and the output at `out1` of the inputs. -/
theorem body1 (c : Dev nD) (E : Set ℕ) (i : grid1.Coords) (a0 : Memref sig .tc .vmem S1000x256 .f32) (h0 : a0.IsWhole) (a1 : Memref sig .tc .vmem S256x128 .f32) (h1 : a1.IsWhole) (a2 : Memref sig .tc .vmem S1x128 .f32) (h2 : a2.IsWhole) (a3 : Memref sig .tc .vmem S1000x128 .f32) (h3 : a3.IsWhole)
    (x0 : Vec F S1000x256 .f32) (x1 : Vec F S256x128 .f32) (x2 : Vec F S1x128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1 x0 x1 x2)) -∗ K ⟨⟩))
      ⊢ wp frame (wpE (defs₀ (F := F)) Variants.none c none) E (cc1__proj_kernel i a0 h0 a1 h1 a2 h2 a3 h3) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (out1_cover _)

/-- The pipeline's proof data on core `c`: the arrays as the region finds them; after the body at point `t` every
    input buffer still holds its block and the output buffer holds `out1` of the input blocks; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => out1 (blk1 V c 0 t) (blk1 V c 1 t) (blk1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = out1 (blk1 V c 0 t) (blk1 V c 1 t) (blk1 V c 2 t) := by dsimp only [dat1]

/-- Input window 0's staging buffer holds its block when the body is called, whether or not the point fetched it. -/
theorem dat1_before0 (c : Dev nD) (t : Fin cfg1.N) (d) : (dat1 V c).before 0 t d = blk1 V c 0 t :=
  ((dat1 V c).before_in_eq_fetched 0 rfl (fun _ => rfl) (fun _ _ _ => rfl)
    (fun t => by rw [dat1_after0]; unfold Dat.blockOf blk1; rw [dat1_A]; try rfl) t d).trans
    (by unfold Dat.fetched Dat.blockOf blk1; rw [dat1_A]; try rfl)

/-- Input window 1's staging buffer holds its block when the body is called, whether or not the point fetched it. -/
theorem dat1_before1 (c : Dev nD) (t : Fin cfg1.N) (d) : (dat1 V c).before 1 t d = blk1 V c 1 t :=
  ((dat1 V c).before_in_eq_fetched 1 rfl (fun _ => rfl) (fun _ _ _ => rfl)
    (fun t => by rw [dat1_after1]; unfold Dat.blockOf blk1; rw [dat1_A]; try rfl) t d).trans
    (by unfold Dat.fetched Dat.blockOf blk1; rw [dat1_A]; try rfl)

/-- Input window 2's staging buffer holds its block when the body is called, whether or not the point fetched it. -/
theorem dat1_before2 (c : Dev nD) (t : Fin cfg1.N) (d) : (dat1 V c).before 2 t d = blk1 V c 2 t :=
  ((dat1 V c).before_in_eq_fetched 2 rfl (fun _ => rfl) (fun _ _ _ => rfl)
    (fun t => by rw [dat1_after2]; unfold Dat.blockOf blk1; rw [dat1_A]; try rfl) t d).trans
    (by unfold Dat.fetched Dat.blockOf blk1; rw [dat1_A]; try rfl)

/-- What the pipeline hands the body at point `t`, window by window, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it takes back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: its input buffers hold their blocks, so `body1` applies; the invariant and the
    core's dues pass through untouched. -/
theorem atPoint1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2]
  rw [show (dat1 V c).Φ t.succ = (dat1 V c).Φ t.castSucc from rfl,
    show (dat1 V c).owesAt () t.succ = (dat1 V c).owesAt () t.castSucc from rfl,
    dat1_after0, dat1_after1, dat1_after2, dat1_after3]
  iintro ⟨HΦ, Ho, ⟨%d0, H0⟩, ⟨%d1, H1⟩, ⟨%d2, H2⟩, ⟨%d3, H3⟩⟩
  iapply (body1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 1's pipeline, at every grid point. -/
theorem obligation1 (c : Dev nD) : BodyObligation (dat1 (F := F) V c) (defs₀ (F := F)) Variants.none () Set.univ := fun t => by
  rw [bigSep_W1, bigSep_W1]
  exact atPoint1 V c t

end Cert.Kernel.Rg

end
-- ==== Proof.K.Reg2.lean ====
/-
  Region 2 of the program (the pallas_call running `cc2__proj_kernel`), read at a parameter `V`: the buffer contents the
  region finds when it is entered. A window's block at a grid point is the rectangle of its array the point's index map
  selects. The body loads its three input blocks whole (a tile of rows, the weights, the bias row), computes one value
  from them and stores it whole into the output block, so after the body the output block is that value of the input
  blocks and every input block is as it was. From this: the proof data of the region's pipeline, and the body's
  obligation at every grid point.
-/
import proofs.«121421_j52656299049561_1_alg».proof.Proof.Gen.Kernel.Launch
import proofs.«121421_j52656299049561_1_alg».proof.Proof.Gen.Kernel.Skeleton
import proofs.«121421_j52656299049561_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of the window's array (as the region finds it) that the
    point's index map selects. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The value the body stores into the output block, as a function of the input blocks: one whole-block store of
    the body's arithmetic applied to the whole-block loads. -/
def out2 (x0 : Vec F S1000x128 .f32) (x1 : Vec F S128x128 .f32) (x2 : Vec F S1x128 .f32) : Vec F S1000x128 .f32 :=
  View.canon [⟨(Rect.unit (s := S1000x128) ![0, 0] S1000x128.size inb_S1000x128_S1000x128_0_0), k2_pay1 (View.ld x0 (Rect.unit (s := S1000x128) ![0, 0] S1000x128.size inb_S1000x128_S1000x128_0_0)) (View.ld x1 (Rect.unit (s := S128x128) ![0, 0] S128x128.size inb_S128x128_S128x128_0_0)) (View.ld x2 (Rect.unit (s := S1x128) ![0, 0] S1x128.size inb_S1x128_S1x128_0_0))⟩]

/-- The one store covers the whole output block. -/
theorem out2_cover (p : Vec F S1000x128 .f32) (y : S1000x128.Idx) :
    ∃ pc ∈ ([⟨(Rect.unit (s := S1000x128) ![0, 0] S1000x128.size inb_S1000x128_S1000x128_0_0), p⟩] : List (View.Piece (Elt F) S1000x128 .f32)), y ∈ pc.1.set :=
  View.cover_of_tiled [⟨(Rect.unit (s := S1000x128) ![0, 0] S1000x128.size inb_S1000x128_S1000x128_0_0), p⟩] S1000x128.size (by rfl) y

set_option maxHeartbeats 1000000 in
/-- The body run on whole staging buffers: the inputs hold `x`s, the output anything; it ends with the inputs as
    they were and the output at `out2` of the inputs. -/
theorem body2 (c : Dev nD) (E : Set ℕ) (i : grid2.Coords) (a0 : Memref sig .tc .vmem S1000x128 .f32) (h0 : a0.IsWhole) (a1 : Memref sig .tc .vmem S128x128 .f32) (h1 : a1.IsWhole) (a2 : Memref sig .tc .vmem S1x128 .f32) (h2 : a2.IsWhole) (a3 : Memref sig .tc .vmem S1000x128 .f32) (h3 : a3.IsWhole)
    (x0 : Vec F S1000x128 .f32) (x1 : Vec F S128x128 .f32) (x2 : Vec F S1x128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out2 x0 x1 x2)) -∗ K ⟨⟩))
      ⊢ wp frame (wpE (defs₀ (F := F)) Variants.none c none) E (cc2__proj_kernel i a0 h0 a1 h1 a2 h2 a3 h3) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (out2_cover _)

/-- The pipeline's proof data on core `c`: the arrays as the region finds them; after the body at point `t` every
    input buffer still holds its block and the output buffer holds `out2` of the input blocks; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => out2 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) : (dat2 V c).after 3 t = out2 (blk2 V c 0 t) (blk2 V c 1 t) (blk2 V c 2 t) := by dsimp only [dat2]

/-- Input window 0's staging buffer holds its block when the body is called, whether or not the point fetched it. -/
theorem dat2_before0 (c : Dev nD) (t : Fin cfg2.N) (d) : (dat2 V c).before 0 t d = blk2 V c 0 t :=
  ((dat2 V c).before_in_eq_fetched 0 rfl (fun _ => rfl) (fun _ _ _ => rfl)
    (fun t => by rw [dat2_after0]; unfold Dat.blockOf blk2; rw [dat2_A]; try rfl) t d).trans
    (by unfold Dat.fetched Dat.blockOf blk2; rw [dat2_A]; try rfl)

/-- Input window 1's staging buffer holds its block when the body is called, whether or not the point fetched it. -/
theorem dat2_before1 (c : Dev nD) (t : Fin cfg2.N) (d) : (dat2 V c).before 1 t d = blk2 V c 1 t :=
  ((dat2 V c).before_in_eq_fetched 1 rfl (fun _ => rfl) (fun _ _ _ => rfl)
    (fun t => by rw [dat2_after1]; unfold Dat.blockOf blk2; rw [dat2_A]; try rfl) t d).trans
    (by unfold Dat.fetched Dat.blockOf blk2; rw [dat2_A]; try rfl)

/-- Input window 2's staging buffer holds its block when the body is called, whether or not the point fetched it. -/
theorem dat2_before2 (c : Dev nD) (t : Fin cfg2.N) (d) : (dat2 V c).before 2 t d = blk2 V c 2 t :=
  ((dat2 V c).before_in_eq_fetched 2 rfl (fun _ => rfl) (fun _ _ _ => rfl)
    (fun t => by rw [dat2_after2]; unfold Dat.blockOf blk2; rw [dat2_A]; try rfl) t d).trans
    (by unfold Dat.fetched Dat.blockOf blk2; rw [dat2_A]; try rfl)

/-- What the pipeline hands the body at point `t`, window by window, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it takes back. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any grid point: its input buffers hold their blocks, so `body2` applies; the invariant and the
    core's dues pass through untouched. -/
theorem atPoint2 (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2]
  rw [show (dat2 V c).Φ t.succ = (dat2 V c).Φ t.castSucc from rfl,
    show (dat2 V c).owesAt () t.succ = (dat2 V c).owesAt () t.castSucc from rfl,
    dat2_after0, dat2_after1, dat2_after2, dat2_after3]
  iintro ⟨HΦ, Ho, ⟨%d0, H0⟩, ⟨%d1, H1⟩, ⟨%d2, H2⟩, ⟨%d3, H3⟩⟩
  iapply (body2 c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 2's pipeline, at every grid point. -/
theorem obligation2 (c : Dev nD) : BodyObligation (dat2 (F := F) V c) (defs₀ (F := F)) Variants.none () Set.univ := fun t => by
  rw [bigSep_W2, bigSep_W2]
  exact atPoint2 V c t

end Cert.Kernel.Rg

end
-- ==== Proof.K.Reg3.lean ====
/-
  Region 3 of the program (the pallas_call running `cc3__bias_relu_kernel`), read at a parameter `V`: the buffer contents the region
  finds when it is entered. A window's block at a grid point is the rectangle of its array the point's index map
  selects. The body loads every input block whole, computes one value from them and stores it whole into the output
  block, so after the body the output block is that value of the input blocks and every input block is as it was.
  From this: the proof data of the region's pipeline, and the body's obligation at every grid point.
-/
import proofs.«121421_j52656299049561_1_alg».proof.Proof.Gen.Kernel.Launch
import proofs.«121421_j52656299049561_1_alg».proof.Proof.Gen.Kernel.Skeleton
import proofs.«121421_j52656299049561_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of the window's array (as the region finds it) that the
    point's index map selects. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The value the body stores into the output block, as a function of the input blocks: one whole-block store of
    the body's arithmetic applied to the whole-block loads. -/
def out3 (x0 : Vec F S2000x128 .f32) (x1 : Vec F S1x128 .f32) : Vec F S2000x128 .f32 :=
  View.canon [⟨(Rect.unit (s := S2000x128) ![0, 0] S2000x128.size inb_S2000x128_S2000x128_0_0), k3_pay1 (View.ld x0 (Rect.unit (s := S2000x128) ![0, 0] S2000x128.size inb_S2000x128_S2000x128_0_0)) (View.ld x1 (Rect.unit (s := S1x128) ![0, 0] S1x128.size inb_S1x128_S1x128_0_0))⟩]

/-- The one store covers the whole output block. -/
theorem out3_cover (p : Vec F S2000x128 .f32) (y : S2000x128.Idx) :
    ∃ pc ∈ ([⟨(Rect.unit (s := S2000x128) ![0, 0] S2000x128.size inb_S2000x128_S2000x128_0_0), p⟩] : List (View.Piece (Elt F) S2000x128 .f32)), y ∈ pc.1.set :=
  View.cover_of_tiled [⟨(Rect.unit (s := S2000x128) ![0, 0] S2000x128.size inb_S2000x128_S2000x128_0_0), p⟩] S2000x128.size (by rfl) y

set_option maxHeartbeats 1000000 in
/-- The body run on whole staging buffers: the inputs hold `x`s, the output anything; it ends with the inputs as
    they were and the output at `out3` of the inputs. -/
theorem body3 (c : Dev nD) (E : Set ℕ) (i : grid3.Coords) (a0 : Memref sig .tc .vmem S2000x128 .f32) (h0 : a0.IsWhole) (a1 : Memref sig .tc .vmem S1x128 .f32) (h1 : a1.IsWhole) (a2 : Memref sig .tc .vmem S2000x128 .f32) (h2 : a2.IsWhole)
    (x0 : Vec F S2000x128 .f32) (x1 : Vec F S1x128 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out3 x0 x1)) -∗ K ⟨⟩))
      ⊢ wp frame (wpE (defs₀ (F := F)) Variants.none c none) E (cc3__bias_relu_kernel i a0 h0 a1 h1 a2 h2) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (out3_cover _)

/-- The pipeline's proof data on core `c`: the arrays as the region finds them; after the body at point `t` every
    input buffer still holds its block and the output buffer holds `out3` of the input blocks; nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => out3 (blk3 V c 0 t) (blk3 V c 1 t)
  Φ _ := Pipeline.ΦA spec3 c
  q _ := fullShare
  owed _ := 0

theorem dat3_A (c : Dev nD) (w : Fin cfg3.W) : (dat3 V c).A w = V c (Pipeline.arrRef spec3 w) := by
  dsimp only [dat3]

theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) : (dat3 V c).after 2 t = out3 (blk3 V c 0 t) (blk3 V c 1 t) := by dsimp only [dat3]

/-- Input window 0's staging buffer holds its block when the body is called, whether or not the point fetched it. -/
theorem dat3_before0 (c : Dev nD) (t : Fin cfg3.N) (d) : (dat3 V c).before 0 t d = blk3 V c 0 t :=
  ((dat3 V c).before_in_eq_fetched 0 rfl (fun _ => rfl) (fun _ _ _ => rfl)
    (fun t => by rw [dat3_after0]; unfold Dat.blockOf blk3; rw [dat3_A]; try rfl) t d).trans
    (by unfold Dat.fetched Dat.blockOf blk3; rw [dat3_A]; try rfl)

/-- Input window 1's staging buffer holds its block when the body is called, whether or not the point fetched it. -/
theorem dat3_before1 (c : Dev nD) (t : Fin cfg3.N) (d) : (dat3 V c).before 1 t d = blk3 V c 1 t :=
  ((dat3 V c).before_in_eq_fetched 1 rfl (fun _ => rfl) (fun _ _ _ => rfl)
    (fun t => by rw [dat3_after1]; unfold Dat.blockOf blk3; rw [dat3_A]; try rfl) t d).trans
    (by unfold Dat.fetched Dat.blockOf blk3; rw [dat3_A]; try rfl)

/-- What the pipeline hands the body at point `t`, window by window, -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it takes back. -/
def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any grid point: its input buffers hold their blocks, so `body3` applies; the invariant and the
    core's dues pass through untouched. -/
theorem atPoint3 (c : Dev nD) (t : Fin cfg3.N) :
    pre3 V c t ⊢ wp frame (wpE (defs₀ (F := F)) Variants.none c none) Set.univ (bodyAt3 t) (fun _ => post3 V c t) := by
  unfold pre3 post3 bodyAt3
  simp only [dat3_before0, dat3_before1]
  rw [show (dat3 V c).Φ t.succ = (dat3 V c).Φ t.castSucc from rfl,
    show (dat3 V c).owesAt () t.succ = (dat3 V c).owesAt () t.castSucc from rfl,
    dat3_after0, dat3_after1, dat3_after2]
  iintro ⟨HΦ, Ho, ⟨%d0, H0⟩, ⟨%d1, H1⟩, ⟨%d2, H2⟩⟩
  iapply (body3 c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 3's pipeline, at every grid point. -/
theorem obligation3 (c : Dev nD) : BodyObligation (dat3 (F := F) V c) (defs₀ (F := F)) Variants.none () Set.univ := fun t => by
  rw [bigSep_W3, bigSep_W3]
  exact atPoint3 V c t

end Cert.Kernel.Rg

end
-- ==== Proof.K.Reg4.lean ====
/-
  Region 4 of the program (the pallas_call running `cc4_kernel`), read at a parameter `V`: the buffer contents the
  region finds when it is entered. A window's block at a grid point is the rectangle of its array the point's index map
  selects. The body loads its three input blocks whole (a tile of rows, the weights, the bias row), computes one value
  from them and stores it whole into the output block, so after the body the output block is that value of the input
  blocks and every input block is as it was. From this: the proof data of the region's pipeline, and the body's
  obligation at every grid point.
-/
import proofs.«121421_j52656299049561_1_alg».proof.Proof.Gen.Kernel.Launch
import proofs.«121421_j52656299049561_1_alg».proof.Proof.Gen.Kernel.Skeleton
import proofs.«121421_j52656299049561_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of the window's array (as the region finds it) that the
    point's index map selects. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The value the body stores into the output block, as a function of the input blocks: one whole-block store of
    the body's arithmetic applied to the whole-block loads. -/
def out4 (x0 : Vec F S2000x128 .f32) (x1 : Vec F S128x128 .f32) (x2 : Vec F S1x128 .f32) : Vec F S2000x128 .f32 :=
  View.canon [⟨(Rect.unit (s := S2000x128) ![0, 0] S2000x128.size inb_S2000x128_S2000x128_0_0), k4_pay1 (View.ld x0 (Rect.unit (s := S2000x128) ![0, 0] S2000x128.size inb_S2000x128_S2000x128_0_0)) (View.ld x1 (Rect.unit (s := S128x128) ![0, 0] S128x128.size inb_S128x128_S128x128_0_0)) (View.ld x2 (Rect.unit (s := S1x128) ![0, 0] S1x128.size inb_S1x128_S1x128_0_0))⟩]

/-- The one store covers the whole output block. -/
theorem out4_cover (p : Vec F S2000x128 .f32) (y : S2000x128.Idx) :
    ∃ pc ∈ ([⟨(Rect.unit (s := S2000x128) ![0, 0] S2000x128.size inb_S2000x128_S2000x128_0_0), p⟩] : List (View.Piece (Elt F) S2000x128 .f32)), y ∈ pc.1.set :=
  View.cover_of_tiled [⟨(Rect.unit (s := S2000x128) ![0, 0] S2000x128.size inb_S2000x128_S2000x128_0_0), p⟩] S2000x128.size (by rfl) y

set_option maxHeartbeats 1000000 in
/-- The body run on whole staging buffers: the inputs hold `x`s, the output anything; it ends with the inputs as
    they were and the output at `out4` of the inputs. -/
theorem body4 (c : Dev nD) (E : Set ℕ) (i : grid4.Coords) (a0 : Memref sig .tc .vmem S2000x128 .f32) (h0 : a0.IsWhole) (a1 : Memref sig .tc .vmem S128x128 .f32) (h1 : a1.IsWhole) (a2 : Memref sig .tc .vmem S1x128 .f32) (h2 : a2.IsWhole) (a3 : Memref sig .tc .vmem S2000x128 .f32) (h3 : a3.IsWhole)
    (x0 : Vec F S2000x128 .f32) (x1 : Vec F S128x128 .f32) (x2 : Vec F S1x128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out4 x0 x1 x2)) -∗ K ⟨⟩))
      ⊢ wp frame (wpE (defs₀ (F := F)) Variants.none c none) E (cc4_kernel i a0 h0 a1 h1 a2 h2 a3 h3) K := by
  simp only [cc4_kernel_eq_skeleton]; unfold cc4_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (out4_cover _)

/-- The pipeline's proof data on core `c`: the arrays as the region finds them; after the body at point `t` every
    input buffer still holds its block and the output buffer holds `out4` of the input blocks; nothing owed. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => out4 (blk4 V c 0 t) (blk4 V c 1 t) (blk4 V c 2 t)
  Φ _ := Pipeline.ΦA spec4 c
  q _ := fullShare
  owed _ := 0

theorem dat4_A (c : Dev nD) (w : Fin cfg4.W) : (dat4 V c).A w = V c (Pipeline.arrRef spec4 w) := by
  dsimp only [dat4]

theorem dat4_after0 (c : Dev nD) (t : Fin cfg4.N) : (dat4 V c).after 0 t = blk4 V c 0 t := by dsimp only [dat4]
theorem dat4_after1 (c : Dev nD) (t : Fin cfg4.N) : (dat4 V c).after 1 t = blk4 V c 1 t := by dsimp only [dat4]
theorem dat4_after2 (c : Dev nD) (t : Fin cfg4.N) : (dat4 V c).after 2 t = blk4 V c 2 t := by dsimp only [dat4]
theorem dat4_after3 (c : Dev nD) (t : Fin cfg4.N) : (dat4 V c).after 3 t = out4 (blk4 V c 0 t) (blk4 V c 1 t) (blk4 V c 2 t) := by dsimp only [dat4]

/-- Input window 0's staging buffer holds its block when the body is called, whether or not the point fetched it. -/
theorem dat4_before0 (c : Dev nD) (t : Fin cfg4.N) (d) : (dat4 V c).before 0 t d = blk4 V c 0 t :=
  ((dat4 V c).before_in_eq_fetched 0 rfl (fun _ => rfl) (fun _ _ _ => rfl)
    (fun t => by rw [dat4_after0]; unfold Dat.blockOf blk4; rw [dat4_A]; try rfl) t d).trans
    (by unfold Dat.fetched Dat.blockOf blk4; rw [dat4_A]; try rfl)

/-- Input window 1's staging buffer holds its block when the body is called, whether or not the point fetched it. -/
theorem dat4_before1 (c : Dev nD) (t : Fin cfg4.N) (d) : (dat4 V c).before 1 t d = blk4 V c 1 t :=
  ((dat4 V c).before_in_eq_fetched 1 rfl (fun _ => rfl) (fun _ _ _ => rfl)
    (fun t => by rw [dat4_after1]; unfold Dat.blockOf blk4; rw [dat4_A]; try rfl) t d).trans
    (by unfold Dat.fetched Dat.blockOf blk4; rw [dat4_A]; try rfl)

/-- Input window 2's staging buffer holds its block when the body is called, whether or not the point fetched it. -/
theorem dat4_before2 (c : Dev nD) (t : Fin cfg4.N) (d) : (dat4 V c).before 2 t d = blk4 V c 2 t :=
  ((dat4 V c).before_in_eq_fetched 2 rfl (fun _ => rfl) (fun _ _ _ => rfl)
    (fun t => by rw [dat4_after2]; unfold Dat.blockOf blk4; rw [dat4_A]; try rfl) t d).trans
    (by unfold Dat.fetched Dat.blockOf blk4; rw [dat4_A]; try rfl)

/-- What the pipeline hands the body at point `t`, window by window, -/
def pre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it takes back. -/
def post4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any grid point: its input buffers hold their blocks, so `body4` applies; the invariant and the
    core's dues pass through untouched. -/
theorem atPoint4 (c : Dev nD) (t : Fin cfg4.N) :
    pre4 V c t ⊢ wp frame (wpE (defs₀ (F := F)) Variants.none c none) Set.univ (bodyAt4 t) (fun _ => post4 V c t) := by
  unfold pre4 post4 bodyAt4
  simp only [dat4_before0, dat4_before1, dat4_before2]
  rw [show (dat4 V c).Φ t.succ = (dat4 V c).Φ t.castSucc from rfl,
    show (dat4 V c).owesAt () t.succ = (dat4 V c).owesAt () t.castSucc from rfl,
    dat4_after0, dat4_after1, dat4_after2, dat4_after3]
  iintro ⟨HΦ, Ho, ⟨%d0, H0⟩, ⟨%d1, H1⟩, ⟨%d2, H2⟩, ⟨%d3, H3⟩⟩
  iapply (body4 c Set.univ _ _ _ _ _ _ _ _ _ (blk4 V c 0 t) (blk4 V c 1 t) (blk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 4's pipeline, at every grid point. -/
theorem obligation4 (c : Dev nD) : BodyObligation (dat4 (F := F) V c) (defs₀ (F := F)) Variants.none () Set.univ := fun t => by
  rw [bigSep_W4, bigSep_W4]
  exact atPoint4 V c t

end Cert.Kernel.Rg

end
-- ==== Proof.K.Reg5.lean ====
/-
  Region 5 of the program (the pallas_call running `cc5_kernel`), read at a parameter `V`: the buffer contents the
  region finds when it is entered. A window's block at a grid point is the rectangle of its array the point's index map
  selects. The body loads its three input blocks whole (a tile of rows, the weights, the bias row), computes one value
  from them and stores it whole into the output block, so after the body the output block is that value of the input
  blocks and every input block is as it was. From this: the proof data of the region's pipeline, and the body's
  obligation at every grid point.
-/
import proofs.«121421_j52656299049561_1_alg».proof.Proof.Gen.Kernel.Launch
import proofs.«121421_j52656299049561_1_alg».proof.Proof.Gen.Kernel.Skeleton
import proofs.«121421_j52656299049561_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of the window's array (as the region finds it) that the
    point's index map selects. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The value the body stores into the output block, as a function of the input blocks: one whole-block store of
    the body's arithmetic applied to the whole-block loads. -/
def out5 (x0 : Vec F S2000x128 .f32) (x1 : Vec F S128x64 .f32) (x2 : Vec F S1x64 .f32) : Vec F S2000x64 .f32 :=
  View.canon [⟨(Rect.unit (s := S2000x64) ![0, 0] S2000x64.size inb_S2000x64_S2000x64_0_0), k5_pay1 (View.ld x0 (Rect.unit (s := S2000x128) ![0, 0] S2000x128.size inb_S2000x128_S2000x128_0_0)) (View.ld x1 (Rect.unit (s := S128x64) ![0, 0] S128x64.size inb_S128x64_S128x64_0_0)) (View.ld x2 (Rect.unit (s := S1x64) ![0, 0] S1x64.size inb_S1x64_S1x64_0_0))⟩]

/-- The one store covers the whole output block. -/
theorem out5_cover (p : Vec F S2000x64 .f32) (y : S2000x64.Idx) :
    ∃ pc ∈ ([⟨(Rect.unit (s := S2000x64) ![0, 0] S2000x64.size inb_S2000x64_S2000x64_0_0), p⟩] : List (View.Piece (Elt F) S2000x64 .f32)), y ∈ pc.1.set :=
  View.cover_of_tiled [⟨(Rect.unit (s := S2000x64) ![0, 0] S2000x64.size inb_S2000x64_S2000x64_0_0), p⟩] S2000x64.size (by rfl) y

set_option maxHeartbeats 1000000 in
/-- The body run on whole staging buffers: the inputs hold `x`s, the output anything; it ends with the inputs as
    they were and the output at `out5` of the inputs. -/
theorem body5 (c : Dev nD) (E : Set ℕ) (i : grid5.Coords) (a0 : Memref sig .tc .vmem S2000x128 .f32) (h0 : a0.IsWhole) (a1 : Memref sig .tc .vmem S128x64 .f32) (h1 : a1.IsWhole) (a2 : Memref sig .tc .vmem S1x64 .f32) (h2 : a2.IsWhole) (a3 : Memref sig .tc .vmem S2000x64 .f32) (h3 : a3.IsWhole)
    (x0 : Vec F S2000x128 .f32) (x1 : Vec F S128x64 .f32) (x2 : Vec F S1x64 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out5 x0 x1 x2)) -∗ K ⟨⟩))
      ⊢ wp frame (wpE (defs₀ (F := F)) Variants.none c none) E (cc5_kernel i a0 h0 a1 h1 a2 h2 a3 h3) K := by
  simp only [cc5_kernel_eq_skeleton]; unfold cc5_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (out5_cover _)

/-- The pipeline's proof data on core `c`: the arrays as the region finds them; after the body at point `t` every
    input buffer still holds its block and the output buffer holds `out5` of the input blocks; nothing owed. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => out5 (blk5 V c 0 t) (blk5 V c 1 t) (blk5 V c 2 t)
  Φ _ := Pipeline.ΦA spec5 c
  q _ := fullShare
  owed _ := 0

theorem dat5_A (c : Dev nD) (w : Fin cfg5.W) : (dat5 V c).A w = V c (Pipeline.arrRef spec5 w) := by
  dsimp only [dat5]

theorem dat5_after0 (c : Dev nD) (t : Fin cfg5.N) : (dat5 V c).after 0 t = blk5 V c 0 t := by dsimp only [dat5]
theorem dat5_after1 (c : Dev nD) (t : Fin cfg5.N) : (dat5 V c).after 1 t = blk5 V c 1 t := by dsimp only [dat5]
theorem dat5_after2 (c : Dev nD) (t : Fin cfg5.N) : (dat5 V c).after 2 t = blk5 V c 2 t := by dsimp only [dat5]
theorem dat5_after3 (c : Dev nD) (t : Fin cfg5.N) : (dat5 V c).after 3 t = out5 (blk5 V c 0 t) (blk5 V c 1 t) (blk5 V c 2 t) := by dsimp only [dat5]

/-- Input window 0's staging buffer holds its block when the body is called, whether or not the point fetched it. -/
theorem dat5_before0 (c : Dev nD) (t : Fin cfg5.N) (d) : (dat5 V c).before 0 t d = blk5 V c 0 t :=
  ((dat5 V c).before_in_eq_fetched 0 rfl (fun _ => rfl) (fun _ _ _ => rfl)
    (fun t => by rw [dat5_after0]; unfold Dat.blockOf blk5; rw [dat5_A]; try rfl) t d).trans
    (by unfold Dat.fetched Dat.blockOf blk5; rw [dat5_A]; try rfl)

/-- Input window 1's staging buffer holds its block when the body is called, whether or not the point fetched it. -/
theorem dat5_before1 (c : Dev nD) (t : Fin cfg5.N) (d) : (dat5 V c).before 1 t d = blk5 V c 1 t :=
  ((dat5 V c).before_in_eq_fetched 1 rfl (fun _ => rfl) (fun _ _ _ => rfl)
    (fun t => by rw [dat5_after1]; unfold Dat.blockOf blk5; rw [dat5_A]; try rfl) t d).trans
    (by unfold Dat.fetched Dat.blockOf blk5; rw [dat5_A]; try rfl)

/-- Input window 2's staging buffer holds its block when the body is called, whether or not the point fetched it. -/
theorem dat5_before2 (c : Dev nD) (t : Fin cfg5.N) (d) : (dat5 V c).before 2 t d = blk5 V c 2 t :=
  ((dat5 V c).before_in_eq_fetched 2 rfl (fun _ => rfl) (fun _ _ _ => rfl)
    (fun t => by rw [dat5_after2]; unfold Dat.blockOf blk5; rw [dat5_A]; try rfl) t d).trans
    (by unfold Dat.fetched Dat.blockOf blk5; rw [dat5_A]; try rfl)

/-- What the pipeline hands the body at point `t`, window by window, -/
def pre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it takes back. -/
def post5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any grid point: its input buffers hold their blocks, so `body5` applies; the invariant and the
    core's dues pass through untouched. -/
theorem atPoint5 (c : Dev nD) (t : Fin cfg5.N) :
    pre5 V c t ⊢ wp frame (wpE (defs₀ (F := F)) Variants.none c none) Set.univ (bodyAt5 t) (fun _ => post5 V c t) := by
  unfold pre5 post5 bodyAt5
  simp only [dat5_before0, dat5_before1, dat5_before2]
  rw [show (dat5 V c).Φ t.succ = (dat5 V c).Φ t.castSucc from rfl,
    show (dat5 V c).owesAt () t.succ = (dat5 V c).owesAt () t.castSucc from rfl,
    dat5_after0, dat5_after1, dat5_after2, dat5_after3]
  iintro ⟨HΦ, Ho, ⟨%d0, H0⟩, ⟨%d1, H1⟩, ⟨%d2, H2⟩, ⟨%d3, H3⟩⟩
  iapply (body5 c Set.univ _ _ _ _ _ _ _ _ _ (blk5 V c 0 t) (blk5 V c 1 t) (blk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 5's pipeline, at every grid point. -/
theorem obligation5 (c : Dev nD) : BodyObligation (dat5 (F := F) V c) (defs₀ (F := F)) Variants.none () Set.univ := fun t => by
  rw [bigSep_W5, bigSep_W5]
  exact atPoint5 V c t

end Cert.Kernel.Rg

end
-- ==== Proof.K.Fold.lean ====
/-
  What every unscoped buffer of a core holds between the program's twelve items, as a fold from the launch memory.
  A stretch of host operations leaves each buffer at the operations' result on what the stretch found. A region leaves
  each of its windows' arrays at what its pipeline's write-backs leave — an input array exactly as found, the output
  array rebuilt block by block — and every other buffer as it found it. Hence: a buffer that no stretch writes and
  that is no region's output ends holding its launch contents; in particular every argument array does.
-/
import proofs.«121421_j52656299049561_1_alg».proof.Proof.K.Reg0
import proofs.«121421_j52656299049561_1_alg».proof.Proof.K.Reg1
import proofs.«121421_j52656299049561_1_alg».proof.Proof.K.Reg2
import proofs.«121421_j52656299049561_1_alg».proof.Proof.K.Reg3
import proofs.«121421_j52656299049561_1_alg».proof.Proof.K.Reg4
import proofs.«121421_j52656299049561_1_alg».proof.Proof.K.Reg5

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- Core `c`'s buffers at launch. -/
abbrev W0 : Dev nD → Valuation τ sig (Elt F) := fun c b => m (c, b)

/-- After the host stretch before region 0: what region 0 is entered from. -/
abbrev W1 : Dev nD → Valuation τ sig (Elt F) := fun c => StableHlo.after hostOps0 (W0 m c)
/-- The same, read at the TensorCore's references. -/
abbrev B1 : (c : Dev nD) → (b : Ref sig .tc) → Buf (Elt F) ((c : Thread nD τ).loc b) := fun c b => W1 m c b
/-- After region 0: its windows' arrays at what the pipeline's write-backs leave, everything else as entered. -/
def W2 (c : Dev nD) : Valuation τ sig (Elt F) :=
  Pipeline.withArrays spec0 c (W1 m c) fun w => (dat0 (B1 m) c).arrAt w cfg0.N
theorem W2_arr (c : Dev nD) (w : Fin cfg0.W) :
    W2 m c (Proc.devRef .tc (Pipeline.arrRef spec0 w)) = (dat0 (B1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same, read at the TensorCore's references. -/
abbrev B2 : (c : Dev nD) → (b : Ref sig .tc) → Buf (Elt F) ((c : Thread nD τ).loc b) := fun c b => W2 m c b
theorem exit0_arr (c : Dev nD) (w : Fin cfg0.W) : (dat0 (B1 m) c).arrAt w cfg0.N = B2 m c (Pipeline.arrRef spec0 w) :=
  (W2_arr m c w).symm
theorem exit0_rest (c : Dev nD) : ∀ b, b ∉ Finset.univ.image (Pipeline.arrRef spec0) → B2 m c b = B1 m c b :=
  fun b hb => W2_of_ne m c b fun w h => hb (Finset.mem_image.mpr ⟨w, Finset.mem_univ _, h⟩)
/-- Region 0 changes no buffer but its output array `main_v1`: an input array is never written back. -/
theorem W2_keep (c : Dev nD) (b : Ref sig .tc) (hb : b ≠ main_v1) :
    W2 m c (Proc.devRef .tc b) = W1 m c (Proc.devRef .tc b) := by
  by_cases h : ∃ w, Pipeline.arrRef spec0 w = b
  · obtain ⟨w, rfl⟩ := h
    rw [W2_arr]
    match w, hb with
    | ⟨0, _⟩, _ => exact ((dat0 (B1 m) c).arrAt_in 0 rfl _).trans (dat0_A (B1 m) c 0)
    | ⟨1, _⟩, _ => exact ((dat0 (B1 m) c).arrAt_in 1 rfl _).trans (dat0_A (B1 m) c 1)
    | ⟨2, _⟩, _ => exact ((dat0 (B1 m) c).arrAt_in 2 rfl _).trans (dat0_A (B1 m) c 2)
    | ⟨3, _⟩, hb => exact absurd rfl hb
  · exact W2_of_ne m c b fun w e => h ⟨w, e⟩

/-- After the host stretch before region 1: what region 1 is entered from. -/
abbrev W3 : Dev nD → Valuation τ sig (Elt F) := fun c => StableHlo.after hostOps1 (W2 m c)
/-- The same, read at the TensorCore's references. -/
abbrev B3 : (c : Dev nD) → (b : Ref sig .tc) → Buf (Elt F) ((c : Thread nD τ).loc b) := fun c b => W3 m c b
/-- After region 1: its windows' arrays at what the pipeline's write-backs leave, everything else as entered. -/
def W4 (c : Dev nD) : Valuation τ sig (Elt F) :=
  Pipeline.withArrays spec1 c (W3 m c) fun w => (dat1 (B3 m) c).arrAt w cfg1.N
theorem W4_arr (c : Dev nD) (w : Fin cfg1.W) :
    W4 m c (Proc.devRef .tc (Pipeline.arrRef spec1 w)) = (dat1 (B3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same, read at the TensorCore's references. -/
abbrev B4 : (c : Dev nD) → (b : Ref sig .tc) → Buf (Elt F) ((c : Thread nD τ).loc b) := fun c b => W4 m c b
theorem exit1_arr (c : Dev nD) (w : Fin cfg1.W) : (dat1 (B3 m) c).arrAt w cfg1.N = B4 m c (Pipeline.arrRef spec1 w) :=
  (W4_arr m c w).symm
theorem exit1_rest (c : Dev nD) : ∀ b, b ∉ Finset.univ.image (Pipeline.arrRef spec1) → B4 m c b = B3 m c b :=
  fun b hb => W4_of_ne m c b fun w h => hb (Finset.mem_image.mpr ⟨w, Finset.mem_univ _, h⟩)
/-- Region 1 changes no buffer but its output array `main_v3`: an input array is never written back. -/
theorem W4_keep (c : Dev nD) (b : Ref sig .tc) (hb : b ≠ main_v3) :
    W4 m c (Proc.devRef .tc b) = W3 m c (Proc.devRef .tc b) := by
  by_cases h : ∃ w, Pipeline.arrRef spec1 w = b
  · obtain ⟨w, rfl⟩ := h
    rw [W4_arr]
    match w, hb with
    | ⟨0, _⟩, _ => exact ((dat1 (B3 m) c).arrAt_in 0 rfl _).trans (dat1_A (B3 m) c 0)
    | ⟨1, _⟩, _ => exact ((dat1 (B3 m) c).arrAt_in 1 rfl _).trans (dat1_A (B3 m) c 1)
    | ⟨2, _⟩, _ => exact ((dat1 (B3 m) c).arrAt_in 2 rfl _).trans (dat1_A (B3 m) c 2)
    | ⟨3, _⟩, hb => exact absurd rfl hb
  · exact W4_of_ne m c b fun w e => h ⟨w, e⟩

/-- After the host stretch before region 2: what region 2 is entered from. -/
abbrev W5 : Dev nD → Valuation τ sig (Elt F) := fun c => StableHlo.after hostOps2 (W4 m c)
/-- The same, read at the TensorCore's references. -/
abbrev B5 : (c : Dev nD) → (b : Ref sig .tc) → Buf (Elt F) ((c : Thread nD τ).loc b) := fun c b => W5 m c b
/-- After region 2: its windows' arrays at what the pipeline's write-backs leave, everything else as entered. -/
def W6 (c : Dev nD) : Valuation τ sig (Elt F) :=
  Pipeline.withArrays spec2 c (W5 m c) fun w => (dat2 (B5 m) c).arrAt w cfg2.N
theorem W6_arr (c : Dev nD) (w : Fin cfg2.W) :
    W6 m c (Proc.devRef .tc (Pipeline.arrRef spec2 w)) = (dat2 (B5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same, read at the TensorCore's references. -/
abbrev B6 : (c : Dev nD) → (b : Ref sig .tc) → Buf (Elt F) ((c : Thread nD τ).loc b) := fun c b => W6 m c b
theorem exit2_arr (c : Dev nD) (w : Fin cfg2.W) : (dat2 (B5 m) c).arrAt w cfg2.N = B6 m c (Pipeline.arrRef spec2 w) :=
  (W6_arr m c w).symm
theorem exit2_rest (c : Dev nD) : ∀ b, b ∉ Finset.univ.image (Pipeline.arrRef spec2) → B6 m c b = B5 m c b :=
  fun b hb => W6_of_ne m c b fun w h => hb (Finset.mem_image.mpr ⟨w, Finset.mem_univ _, h⟩)
/-- Region 2 changes no buffer but its output array `main_v5`: an input array is never written back. -/
theorem W6_keep (c : Dev nD) (b : Ref sig .tc) (hb : b ≠ main_v5) :
    W6 m c (Proc.devRef .tc b) = W5 m c (Proc.devRef .tc b) := by
  by_cases h : ∃ w, Pipeline.arrRef spec2 w = b
  · obtain ⟨w, rfl⟩ := h
    rw [W6_arr]
    match w, hb with
    | ⟨0, _⟩, _ => exact ((dat2 (B5 m) c).arrAt_in 0 rfl _).trans (dat2_A (B5 m) c 0)
    | ⟨1, _⟩, _ => exact ((dat2 (B5 m) c).arrAt_in 1 rfl _).trans (dat2_A (B5 m) c 1)
    | ⟨2, _⟩, _ => exact ((dat2 (B5 m) c).arrAt_in 2 rfl _).trans (dat2_A (B5 m) c 2)
    | ⟨3, _⟩, hb => exact absurd rfl hb
  · exact W6_of_ne m c b fun w e => h ⟨w, e⟩

/-- After the host stretch before region 3: what region 3 is entered from. -/
abbrev W7 : Dev nD → Valuation τ sig (Elt F) := fun c => StableHlo.after hostOps3 (W6 m c)
/-- The same, read at the TensorCore's references. -/
abbrev B7 : (c : Dev nD) → (b : Ref sig .tc) → Buf (Elt F) ((c : Thread nD τ).loc b) := fun c b => W7 m c b
/-- After region 3: its windows' arrays at what the pipeline's write-backs leave, everything else as entered. -/
def W8 (c : Dev nD) : Valuation τ sig (Elt F) :=
  Pipeline.withArrays spec3 c (W7 m c) fun w => (dat3 (B7 m) c).arrAt w cfg3.N
theorem W8_arr (c : Dev nD) (w : Fin cfg3.W) :
    W8 m c (Proc.devRef .tc (Pipeline.arrRef spec3 w)) = (dat3 (B7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- The same, read at the TensorCore's references. -/
abbrev B8 : (c : Dev nD) → (b : Ref sig .tc) → Buf (Elt F) ((c : Thread nD τ).loc b) := fun c b => W8 m c b
theorem exit3_arr (c : Dev nD) (w : Fin cfg3.W) : (dat3 (B7 m) c).arrAt w cfg3.N = B8 m c (Pipeline.arrRef spec3 w) :=
  (W8_arr m c w).symm
theorem exit3_rest (c : Dev nD) : ∀ b, b ∉ Finset.univ.image (Pipeline.arrRef spec3) → B8 m c b = B7 m c b :=
  fun b hb => W8_of_ne m c b fun w h => hb (Finset.mem_image.mpr ⟨w, Finset.mem_univ _, h⟩)
/-- Region 3 changes no buffer but its output array `main_v39`: an input array is never written back. -/
theorem W8_keep (c : Dev nD) (b : Ref sig .tc) (hb : b ≠ main_v39) :
    W8 m c (Proc.devRef .tc b) = W7 m c (Proc.devRef .tc b) := by
  by_cases h : ∃ w, Pipeline.arrRef spec3 w = b
  · obtain ⟨w, rfl⟩ := h
    rw [W8_arr]
    match w, hb with
    | ⟨0, _⟩, _ => exact ((dat3 (B7 m) c).arrAt_in 0 rfl _).trans (dat3_A (B7 m) c 0)
    | ⟨1, _⟩, _ => exact ((dat3 (B7 m) c).arrAt_in 1 rfl _).trans (dat3_A (B7 m) c 1)
    | ⟨2, _⟩, hb => exact absurd rfl hb
  · exact W8_of_ne m c b fun w e => h ⟨w, e⟩

/-- After the host stretch before region 4: what region 4 is entered from. -/
abbrev W9 : Dev nD → Valuation τ sig (Elt F) := fun c => StableHlo.after hostOps4 (W8 m c)
/-- The same, read at the TensorCore's references. -/
abbrev B9 : (c : Dev nD) → (b : Ref sig .tc) → Buf (Elt F) ((c : Thread nD τ).loc b) := fun c b => W9 m c b
/-- After region 4: its windows' arrays at what the pipeline's write-backs leave, everything else as entered. -/
def W10 (c : Dev nD) : Valuation τ sig (Elt F) :=
  Pipeline.withArrays spec4 c (W9 m c) fun w => (dat4 (B9 m) c).arrAt w cfg4.N
theorem W10_arr (c : Dev nD) (w : Fin cfg4.W) :
    W10 m c (Proc.devRef .tc (Pipeline.arrRef spec4 w)) = (dat4 (B9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
/-- The same, read at the TensorCore's references. -/
abbrev B10 : (c : Dev nD) → (b : Ref sig .tc) → Buf (Elt F) ((c : Thread nD τ).loc b) := fun c b => W10 m c b
theorem exit4_arr (c : Dev nD) (w : Fin cfg4.W) : (dat4 (B9 m) c).arrAt w cfg4.N = B10 m c (Pipeline.arrRef spec4 w) :=
  (W10_arr m c w).symm
theorem exit4_rest (c : Dev nD) : ∀ b, b ∉ Finset.univ.image (Pipeline.arrRef spec4) → B10 m c b = B9 m c b :=
  fun b hb => W10_of_ne m c b fun w h => hb (Finset.mem_image.mpr ⟨w, Finset.mem_univ _, h⟩)
/-- Region 4 changes no buffer but its output array `main_v57`: an input array is never written back. -/
theorem W10_keep (c : Dev nD) (b : Ref sig .tc) (hb : b ≠ main_v57) :
    W10 m c (Proc.devRef .tc b) = W9 m c (Proc.devRef .tc b) := by
  by_cases h : ∃ w, Pipeline.arrRef spec4 w = b
  · obtain ⟨w, rfl⟩ := h
    rw [W10_arr]
    match w, hb with
    | ⟨0, _⟩, _ => exact ((dat4 (B9 m) c).arrAt_in 0 rfl _).trans (dat4_A (B9 m) c 0)
    | ⟨1, _⟩, _ => exact ((dat4 (B9 m) c).arrAt_in 1 rfl _).trans (dat4_A (B9 m) c 1)
    | ⟨2, _⟩, _ => exact ((dat4 (B9 m) c).arrAt_in 2 rfl _).trans (dat4_A (B9 m) c 2)
    | ⟨3, _⟩, hb => exact absurd rfl hb
  · exact W10_of_ne m c b fun w e => h ⟨w, e⟩

/-- After the host stretch before region 5: what region 5 is entered from. -/
abbrev W11 : Dev nD → Valuation τ sig (Elt F) := fun c => StableHlo.after hostOps5 (W10 m c)
/-- The same, read at the TensorCore's references. -/
abbrev B11 : (c : Dev nD) → (b : Ref sig .tc) → Buf (Elt F) ((c : Thread nD τ).loc b) := fun c b => W11 m c b
/-- After region 5: its windows' arrays at what the pipeline's write-backs leave, everything else as entered. -/
def W12 (c : Dev nD) : Valuation τ sig (Elt F) :=
  Pipeline.withArrays spec5 c (W11 m c) fun w => (dat5 (B11 m) c).arrAt w cfg5.N
theorem W12_arr (c : Dev nD) (w : Fin cfg5.W) :
    W12 m c (Proc.devRef .tc (Pipeline.arrRef spec5 w)) = (dat5 (B11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
/-- The same, read at the TensorCore's references. -/
abbrev B12 : (c : Dev nD) → (b : Ref sig .tc) → Buf (Elt F) ((c : Thread nD τ).loc b) := fun c b => W12 m c b
theorem exit5_arr (c : Dev nD) (w : Fin cfg5.W) : (dat5 (B11 m) c).arrAt w cfg5.N = B12 m c (Pipeline.arrRef spec5 w) :=
  (W12_arr m c w).symm
theorem exit5_rest (c : Dev nD) : ∀ b, b ∉ Finset.univ.image (Pipeline.arrRef spec5) → B12 m c b = B11 m c b :=
  fun b hb => W12_of_ne m c b fun w h => hb (Finset.mem_image.mpr ⟨w, Finset.mem_univ _, h⟩)
/-- Region 5 changes no buffer but its output array `main_v75`: an input array is never written back. -/
theorem W12_keep (c : Dev nD) (b : Ref sig .tc) (hb : b ≠ main_v75) :
    W12 m c (Proc.devRef .tc b) = W11 m c (Proc.devRef .tc b) := by
  by_cases h : ∃ w, Pipeline.arrRef spec5 w = b
  · obtain ⟨w, rfl⟩ := h
    rw [W12_arr]
    match w, hb with
    | ⟨0, _⟩, _ => exact ((dat5 (B11 m) c).arrAt_in 0 rfl _).trans (dat5_A (B11 m) c 0)
    | ⟨1, _⟩, _ => exact ((dat5 (B11 m) c).arrAt_in 1 rfl _).trans (dat5_A (B11 m) c 1)
    | ⟨2, _⟩, _ => exact ((dat5 (B11 m) c).arrAt_in 2 rfl _).trans (dat5_A (B11 m) c 2)
    | ⟨3, _⟩, hb => exact absurd rfl hb
  · exact W12_of_ne m c b fun w e => h ⟨w, e⟩

/-! ## What the host stretches write -/

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem fresh3 : (hostOps3 : List (HloOp τ sig (Elt F))).Forall fun op => op.fresh = ∅ := by
  simp only [List.Forall]; repeat' constructor
theorem fresh4 : (hostOps4 : List (HloOp τ sig (Elt F))).Forall fun op => op.fresh = ∅ := by
  simp only [List.Forall]; repeat' constructor
theorem fresh5 : (hostOps5 : List (HloOp τ sig (Elt F))).Forall fun op => op.fresh = ∅ := by
  simp only [List.Forall]; repeat' constructor

/-- A buffer that stretch `j` does not write is, after it, as before it: the references each stretch writes are listed
    once and membership is decided over references. -/
theorem W1_keep (c : Dev nD) (r : Ref sig .tc) (h : r ∉ ([main_v0] : List (Ref sig .tc))) :
    W1 m c (Proc.devRef .tc r) = W0 m c (Proc.devRef .tc r) :=
  StableHlo.after_of_forall_not_mem hostOps0 _ fun op hop hb => by
    simp only [hostOps0, List.mem_singleton] at hop; subst hop
    simp only [StableHlo.reshape_writes, Finset.mem_singleton] at hb
    exact h (by rw [Proc.devRef_injective _ hb]; exact List.mem_singleton_self _)
theorem W3_keep (c : Dev nD) (r : Ref sig .tc) (h : r ∉ ([main_v2] : List (Ref sig .tc))) :
    W3 m c (Proc.devRef .tc r) = W2 m c (Proc.devRef .tc r) :=
  StableHlo.after_of_forall_not_mem hostOps1 _ fun op hop hb => by
    simp only [hostOps1, List.mem_singleton] at hop; subst hop
    simp only [StableHlo.reshape_writes, Finset.mem_singleton] at hb
    exact h (by rw [Proc.devRef_injective _ hb]; exact List.mem_singleton_self _)
theorem W5_keep (c : Dev nD) (r : Ref sig .tc) (h : r ∉ ([main_v4] : List (Ref sig .tc))) :
    W5 m c (Proc.devRef .tc r) = W4 m c (Proc.devRef .tc r) :=
  StableHlo.after_of_forall_not_mem hostOps2 _ fun op hop hb => by
    simp only [hostOps2, List.mem_singleton] at hop; subst hop
    simp only [StableHlo.reshape_writes, Finset.mem_singleton] at hb
    exact h (by rw [Proc.devRef_injective _ hb]; exact List.mem_singleton_self _)

/-! ## The proof data family -/

/-- No pallas_call has a prefetched table. -/
abbrev adm : (p : Fin 6) → (pcfgs (F := F) p).Adm := fun p => (cfgs p).toPCfg_adm

/-- Every pipeline's proof data, each at the contents its region is entered from. -/
def pdats : (p : Fin 6) → (c : Dev nD) → Dat τ (Elt F) Unit ℕ (UR sig nD τ) ℕ (Pipeline.pin (pcfgs (F := F)) adm p) c
  | ⟨0, _⟩ => fun c => dat0 (B1 m) c
  | ⟨1, _⟩ => fun c => dat1 (B3 m) c
  | ⟨2, _⟩ => fun c => dat2 (B5 m) c
  | ⟨3, _⟩ => fun c => dat3 (B7 m) c
  | ⟨4, _⟩ => fun c => dat4 (B9 m) c
  | ⟨5, _⟩ => fun c => dat5 (B11 m) c

abbrev noVar : Variants := Variants.none
/-- No core owes another anything. -/
abbrev noL : GSem nD τ sig → Finset Unit := fun _ => ∅
abbrev noLv : GSem nD τ sig → Unit → ℕ := fun _ _ => 0
/-- What rides beside the buffers through every item: the core's generator register at some state, and nothing owed. -/
abbrev Rest (c : Dev nD) : sProp 𝕄 := iprop((∃ r, prngReg c r) ∗ ∃ W, owes (c : Thread nD τ) (0 : CellTallies nD τ sig Unit) W)

/-- A host stretch as a segment of the run, from contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Rg

end
-- ==== Proof.K.Seg0.lean ====
/-
  Region 0 as one item of the run. It is entered holding every unscoped buffer at the contents the stretch before it
  left, beside the generator register and no dues. Its windows' arrays are split out of those buffers at entry and put
  back at what the pipeline's write-backs leave at exit; the generator register goes into the pipeline's invariant and
  comes back; the kernel has no semaphore of its own and owes nothing at any point.
-/
import proofs.«121421_j52656299049561_1_alg».proof.Proof.K.Fold

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 over the thread state "every unscoped buffer at the boundary's contents, the generator register at some
    state, nothing owed": entered at `W1`, left at `W2`. -/
def seg0 : Pipeline.RegionSeg (pcfgs (F := F)) adm (pdats m) () defs₀ noVar noL noLv 0 where
  win := launch0.win.to₀
  block_pos := launch0.block_pos
  stage_whole := launch0.stage_whole
  K := PEmpty
  osem k := k.elim
  ho := Pipeline.OwnSemFacts.none _
  hbody c := (obligation0 (B1 m) c).loose
  hwaits := Pipeline.hwaits_of_owed_zero _ _ _ _ noL noLv 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    -- the arrays leave the unscoped buffers; no table; the dues at the first point are the core's, at nothing
    rw [Pipeline.ownSems0_none]
    have hsplit := Pipeline.arrays_of_unscopedBufs (p := 0) (pcfgs (F := F)) adm (pdats m) launch0.win launch0.arr_whole c
      ((pdats m 0 c).share_full fun _ => rfl) (B1 m c) fun _ => rfl
    rw [Pipeline.unscopedBufs_held] at hsplit
    iintro ⟨⟨Hbufs, Hprng, Hdue⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hprng]; · iexact Hprng
    iexact Hrest
  hin c := by
    -- the invariant at the first point: the scoped buffers no window stages, and the generator register
    rw [show (pdats m 0 c).Φ 0 = Pipeline.ΦA spec0 c from rfl]; unfold Pipeline.ΦA
    iintro ⟨Hprng, -, Hscoped⟩
    isplitl [Hscoped]; · iexact Hscoped
    iexact Hprng
  hout c := by
    -- and the same two come back at the last point
    rw [Pipeline.ownSems0_none, show (pdats m 0 c).Φ (Fin.last _) = Pipeline.ΦA spec0 c from rfl]; unfold Pipeline.ΦA
    iintro ⟨Hscoped, Hprng⟩
    isplitl [Hprng]; · iexact Hprng
    isplitr; · iempintro
    iexact Hscoped
  hexit c := by
    -- the arrays at their final contents rejoin the rest: every unscoped buffer at `W2`
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B1 m c) (B2 m c) ((pdats m 0 c).arrAt · cfg0.N) (exit0_arr m c) (exit0_rest m c)
    rw [Pipeline.unscopedBufs_held] at hjoin
    iintro ⟨Harr, Hdue, Hprng, Hrest⟩
    imodintro
    isplitl [Harr Hrest]
    · iapply hjoin; isplitl [Harr] <;> iassumption
    isplitl [Hprng]; · iexact Hprng
    unfold Pipeline.Dat.owesAt Pipeline.owesWithin
    icases Hdue with ⟨%W, -, Hdue⟩; iexists W; iexact Hdue

end Cert.Kernel.Rg

end
-- ==== Proof.K.Seg1.lean ====
/-
  Region 1 as one item of the run. It is entered holding every unscoped buffer at the contents the stretch before it
  left, beside the generator register and no dues. Its windows' arrays are split out of those buffers at entry and put
  back at what the pipeline's write-backs leave at exit; the generator register goes into the pipeline's invariant and
  comes back; the kernel has no semaphore of its own and owes nothing at any point.
-/
import proofs.«121421_j52656299049561_1_alg».proof.Proof.K.Fold

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 1 over the thread state "every unscoped buffer at the boundary's contents, the generator register at some
    state, nothing owed": entered at `W3`, left at `W4`. -/
def seg1 : Pipeline.RegionSeg (pcfgs (F := F)) adm (pdats m) () defs₀ noVar noL noLv 1 where
  win := launch1.win.to₀
  block_pos := launch1.block_pos
  stage_whole := launch1.stage_whole
  K := PEmpty
  osem k := k.elim
  ho := Pipeline.OwnSemFacts.none _
  hbody c := (obligation1 (B3 m) c).loose
  hwaits := Pipeline.hwaits_of_owed_zero _ _ _ _ noL noLv 1 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest (Ix := Unit) (Name := ℕ) (U := UR sig nD τ) (Lvl := ℕ) spec1 c (B3 m c)
  hentry c := by
    -- the arrays leave the unscoped buffers; no table; the dues at the first point are the core's, at nothing
    rw [Pipeline.ownSems0_none]
    have hsplit := Pipeline.arrays_of_unscopedBufs (p := 1) (pcfgs (F := F)) adm (pdats m) launch1.win launch1.arr_whole c
      ((pdats m 1 c).share_full fun _ => rfl) (B3 m c) fun _ => rfl
    rw [Pipeline.unscopedBufs_held] at hsplit
    iintro ⟨⟨Hbufs, Hprng, Hdue⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hprng]; · iexact Hprng
    iexact Hrest
  hin c := by
    -- the invariant at the first point: the scoped buffers no window stages, and the generator register
    rw [show (pdats m 1 c).Φ 0 = Pipeline.ΦA spec1 c from rfl]; unfold Pipeline.ΦA
    iintro ⟨Hprng, -, Hscoped⟩
    isplitl [Hscoped]; · iexact Hscoped
    iexact Hprng
  hout c := by
    -- and the same two come back at the last point
    rw [Pipeline.ownSems0_none, show (pdats m 1 c).Φ (Fin.last _) = Pipeline.ΦA spec1 c from rfl]; unfold Pipeline.ΦA
    iintro ⟨Hscoped, Hprng⟩
    isplitl [Hprng]; · iexact Hprng
    isplitr; · iempintro
    iexact Hscoped
  hexit c := by
    -- the arrays at their final contents rejoin the rest: every unscoped buffer at `W4`
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B3 m c) (B4 m c) ((pdats m 1 c).arrAt · cfg1.N) (exit1_arr m c) (exit1_rest m c)
    rw [Pipeline.unscopedBufs_held] at hjoin
    iintro ⟨Harr, Hdue, Hprng, Hrest⟩
    imodintro
    isplitl [Harr Hrest]
    · iapply hjoin; isplitl [Harr] <;> iassumption
    isplitl [Hprng]; · iexact Hprng
    unfold Pipeline.Dat.owesAt Pipeline.owesWithin
    icases Hdue with ⟨%W, -, Hdue⟩; iexists W; iexact Hdue

end Cert.Kernel.Rg

end
-- ==== Proof.K.Seg2.lean ====
/-
  Region 2 as one item of the run. It is entered holding every unscoped buffer at the contents the stretch before it
  left, beside the generator register and no dues. Its windows' arrays are split out of those buffers at entry and put
  back at what the pipeline's write-backs leave at exit; the generator register goes into the pipeline's invariant and
  comes back; the kernel has no semaphore of its own and owes nothing at any point.
-/
import proofs.«121421_j52656299049561_1_alg».proof.Proof.K.Fold

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 2 over the thread state "every unscoped buffer at the boundary's contents, the generator register at some
    state, nothing owed": entered at `W5`, left at `W6`. -/
def seg2 : Pipeline.RegionSeg (pcfgs (F := F)) adm (pdats m) () defs₀ noVar noL noLv 2 where
  win := launch2.win.to₀
  block_pos := launch2.block_pos
  stage_whole := launch2.stage_whole
  K := PEmpty
  osem k := k.elim
  ho := Pipeline.OwnSemFacts.none _
  hbody c := (obligation2 (B5 m) c).loose
  hwaits := Pipeline.hwaits_of_owed_zero _ _ _ _ noL noLv 2 fun _ _ => rfl
  pre c := iprop(StableHlo.held (c : Thread nD τ) (Pipeline.ucRefs τ sig) (W5 m c) ∗ Rest c)
  post c := iprop(StableHlo.held (c : Thread nD τ) (Pipeline.ucRefs τ sig) (W6 m c) ∗ Rest c)
  X c := iprop(∃ r, prngReg c r)
  Y c := iprop(∃ r, prngReg c r)
  Z c := Pipeline.unscopedRest (Ix := Unit) (Name := ℕ) (U := UR sig nD τ) (Lvl := ℕ) spec2 c (B5 m c)
  hentry c := by
    -- the arrays leave the unscoped buffers; no table; the dues at the first point are the core's, at nothing
    rw [Pipeline.ownSems0_none]
    have hsplit := Pipeline.arrays_of_unscopedBufs (p := 2) (pcfgs (F := F)) adm (pdats m) launch2.win launch2.arr_whole c
      ((pdats m 2 c).share_full fun _ => rfl) (B5 m c) fun _ => rfl
    rw [Pipeline.unscopedBufs_held] at hsplit
    iintro ⟨⟨Hbufs, Hprng, Hdue⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hprng]; · iexact Hprng
    iexact Hrest
  hin c := by
    -- the invariant at the first point: the scoped buffers no window stages, and the generator register
    rw [show (pdats m 2 c).Φ 0 = Pipeline.ΦA spec2 c from rfl]; unfold Pipeline.ΦA
    iintro ⟨Hprng, -, Hscoped⟩
    isplitl [Hscoped]; · iexact Hscoped
    iexact Hprng
  hout c := by
    -- and the same two come back at the last point
    rw [Pipeline.ownSems0_none, show (pdats m 2 c).Φ (Fin.last _) = Pipeline.ΦA spec2 c from rfl]; unfold Pipeline.ΦA
    iintro ⟨Hscoped, Hprng⟩
    isplitl [Hprng]; · iexact Hprng
    isplitr; · iempintro
    iexact Hscoped
  hexit c := by
    -- the arrays at their final contents rejoin the rest: every unscoped buffer at `W6`
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (B5 m c) (B6 m c) ((pdats m 2 c).arrAt · cfg2.N) (exit2_arr m c) (exit2_rest m c)
    rw [Pipeline.unscopedBufs_held] at hjoin
    iintro ⟨Harr, Hdue, Hprng, Hrest⟩
    imodintro
    isplitl [Harr Hrest]
    · iapply hjoin; isplitl [Harr] <;> iassumption
    isplitl [Hprng]; · iexact Hprng
    unfold Pipeline.Dat.owesAt Pipeline.owesWithin
    icases Hdue with ⟨%W, -, Hdue⟩; iexists W; iexact Hdue

end Cert.Kernel.Rg

end
-- ==== Proof.K.Seg3.lean ====
/-
  Region 3 as one item of the run. It is entered holding every unscoped buffer at the contents the stretch before it
  left, beside the generator register and no dues. Its windows' arrays are split out of those buffers at entry and put
  back at what the pipeline's write-backs leave at exit; the generator register goes into the pipeline's invariant and
  comes back; the kernel has no semaphore of its own and owes nothing at any point.
-/
import proofs.«121421_j52656299049561_1_alg».proof.Proof.K.Fold

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 3 over the thread state "every unscoped buffer at the boundary's contents, the generator register at some
    state, nothing owed": entered at `W7`, left at `W8`. -/
def seg3 : Pipeline.RegionSeg (pcfgs (F := F)) adm (pdats m) () defs₀ noVar noL noLv 3 where
  win := launch3.win.to₀
  block_pos := launch3.block_pos
  stage_whole := launch3.stage_whole
  K := PEmpty
  osem k := k.elim
  ho := Pipeline.OwnSemFacts.none _
  hbody c := (obligation3 (B7 m) c).loose
  hwaits := Pipeline.hwaits_of_owed_zero _ _ _ _ noL noLv 3 fun _ _ => rfl
  pre c := iprop(StableHlo.held (c : Thread nD τ) (Pipeline.ucRefs τ sig) (W7 m c) ∗ Rest c)
  post c := iprop(StableHlo.held (c : Thread nD τ) (Pipeline.ucRefs τ sig) (W8 m c) ∗ Rest c)
  X c := iprop(∃ r, prngReg c r)
  Y c := iprop(∃ r, prngReg c r)
  Z c := Pipeline.unscopedRest (Ix := Unit) (Name := ℕ) (U := UR sig nD τ) (Lvl := ℕ) spec3 c (B7 m c)
  hentry c := by
    -- the arrays leave the unscoped buffers; no table; the dues at the first point are the core's, at nothing
    rw [Pipeline.ownSems0_none]
    have hsplit := Pipeline.arrays_of_unscopedBufs (p := 3) (pcfgs (F := F)) adm (pdats m) launch3.win launch3.arr_whole c
      ((pdats m 3 c).share_full fun _ => rfl) (B7 m c) fun _ => rfl
    rw [Pipeline.unscopedBufs_held] at hsplit
    iintro ⟨⟨Hbufs, Hprng, Hdue⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hprng]; · iexact Hprng
    iexact Hrest
  hin c := by
    -- the invariant at the first point: the scoped buffers no window stages, and the generator register
    rw [show (pdats m 3 c).Φ 0 = Pipeline.ΦA spec3 c from rfl]; unfold Pipeline.ΦA
    iintro ⟨Hprng, -, Hscoped⟩
    isplitl [Hscoped]; · iexact Hscoped
    iexact Hprng
  hout c := by
    -- and the same two come back at the last point
    rw [Pipeline.ownSems0_none, show (pdats m 3 c).Φ (Fin.last _) = Pipeline.ΦA spec3 c from rfl]; unfold Pipeline.ΦA
    iintro ⟨Hscoped, Hprng⟩
    isplitl [Hprng]; · iexact Hprng
    isplitr; · iempintro
    iexact Hscoped
  hexit c := by
    -- the arrays at their final contents rejoin the rest: every unscoped buffer at `W8`
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (B7 m c) (B8 m c) ((pdats m 3 c).arrAt · cfg3.N) (exit3_arr m c) (exit3_rest m c)
    rw [Pipeline.unscopedBufs_held] at hjoin
    iintro ⟨Harr, Hdue, Hprng, Hrest⟩
    imodintro
    isplitl [Harr Hrest]
    · iapply hjoin; isplitl [Harr] <;> iassumption
    isplitl [Hprng]; · iexact Hprng
    unfold Pipeline.Dat.owesAt Pipeline.owesWithin
    icases Hdue with ⟨%W, -, Hdue⟩; iexists W; iexact Hdue

end Cert.Kernel.Rg

end
-- ==== Proof.K.Seg4.lean ====
/-
  Region 4 as one item of the run. It is entered holding every unscoped buffer at the contents the stretch before it
  left, beside the generator register and no dues. Its windows' arrays are split out of those buffers at entry and put
  back at what the pipeline's write-backs leave at exit; the generator register goes into the pipeline's invariant and
  comes back; the kernel has no semaphore of its own and owes nothing at any point.
-/
import proofs.«121421_j52656299049561_1_alg».proof.Proof.K.Fold

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 4 over the thread state "every unscoped buffer at the boundary's contents, the generator register at some
    state, nothing owed": entered at `W9`, left at `W10`. -/
def seg4 : Pipeline.RegionSeg (pcfgs (F := F)) adm (pdats m) () defs₀ noVar noL noLv 4 where
  win := launch4.win.to₀
  block_pos := launch4.block_pos
  stage_whole := launch4.stage_whole
  K := PEmpty
  osem k := k.elim
  ho := Pipeline.OwnSemFacts.none _
  hbody c := (obligation4 (B9 m) c).loose
  hwaits := Pipeline.hwaits_of_owed_zero _ _ _ _ noL noLv 4 fun _ _ => rfl
  pre c := iprop(StableHlo.held (c : Thread nD τ) (Pipeline.ucRefs τ sig) (W9 m c) ∗ Rest c)
  post c := iprop(StableHlo.held (c : Thread nD τ) (Pipeline.ucRefs τ sig) (W10 m c) ∗ Rest c)
  X c := iprop(∃ r, prngReg c r)
  Y c := iprop(∃ r, prngReg c r)
  Z c := Pipeline.unscopedRest (Ix := Unit) (Name := ℕ) (U := UR sig nD τ) (Lvl := ℕ) spec4 c (B9 m c)
  hentry c := by
    -- the arrays leave the unscoped buffers; no table; the dues at the first point are the core's, at nothing
    rw [Pipeline.ownSems0_none]
    have hsplit := Pipeline.arrays_of_unscopedBufs (p := 4) (pcfgs (F := F)) adm (pdats m) launch4.win launch4.arr_whole c
      ((pdats m 4 c).share_full fun _ => rfl) (B9 m c) fun _ => rfl
    rw [Pipeline.unscopedBufs_held] at hsplit
    iintro ⟨⟨Hbufs, Hprng, Hdue⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hprng]; · iexact Hprng
    iexact Hrest
  hin c := by
    -- the invariant at the first point: the scoped buffers no window stages, and the generator register
    rw [show (pdats m 4 c).Φ 0 = Pipeline.ΦA spec4 c from rfl]; unfold Pipeline.ΦA
    iintro ⟨Hprng, -, Hscoped⟩
    isplitl [Hscoped]; · iexact Hscoped
    iexact Hprng
  hout c := by
    -- and the same two come back at the last point
    rw [Pipeline.ownSems0_none, show (pdats m 4 c).Φ (Fin.last _) = Pipeline.ΦA spec4 c from rfl]; unfold Pipeline.ΦA
    iintro ⟨Hscoped, Hprng⟩
    isplitl [Hprng]; · iexact Hprng
    isplitr; · iempintro
    iexact Hscoped
  hexit c := by
    -- the arrays at their final contents rejoin the rest: every unscoped buffer at `W10`
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (B9 m c) (B10 m c) ((pdats m 4 c).arrAt · cfg4.N) (exit4_arr m c) (exit4_rest m c)
    rw [Pipeline.unscopedBufs_held] at hjoin
    iintro ⟨Harr, Hdue, Hprng, Hrest⟩
    imodintro
    isplitl [Harr Hrest]
    · iapply hjoin; isplitl [Harr] <;> iassumption
    isplitl [Hprng]; · iexact Hprng
    unfold Pipeline.Dat.owesAt Pipeline.owesWithin
    icases Hdue with ⟨%W, -, Hdue⟩; iexists W; iexact Hdue

end Cert.Kernel.Rg

end
-- ==== Proof.K.Seg5.lean ====
/-
  Region 5 as one item of the run. It is entered holding every unscoped buffer at the contents the stretch before it
  left, beside the generator register and no dues. Its windows' arrays are split out of those buffers at entry and put
  back at what the pipeline's write-backs leave at exit; the generator register goes into the pipeline's invariant and
  comes back; the kernel has no semaphore of its own and owes nothing at any point.
-/
import proofs.«121421_j52656299049561_1_alg».proof.Proof.K.Fold

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 5 over the thread state "every unscoped buffer at the boundary's contents, the generator register at some
    state, nothing owed": entered at `W11`, left at `W12`. -/
def seg5 : Pipeline.RegionSeg (pcfgs (F := F)) adm (pdats m) () defs₀ noVar noL noLv 5 where
  win := launch5.win.to₀
  block_pos := launch5.block_pos
  stage_whole := launch5.stage_whole
  K := PEmpty
  osem k := k.elim
  ho := Pipeline.OwnSemFacts.none _
  hbody c := (obligation5 (B11 m) c).loose
  hwaits := Pipeline.hwaits_of_owed_zero _ _ _ _ noL noLv 5 fun _ _ => rfl
  pre c := iprop(StableHlo.held (c : Thread nD τ) (Pipeline.ucRefs τ sig) (W11 m c) ∗ Rest c)
  post c := iprop(StableHlo.held (c : Thread nD τ) (Pipeline.ucRefs τ sig) (W12 m c) ∗ Rest c)
  X c := iprop(∃ r, prngReg c r)
  Y c := iprop(∃ r, prngReg c r)
  Z c := Pipeline.unscopedRest (Ix := Unit) (Name := ℕ) (U := UR sig nD τ) (Lvl := ℕ) spec5 c (B11 m c)
  hentry c := by
    -- the arrays leave the unscoped buffers; no table; the dues at the first point are the core's, at nothing
    rw [Pipeline.ownSems0_none]
    have hsplit := Pipeline.arrays_of_unscopedBufs (p := 5) (pcfgs (F := F)) adm (pdats m) launch5.win launch5.arr_whole c
      ((pdats m 5 c).share_full fun _ => rfl) (B11 m c) fun _ => rfl
    rw [Pipeline.unscopedBufs_held] at hsplit
    iintro ⟨⟨Hbufs, Hprng, Hdue⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hprng]; · iexact Hprng
    iexact Hrest
  hin c := by
    -- the invariant at the first point: the scoped buffers no window stages, and the generator register
    rw [show (pdats m 5 c).Φ 0 = Pipeline.ΦA spec5 c from rfl]; unfold Pipeline.ΦA
    iintro ⟨Hprng, -, Hscoped⟩
    isplitl [Hscoped]; · iexact Hscoped
    iexact Hprng
  hout c := by
    -- and the same two come back at the last point
    rw [Pipeline.ownSems0_none, show (pdats m 5 c).Φ (Fin.last _) = Pipeline.ΦA spec5 c from rfl]; unfold Pipeline.ΦA
    iintro ⟨Hscoped, Hprng⟩
    isplitl [Hprng]; · iexact Hprng
    isplitr; · iempintro
    iexact Hscoped
  hexit c := by
    -- the arrays at their final contents rejoin the rest: every unscoped buffer at `W12`
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (B11 m c) (B12 m c) ((pdats m 5 c).arrAt · cfg5.N) (exit5_arr m c) (exit5_rest m c)
    rw [Pipeline.unscopedBufs_held] at hjoin
    iintro ⟨Harr, Hdue, Hprng, Hrest⟩
    imodintro
    isplitl [Harr Hrest]
    · iapply hjoin; isplitl [Harr] <;> iassumption
    isplitl [Hprng]; · iexact Hprng
    unfold Pipeline.Dat.owesAt Pipeline.owesWithin
    icases Hdue with ⟨%W, -, Hdue⟩; iexists W; iexact Hdue

end Cert.Kernel.Rg

end
-- ==== Proof.K.Keep.lean ====
/-
  Which buffers the three long stretches of host operations write — the stretch that concatenates the projections,
  computes the degree norms and aggregates once, and the two that aggregate again —, listed once per stretch; a buffer
  outside a stretch's list is, after the stretch, as before it. With the same fact for the regions (each changes its
  output array only) a buffer that nothing writes holds its launch contents at the end.
-/
import proofs.«121421_j52656299049561_1_alg».proof.Proof.K.Fold

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers the fourth stretch of host operations writes, one per operation, in order. -/
abbrev wrote3 : List (Ref sig .tc) := [main_v6, main_cst, main_v7, main_cst_0, main_v8, main_v9, main_v10, main_cst_1, main_v11, main_v12, main_v13, main_cst_2, main_v14, main_v15, main_cst_3, main_v16, main_v17, main_cst_4, main_v18, main_v19, main_cst_5, main_v20, main_v21, main_v22, main_v23, main_v24, main_c, main_v25, main_v26, main_c_6, main_v27, main_v28, main_v29, main_v30, main_v31, main_cst_7, main_v32, main_v33, main_v34, main_v35, main_v36, main_v37, main_v38]
theorem writes3 : (hostOps3 : List (HloOp τ sig (Elt F))).Forall fun op => op.writes ⊆ (wrote3.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, StableHlo.nary_writes, Finset.singleton_subset_iff, List.mem_toFinset]
    exact List.mem_map_of_mem (by decide)
theorem W7_keep (c : Dev nD) (r : Ref sig .tc) (h : r ∉ wrote3) : W7 m c (Proc.devRef .tc r) = W6 m c (Proc.devRef .tc r) :=
  StableHlo.after_of_writes_sub hostOps3 _ writes3 h

/-- The buffers the fifth stretch writes. -/
abbrev wrote4 : List (Ref sig .tc) := [main_v40, main_v41, main_v42, main_c_8, main_v43, main_v44, main_c_9, main_v45, main_v46, main_v47, main_v48, main_v49, main_cst_10, main_v50, main_v51, main_v52, main_v53, main_v54, main_v55, main_v56]
theorem writes4 : (hostOps4 : List (HloOp τ sig (Elt F))).Forall fun op => op.writes ⊆ (wrote4.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, StableHlo.nary_writes, Finset.singleton_subset_iff, List.mem_toFinset]
    exact List.mem_map_of_mem (by decide)
theorem W9_keep (c : Dev nD) (r : Ref sig .tc) (h : r ∉ wrote4) : W9 m c (Proc.devRef .tc r) = W8 m c (Proc.devRef .tc r) :=
  StableHlo.after_of_writes_sub hostOps4 _ writes4 h

/-- The buffers the sixth stretch writes. -/
abbrev wrote5 : List (Ref sig .tc) := [main_v58, main_v59, main_v60, main_c_11, main_v61, main_v62, main_c_12, main_v63, main_v64, main_v65, main_v66, main_v67, main_cst_13, main_v68, main_v69, main_v70, main_v71, main_v72, main_v73, main_v74]
theorem writes5 : (hostOps5 : List (HloOp τ sig (Elt F))).Forall fun op => op.writes ⊆ (wrote5.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, StableHlo.nary_writes, Finset.singleton_subset_iff, List.mem_toFinset]
    exact List.mem_map_of_mem (by decide)
theorem W11_keep (c : Dev nD) (r : Ref sig .tc) (h : r ∉ wrote5) : W11 m c (Proc.devRef .tc r) = W10 m c (Proc.devRef .tc r) :=
  StableHlo.after_of_writes_sub hostOps5 _ writes5 h

/-- A buffer no item writes ends at its launch contents: twelve steps back through the fold. -/
theorem W12_untouched (c : Dev nD) (r : Ref sig .tc)
    (h0 : r ∉ ([main_v0] : List (Ref sig .tc))) (o0 : r ≠ main_v1) (h1 : r ∉ ([main_v2] : List (Ref sig .tc))) (o1 : r ≠ main_v3)
    (h2 : r ∉ ([main_v4] : List (Ref sig .tc))) (o2 : r ≠ main_v5) (h3 : r ∉ wrote3) (o3 : r ≠ main_v39)
    (h4 : r ∉ wrote4) (o4 : r ≠ main_v57) (h5 : r ∉ wrote5) (o5 : r ≠ main_v75) :
    W12 m c (Proc.devRef .tc r) = m ((c : Thread nD τ).loc r) :=
  (W12_keep m c r o5).trans <| (W11_keep m c r h5).trans <| (W10_keep m c r o4).trans <| (W9_keep m c r h4).trans <|
  (W8_keep m c r o3).trans <| (W7_keep m c r h3).trans <| (W6_keep m c r o2).trans <| (W5_keep m c r h2).trans <|
  (W4_keep m c r o1).trans <| (W3_keep m c r h1).trans <| (W2_keep m c r o0).trans <| (W1_keep m c r h0).trans rfl

theorem W12_arg0 (c : Dev nD) : W12 m c (Proc.devRef .tc main_arg0) = m ((c : Thread nD τ).loc main_arg0) :=
  W12_untouched m c main_arg0 (by decide) (by decide) (by decide) (by decide) (by decide) (by decide) (by decide) (by decide) (by decide) (by decide) (by decide) (by decide)
theorem W12_arg1 (c : Dev nD) : W12 m c (Proc.devRef .tc main_arg1) = m ((c : Thread nD τ).loc main_arg1) :=
  W12_untouched m c main_arg1 (by decide) (by decide) (by decide) (by decide) (by decide) (by decide) (by decide) (by decide) (by decide) (by decide) (by decide) (by decide)
theorem W12_arg2 (c : Dev nD) : W12 m c (Proc.devRef .tc main_arg2) = m ((c : Thread nD τ).loc main_arg2) :=
  W12_untouched m c main_arg2 (by decide) (by decide) (by decide) (by decide) (by decide) (by decide) (by decide) (by decide) (by decide) (by decide) (by decide) (by decide)
theorem W12_arg3 (c : Dev nD) : W12 m c (Proc.devRef .tc main_arg3) = m ((c : Thread nD τ).loc main_arg3) :=
  W12_untouched m c main_arg3 (by decide) (by decide) (by decide) (by decide) (by decide) (by decide) (by decide) (by decide) (by decide) (by decide) (by decide) (by decide)
theorem W12_arg4 (c : Dev nD) : W12 m c (Proc.devRef .tc main_arg4) = m ((c : Thread nD τ).loc main_arg4) :=
  W12_untouched m c main_arg4 (by decide) (by decide) (by decide) (by decide) (by decide) (by decide) (by decide) (by decide) (by decide) (by decide) (by decide) (by decide)
theorem W12_arg5 (c : Dev nD) : W12 m c (Proc.devRef .tc main_arg5) = m ((c : Thread nD τ).loc main_arg5) :=
  W12_untouched m c main_arg5 (by decide) (by decide) (by decide) (by decide) (by decide) (by decide) (by decide) (by decide) (by decide) (by decide) (by decide) (by decide)
theorem W12_arg6 (c : Dev nD) : W12 m c (Proc.devRef .tc main_arg6) = m ((c : Thread nD τ).loc main_arg6) :=
  W12_untouched m c main_arg6 (by decide) (by decide) (by decide) (by decide) (by decide) (by decide) (by decide) (by decide) (by decide) (by decide) (by decide) (by decide)
theorem W12_arg7 (c : Dev nD) : W12 m c (Proc.devRef .tc main_arg7) = m ((c : Thread nD τ).loc main_arg7) :=
  W12_untouched m c main_arg7 (by decide) (by decide) (by decide) (by decide) (by decide) (by decide) (by decide) (by decide) (by decide) (by decide) (by decide) (by decide)
theorem W12_arg8 (c : Dev nD) : W12 m c (Proc.devRef .tc main_arg8) = m ((c : Thread nD τ).loc main_arg8) :=
  W12_untouched m c main_arg8 (by decide) (by decide) (by decide) (by decide) (by decide) (by decide) (by decide) (by decide) (by decide) (by decide) (by decide) (by decide)
theorem W12_arg9 (c : Dev nD) : W12 m c (Proc.devRef .tc main_arg9) = m ((c : Thread nD τ).loc main_arg9) :=
  W12_untouched m c main_arg9 (by decide) (by decide) (by decide) (by decide) (by decide) (by decide) (by decide) (by decide) (by decide) (by decide) (by decide) (by decide)
theorem W12_arg10 (c : Dev nD) : W12 m c (Proc.devRef .tc main_arg10) = m ((c : Thread nD τ).loc main_arg10) :=
  W12_untouched m c main_arg10 (by decide) (by decide) (by decide) (by decide) (by decide) (by decide) (by decide) (by decide) (by decide) (by decide) (by decide) (by decide)
theorem W12_arg11 (c : Dev nD) : W12 m c (Proc.devRef .tc main_arg11) = m ((c : Thread nD τ).loc main_arg11) :=
  W12_untouched m c main_arg11 (by decide) (by decide) (by decide) (by decide) (by decide) (by decide) (by decide) (by decide) (by decide) (by decide) (by decide) (by decide)
theorem W12_arg12 (c : Dev nD) : W12 m c (Proc.devRef .tc main_arg12) = m ((c : Thread nD τ).loc main_arg12) :=
  W12_untouched m c main_arg12 (by decide) (by decide) (by decide) (by decide) (by decide) (by decide) (by decide) (by decide) (by decide) (by decide) (by decide) (by decide)
theorem W12_arg13 (c : Dev nD) : W12 m c (Proc.devRef .tc main_arg13) = m ((c : Thread nD τ).loc main_arg13) :=
  W12_untouched m c main_arg13 (by decide) (by decide) (by decide) (by decide) (by decide) (by decide) (by decide) (by decide) (by decide) (by decide) (by decide) (by decide)
theorem W12_arg14 (c : Dev nD) : W12 m c (Proc.devRef .tc main_arg14) = m ((c : Thread nD τ).loc main_arg14) :=
  W12_untouched m c main_arg14 (by decide) (by decide) (by decide) (by decide) (by decide) (by decide) (by decide) (by decide) (by decide) (by decide) (by decide) (by decide)
theorem W12_arg15 (c : Dev nD) : W12 m c (Proc.devRef .tc main_arg15) = m ((c : Thread nD τ).loc main_arg15) :=
  W12_untouched m c main_arg15 (by decide) (by decide) (by decide) (by decide) (by decide) (by decide) (by decide) (by decide) (by decide) (by decide) (by decide) (by decide)

end Cert.Kernel.Rg

end
-- ==== Proof.K.Run.lean ====
/-
  The whole program as one run. Its twelve items — six stretches of host operations, six regions — are chained: each
  is entered from what the one before it left. From the launch memory, with nothing owed, every weakly fair execution
  terminates without a fault, and at the end every unscoped buffer of every core holds the last boundary's contents
  (`W12`). Two readings of that one fact follow: the argument arrays end as launched (nothing writes them), and the
  result array ends at what the last region's pipeline leaves.
-/
import proofs.«121421_j52656299049561_1_alg».proof.Proof.K.Seg0
import proofs.«121421_j52656299049561_1_alg».proof.Proof.K.Seg1
import proofs.«121421_j52656299049561_1_alg».proof.Proof.K.Seg2
import proofs.«121421_j52656299049561_1_alg».proof.Proof.K.Seg3
import proofs.«121421_j52656299049561_1_alg».proof.Proof.K.Seg4
import proofs.«121421_j52656299049561_1_alg».proof.Proof.K.Seg5
import proofs.«121421_j52656299049561_1_alg».proof.Proof.K.Keep

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- The twelve items in order. -/
abbrev segs : List (Pipeline.Seg (pcfgs (F := F)) adm (pdats m) () defs₀ noVar noL noLv) :=
  [ .host (hostSeg hostOps0 hostOps0_sub fresh0 (W0 m)),
    .region (seg0 m),
    .host (hostSeg hostOps1 hostOps1_sub fresh1 (W2 m)),
    .region (seg1 m),
    .host (hostSeg hostOps2 hostOps2_sub fresh2 (W4 m)),
    .region (seg2 m),
    .host (hostSeg hostOps3 hostOps3_sub fresh3 (W6 m)),
    .region (seg3 m),
    .host (hostSeg hostOps4 hostOps4_sub fresh4 (W8 m)),
    .region (seg4 m),
    .host (hostSeg hostOps5 hostOps5_sub fresh5 (W10 m)),
    .region (seg5 m) ]

/-- The last thread state, beside the core owing nothing: every unscoped buffer at `W12`, the generator register at
    some state. -/
abbrev Tend (c : Dev nD) : sProp 𝕄 := iprop(StableHlo.held (c : Thread nD τ) (Pipeline.ucRefs τ sig) (W12 m c) ∗ ∃ r, prngReg c r)

set_option backward.isDefEq.respectTransparency.types false in
/-- Every weakly fair execution of the program from memory `m` with zero counters terminates, nothing faulting, and
    in every final state each unscoped buffer of each core holds `W12`'s contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ noVar noL noLv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tend m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl,
      fun c => by
        -- the last region's exit state is the last thread state beside "nothing owed": a regrouping
        show iprop(StableHlo.held (c : Thread nD τ) (Pipeline.ucRefs τ sig) (W12 m c) ∗ Rest c)
          ⊢ iprop(Tend m c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach noL noLv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

end Cert.Kernel.Rg

end
-- ==== Proof.KI.Reg0.lean ====
/-
  Region 0 of the program (the pallas_call running `cc0__proj_kernel`), read at a parameter `V`: the buffer contents the
  region finds when it is entered. A window's block at a grid point is the rectangle of its array the point's index map
  selects. The body loads its three input blocks whole (a tile of rows, the weights, the bias row), computes one value
  from them and stores it whole into the output block, so after the body the output block is that value of the input
  blocks and every input block is as it was. From this: the proof data of the region's pipeline, and the body's
  obligation at every grid point.
-/
import proofs.«121421_j52656299049561_1_alg».proof.Proof.Gen.KernelIdeal.Launch
import proofs.«121421_j52656299049561_1_alg».proof.Proof.Gen.KernelIdeal.Skeleton
import proofs.«121421_j52656299049561_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of the window's array (as the region finds it) that the
    point's index map selects. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The value the body stores into the output block, as a function of the input blocks: one whole-block store of
    the body's arithmetic applied to the whole-block loads. -/
def out0 (x0 : Vec F S2000x512 .f32) (x1 : Vec F S512x128 .f32) (x2 : Vec F S1x128 .f32) : Vec F S2000x128 .f32 :=
  View.canon [⟨(Rect.unit (s := S2000x128) ![0, 0] S2000x128.size inb_S2000x128_S2000x128_0_0), k0_pay1 (View.ld x0 (Rect.unit (s := S2000x512) ![0, 0] S2000x512.size inb_S2000x512_S2000x512_0_0)) (View.ld x1 (Rect.unit (s := S512x128) ![0, 0] S512x128.size inb_S512x128_S512x128_0_0)) (View.ld x2 (Rect.unit (s := S1x128) ![0, 0] S1x128.size inb_S1x128_S1x128_0_0))⟩]

/-- The one store covers the whole output block. -/
theorem out0_cover (p : Vec F S2000x128 .f32) (y : S2000x128.Idx) :
    ∃ pc ∈ ([⟨(Rect.unit (s := S2000x128) ![0, 0] S2000x128.size inb_S2000x128_S2000x128_0_0), p⟩] : List (View.Piece (Elt F) S2000x128 .f32)), y ∈ pc.1.set :=
  View.cover_of_tiled [⟨(Rect.unit (s := S2000x128) ![0, 0] S2000x128.size inb_S2000x128_S2000x128_0_0), p⟩] S2000x128.size (by rfl) y

set_option maxHeartbeats 1000000 in
/-- The body run on whole staging buffers: the inputs hold `x`s, the output anything; it ends with the inputs as
    they were and the output at `out0` of the inputs. -/
theorem body0 (c : Dev nD) (E : Set ℕ) (i : grid0.Coords) (a0 : Memref sig .tc .vmem S2000x512 .f32) (h0 : a0.IsWhole) (a1 : Memref sig .tc .vmem S512x128 .f32) (h1 : a1.IsWhole) (a2 : Memref sig .tc .vmem S1x128 .f32) (h2 : a2.IsWhole) (a3 : Memref sig .tc .vmem S2000x128 .f32) (h3 : a3.IsWhole)
    (x0 : Vec F S2000x512 .f32) (x1 : Vec F S512x128 .f32) (x2 : Vec F S1x128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out0 x0 x1 x2)) -∗ K ⟨⟩))
      ⊢ wp frame (wpE (defs₀ (F := F)) Variants.none c none) E (cc0__proj_kernel i a0 h0 a1 h1 a2 h2 a3 h3) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (out0_cover _)

/-- The pipeline's proof data on core `c`: the arrays as the region finds them; after the body at point `t` every
    input buffer still holds its block and the output buffer holds `out0` of the input blocks; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => out0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) : (dat0 V c).after 3 t = out0 (blk0 V c 0 t) (blk0 V c 1 t) (blk0 V c 2 t) := by dsimp only [dat0]

/-- Input window 0's staging buffer holds its block when the body is called, whether or not the point fetched it. -/
theorem dat0_before0 (c : Dev nD) (t : Fin cfg0.N) (d) : (dat0 V c).before 0 t d = blk0 V c 0 t :=
  ((dat0 V c).before_in_eq_fetched 0 rfl (fun _ => rfl) (fun _ _ _ => rfl)
    (fun t => by rw [dat0_after0]; unfold Dat.blockOf blk0; rw [dat0_A]; try rfl) t d).trans
    (by unfold Dat.fetched Dat.blockOf blk0; rw [dat0_A]; try rfl)

/-- Input window 1's staging buffer holds its block when the body is called, whether or not the point fetched it. -/
theorem dat0_before1 (c : Dev nD) (t : Fin cfg0.N) (d) : (dat0 V c).before 1 t d = blk0 V c 1 t :=
  ((dat0 V c).before_in_eq_fetched 1 rfl (fun _ => rfl) (fun _ _ _ => rfl)
    (fun t => by rw [dat0_after1]; unfold Dat.blockOf blk0; rw [dat0_A]; try rfl) t d).trans
    (by unfold Dat.fetched Dat.blockOf blk0; rw [dat0_A]; try rfl)

/-- Input window 2's staging buffer holds its block when the body is called, whether or not the point fetched it. -/
theorem dat0_before2 (c : Dev nD) (t : Fin cfg0.N) (d) : (dat0 V c).before 2 t d = blk0 V c 2 t :=
  ((dat0 V c).before_in_eq_fetched 2 rfl (fun _ => rfl) (fun _ _ _ => rfl)
    (fun t => by rw [dat0_after2]; unfold Dat.blockOf blk0; rw [dat0_A]; try rfl) t d).trans
    (by unfold Dat.fetched Dat.blockOf blk0; rw [dat0_A]; try rfl)

/-- What the pipeline hands the body at point `t`, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it takes back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: its input buffers hold their blocks, so `body0` applies; the invariant and the
    core's dues pass through untouched. -/
theorem atPoint0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (body0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 0's pipeline, at every grid point. -/
theorem obligation0 (c : Dev nD) : BodyObligation (dat0 (F := F) V c) (defs₀ (F := F)) Variants.none () Set.univ := fun t => by
  rw [bigSep_W0, bigSep_W0]
  exact atPoint0 V c t

end Cert.KernelIdeal.Rg

end
-- ==== Proof.KI.Reg1.lean ====
/-
  Region 1 of the program (the pallas_call running `cc1__proj_kernel`), read at a parameter `V`: the buffer contents the
  region finds when it is entered. A window's block at a grid point is the rectangle of its array the point's index map
  selects. The body loads its three input blocks whole (a tile of rows, the weights, the bias row), computes one value
  from them and stores it whole into the output block, so after the body the output block is that value of the input
  blocks and every input block is as it was. From this: the proof data of the region's pipeline, and the body's
  obligation at every grid point.
-/
import proofs.«121421_j52656299049561_1_alg».proof.Proof.Gen.KernelIdeal.Launch
import proofs.«121421_j52656299049561_1_alg».proof.Proof.Gen.KernelIdeal.Skeleton
import proofs.«121421_j52656299049561_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of the window's array (as the region finds it) that the
    point's index map selects. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The value the body stores into the output block, as a function of the input blocks: one whole-block store of
    the body's arithmetic applied to the whole-block loads. -/
def out1 (x0 : Vec F S1000x256 .f32) (x1 : Vec F S256x128 .f32) (x2 : Vec F S1x128 .f32) : Vec F S1000x128 .f32 :=
  View.canon [⟨(Rect.unit (s := S1000x128) ![0, 0] S1000x128.size inb_S1000x128_S1000x128_0_0), k1_pay1 (View.ld x0 (Rect.unit (s := S1000x256) ![0, 0] S1000x256.size inb_S1000x256_S1000x256_0_0)) (View.ld x1 (Rect.unit (s := S256x128) ![0, 0] S256x128.size inb_S256x128_S256x128_0_0)) (View.ld x2 (Rect.unit (s := S1x128) ![0, 0] S1x128.size inb_S1x128_S1x128_0_0))⟩]

/-- The one store covers the whole output block. -/
theorem out1_cover (p : Vec F S1000x128 .f32) (y : S1000x128.Idx) :
    ∃ pc ∈ ([⟨(Rect.unit (s := S1000x128) ![0, 0] S1000x128.size inb_S1000x128_S1000x128_0_0), p⟩] : List (View.Piece (Elt F) S1000x128 .f32)), y ∈ pc.1.set :=
  View.cover_of_tiled [⟨(Rect.unit (s := S1000x128) ![0, 0] S1000x128.size inb_S1000x128_S1000x128_0_0), p⟩] S1000x128.size (by rfl) y

set_option maxHeartbeats 1000000 in
/-- The body run on whole staging buffers: the inputs hold `x`s, the output anything; it ends with the inputs as
    they were and the output at `out1` of the inputs. -/
theorem body1 (c : Dev nD) (E : Set ℕ) (i : grid1.Coords) (a0 : Memref sig .tc .vmem S1000x256 .f32) (h0 : a0.IsWhole) (a1 : Memref sig .tc .vmem S256x128 .f32) (h1 : a1.IsWhole) (a2 : Memref sig .tc .vmem S1x128 .f32) (h2 : a2.IsWhole) (a3 : Memref sig .tc .vmem S1000x128 .f32) (h3 : a3.IsWhole)
    (x0 : Vec F S1000x256 .f32) (x1 : Vec F S256x128 .f32) (x2 : Vec F S1x128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1 x0 x1 x2)) -∗ K ⟨⟩))
      ⊢ wp frame (wpE (defs₀ (F := F)) Variants.none c none) E (cc1__proj_kernel i a0 h0 a1 h1 a2 h2 a3 h3) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (out1_cover _)

/-- The pipeline's proof data on core `c`: the arrays as the region finds them; after the body at point `t` every
    input buffer still holds its block and the output buffer holds `out1` of the input blocks; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => out1 (blk1 V c 0 t) (blk1 V c 1 t) (blk1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = out1 (blk1 V c 0 t) (blk1 V c 1 t) (blk1 V c 2 t) := by dsimp only [dat1]

/-- Input window 0's staging buffer holds its block when the body is called, whether or not the point fetched it. -/
theorem dat1_before0 (c : Dev nD) (t : Fin cfg1.N) (d) : (dat1 V c).before 0 t d = blk1 V c 0 t :=
  ((dat1 V c).before_in_eq_fetched 0 rfl (fun _ => rfl) (fun _ _ _ => rfl)
    (fun t => by rw [dat1_after0]; unfold Dat.blockOf blk1; rw [dat1_A]; try rfl) t d).trans
    (by unfold Dat.fetched Dat.blockOf blk1; rw [dat1_A]; try rfl)

/-- Input window 1's staging buffer holds its block when the body is called, whether or not the point fetched it. -/
theorem dat1_before1 (c : Dev nD) (t : Fin cfg1.N) (d) : (dat1 V c).before 1 t d = blk1 V c 1 t :=
  ((dat1 V c).before_in_eq_fetched 1 rfl (fun _ => rfl) (fun _ _ _ => rfl)
    (fun t => by rw [dat1_after1]; unfold Dat.blockOf blk1; rw [dat1_A]; try rfl) t d).trans
    (by unfold Dat.fetched Dat.blockOf blk1; rw [dat1_A]; try rfl)

/-- Input window 2's staging buffer holds its block when the body is called, whether or not the point fetched it. -/
theorem dat1_before2 (c : Dev nD) (t : Fin cfg1.N) (d) : (dat1 V c).before 2 t d = blk1 V c 2 t :=
  ((dat1 V c).before_in_eq_fetched 2 rfl (fun _ => rfl) (fun _ _ _ => rfl)
    (fun t => by rw [dat1_after2]; unfold Dat.blockOf blk1; rw [dat1_A]; try rfl) t d).trans
    (by unfold Dat.fetched Dat.blockOf blk1; rw [dat1_A]; try rfl)

/-- What the pipeline hands the body at point `t`, window by window, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it takes back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: its input buffers hold their blocks, so `body1` applies; the invariant and the
    core's dues pass through untouched. -/
theorem atPoint1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2]
  rw [show (dat1 V c).Φ t.succ = (dat1 V c).Φ t.castSucc from rfl,
    show (dat1 V c).owesAt () t.succ = (dat1 V c).owesAt () t.castSucc from rfl,
    dat1_after0, dat1_after1, dat1_after2, dat1_after3]
  iintro ⟨HΦ, Ho, ⟨%d0, H0⟩, ⟨%d1, H1⟩, ⟨%d2, H2⟩, ⟨%d3, H3⟩⟩
  iapply (body1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 1's pipeline, at every grid point. -/
theorem obligation1 (c : Dev nD) : BodyObligation (dat1 (F := F) V c) (defs₀ (F := F)) Variants.none () Set.univ := fun t => by
  rw [bigSep_W1, bigSep_W1]
  exact atPoint1 V c t

end Cert.KernelIdeal.Rg

end
-- ==== Proof.KI.Reg2.lean ====
/-
  Region 2 of the program (the pallas_call running `cc2__proj_kernel`), read at a parameter `V`: the buffer contents the
  region finds when it is entered. A window's block at a grid point is the rectangle of its array the point's index map
  selects. The body loads its three input blocks whole (a tile of rows, the weights, the bias row), computes one value
  from them and stores it whole into the output block, so after the body the output block is that value of the input
  blocks and every input block is as it was. From this: the proof data of the region's pipeline, and the body's
  obligation at every grid point.
-/
import proofs.«121421_j52656299049561_1_alg».proof.Proof.Gen.KernelIdeal.Launch
import proofs.«121421_j52656299049561_1_alg».proof.Proof.Gen.KernelIdeal.Skeleton
import proofs.«121421_j52656299049561_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of the window's array (as the region finds it) that the
    point's index map selects. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The value the body stores into the output block, as a function of the input blocks: one whole-block store of
    the body's arithmetic applied to the whole-block loads. -/
def out2 (x0 : Vec F S1000x128 .f32) (x1 : Vec F S128x128 .f32) (x2 : Vec F S1x128 .f32) : Vec F S1000x128 .f32 :=
  View.canon [⟨(Rect.unit (s := S1000x128) ![0, 0] S1000x128.size inb_S1000x128_S1000x128_0_0), k2_pay1 (View.ld x0 (Rect.unit (s := S1000x128) ![0, 0] S1000x128.size inb_S1000x128_S1000x128_0_0)) (View.ld x1 (Rect.unit (s := S128x128) ![0, 0] S128x128.size inb_S128x128_S128x128_0_0)) (View.ld x2 (Rect.unit (s := S1x128) ![0, 0] S1x128.size inb_S1x128_S1x128_0_0))⟩]

/-- The one store covers the whole output block. -/
theorem out2_cover (p : Vec F S1000x128 .f32) (y : S1000x128.Idx) :
    ∃ pc ∈ ([⟨(Rect.unit (s := S1000x128) ![0, 0] S1000x128.size inb_S1000x128_S1000x128_0_0), p⟩] : List (View.Piece (Elt F) S1000x128 .f32)), y ∈ pc.1.set :=
  View.cover_of_tiled [⟨(Rect.unit (s := S1000x128) ![0, 0] S1000x128.size inb_S1000x128_S1000x128_0_0), p⟩] S1000x128.size (by rfl) y

set_option maxHeartbeats 1000000 in
/-- The body run on whole staging buffers: the inputs hold `x`s, the output anything; it ends with the inputs as
    they were and the output at `out2` of the inputs. -/
theorem body2 (c : Dev nD) (E : Set ℕ) (i : grid2.Coords) (a0 : Memref sig .tc .vmem S1000x128 .f32) (h0 : a0.IsWhole) (a1 : Memref sig .tc .vmem S128x128 .f32) (h1 : a1.IsWhole) (a2 : Memref sig .tc .vmem S1x128 .f32) (h2 : a2.IsWhole) (a3 : Memref sig .tc .vmem S1000x128 .f32) (h3 : a3.IsWhole)
    (x0 : Vec F S1000x128 .f32) (x1 : Vec F S128x128 .f32) (x2 : Vec F S1x128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out2 x0 x1 x2)) -∗ K ⟨⟩))
      ⊢ wp frame (wpE (defs₀ (F := F)) Variants.none c none) E (cc2__proj_kernel i a0 h0 a1 h1 a2 h2 a3 h3) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (out2_cover _)

/-- The pipeline's proof data on core `c`: the arrays as the region finds them; after the body at point `t` every
    input buffer still holds its block and the output buffer holds `out2` of the input blocks; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => out2 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) : (dat2 V c).after 3 t = out2 (blk2 V c 0 t) (blk2 V c 1 t) (blk2 V c 2 t) := by dsimp only [dat2]

/-- Input window 0's staging buffer holds its block when the body is called, whether or not the point fetched it. -/
theorem dat2_before0 (c : Dev nD) (t : Fin cfg2.N) (d) : (dat2 V c).before 0 t d = blk2 V c 0 t :=
  ((dat2 V c).before_in_eq_fetched 0 rfl (fun _ => rfl) (fun _ _ _ => rfl)
    (fun t => by rw [dat2_after0]; unfold Dat.blockOf blk2; rw [dat2_A]; try rfl) t d).trans
    (by unfold Dat.fetched Dat.blockOf blk2; rw [dat2_A]; try rfl)

/-- Input window 1's staging buffer holds its block when the body is called, whether or not the point fetched it. -/
theorem dat2_before1 (c : Dev nD) (t : Fin cfg2.N) (d) : (dat2 V c).before 1 t d = blk2 V c 1 t :=
  ((dat2 V c).before_in_eq_fetched 1 rfl (fun _ => rfl) (fun _ _ _ => rfl)
    (fun t => by rw [dat2_after1]; unfold Dat.blockOf blk2; rw [dat2_A]; try rfl) t d).trans
    (by unfold Dat.fetched Dat.blockOf blk2; rw [dat2_A]; try rfl)

/-- Input window 2's staging buffer holds its block when the body is called, whether or not the point fetched it. -/
theorem dat2_before2 (c : Dev nD) (t : Fin cfg2.N) (d) : (dat2 V c).before 2 t d = blk2 V c 2 t :=
  ((dat2 V c).before_in_eq_fetched 2 rfl (fun _ => rfl) (fun _ _ _ => rfl)
    (fun t => by rw [dat2_after2]; unfold Dat.blockOf blk2; rw [dat2_A]; try rfl) t d).trans
    (by unfold Dat.fetched Dat.blockOf blk2; rw [dat2_A]; try rfl)

/-- What the pipeline hands the body at point `t`, window by window, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it takes back. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any grid point: its input buffers hold their blocks, so `body2` applies; the invariant and the
    core's dues pass through untouched. -/
theorem atPoint2 (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2]
  rw [show (dat2 V c).Φ t.succ = (dat2 V c).Φ t.castSucc from rfl,
    show (dat2 V c).owesAt () t.succ = (dat2 V c).owesAt () t.castSucc from rfl,
    dat2_after0, dat2_after1, dat2_after2, dat2_after3]
  iintro ⟨HΦ, Ho, ⟨%d0, H0⟩, ⟨%d1, H1⟩, ⟨%d2, H2⟩, ⟨%d3, H3⟩⟩
  iapply (body2 c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 2's pipeline, at every grid point. -/
theorem obligation2 (c : Dev nD) : BodyObligation (dat2 (F := F) V c) (defs₀ (F := F)) Variants.none () Set.univ := fun t => by
  rw [bigSep_W2, bigSep_W2]
  exact atPoint2 V c t

end Cert.KernelIdeal.Rg

end
-- ==== Proof.KI.Reg3.lean ====
/-
  Region 3 of the program (the pallas_call running `cc3__bias_relu_kernel`), read at a parameter `V`: the buffer contents the region
  finds when it is entered. A window's block at a grid point is the rectangle of its array the point's index map
  selects. The body loads every input block whole, computes one value from them and stores it whole into the output
  block, so after the body the output block is that value of the input blocks and every input block is as it was.
  From this: the proof data of the region's pipeline, and the body's obligation at every grid point.
-/
import proofs.«121421_j52656299049561_1_alg».proof.Proof.Gen.KernelIdeal.Launch
import proofs.«121421_j52656299049561_1_alg».proof.Proof.Gen.KernelIdeal.Skeleton
import proofs.«121421_j52656299049561_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of the window's array (as the region finds it) that the
    point's index map selects. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The value the body stores into the output block, as a function of the input blocks: one whole-block store of
    the body's arithmetic applied to the whole-block loads. -/
def out3 (x0 : Vec F S2000x128 .f32) (x1 : Vec F S1x128 .f32) : Vec F S2000x128 .f32 :=
  View.canon [⟨(Rect.unit (s := S2000x128) ![0, 0] S2000x128.size inb_S2000x128_S2000x128_0_0), k3_pay1 (View.ld x0 (Rect.unit (s := S2000x128) ![0, 0] S2000x128.size inb_S2000x128_S2000x128_0_0)) (View.ld x1 (Rect.unit (s := S1x128) ![0, 0] S1x128.size inb_S1x128_S1x128_0_0))⟩]

/-- The one store covers the whole output block. -/
theorem out3_cover (p : Vec F S2000x128 .f32) (y : S2000x128.Idx) :
    ∃ pc ∈ ([⟨(Rect.unit (s := S2000x128) ![0, 0] S2000x128.size inb_S2000x128_S2000x128_0_0), p⟩] : List (View.Piece (Elt F) S2000x128 .f32)), y ∈ pc.1.set :=
  View.cover_of_tiled [⟨(Rect.unit (s := S2000x128) ![0, 0] S2000x128.size inb_S2000x128_S2000x128_0_0), p⟩] S2000x128.size (by rfl) y

set_option maxHeartbeats 1000000 in
/-- The body run on whole staging buffers: the inputs hold `x`s, the output anything; it ends with the inputs as
    they were and the output at `out3` of the inputs. -/
theorem body3 (c : Dev nD) (E : Set ℕ) (i : grid3.Coords) (a0 : Memref sig .tc .vmem S2000x128 .f32) (h0 : a0.IsWhole) (a1 : Memref sig .tc .vmem S1x128 .f32) (h1 : a1.IsWhole) (a2 : Memref sig .tc .vmem S2000x128 .f32) (h2 : a2.IsWhole)
    (x0 : Vec F S2000x128 .f32) (x1 : Vec F S1x128 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out3 x0 x1)) -∗ K ⟨⟩))
      ⊢ wp frame (wpE (defs₀ (F := F)) Variants.none c none) E (cc3__bias_relu_kernel i a0 h0 a1 h1 a2 h2) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (out3_cover _)

/-- The pipeline's proof data on core `c`: the arrays as the region finds them; after the body at point `t` every
    input buffer still holds its block and the output buffer holds `out3` of the input blocks; nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => out3 (blk3 V c 0 t) (blk3 V c 1 t)
  Φ _ := Pipeline.ΦA spec3 c
  q _ := fullShare
  owed _ := 0

theorem dat3_A (c : Dev nD) (w : Fin cfg3.W) : (dat3 V c).A w = V c (Pipeline.arrRef spec3 w) := by
  dsimp only [dat3]

theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) : (dat3 V c).after 2 t = out3 (blk3 V c 0 t) (blk3 V c 1 t) := by dsimp only [dat3]

/-- Input window 0's staging buffer holds its block when the body is called, whether or not the point fetched it. -/
theorem dat3_before0 (c : Dev nD) (t : Fin cfg3.N) (d) : (dat3 V c).before 0 t d = blk3 V c 0 t :=
  ((dat3 V c).before_in_eq_fetched 0 rfl (fun _ => rfl) (fun _ _ _ => rfl)
    (fun t => by rw [dat3_after0]; unfold Dat.blockOf blk3; rw [dat3_A]; try rfl) t d).trans
    (by unfold Dat.fetched Dat.blockOf blk3; rw [dat3_A]; try rfl)

/-- Input window 1's staging buffer holds its block when the body is called, whether or not the point fetched it. -/
theorem dat3_before1 (c : Dev nD) (t : Fin cfg3.N) (d) : (dat3 V c).before 1 t d = blk3 V c 1 t :=
  ((dat3 V c).before_in_eq_fetched 1 rfl (fun _ => rfl) (fun _ _ _ => rfl)
    (fun t => by rw [dat3_after1]; unfold Dat.blockOf blk3; rw [dat3_A]; try rfl) t d).trans
    (by unfold Dat.fetched Dat.blockOf blk3; rw [dat3_A]; try rfl)

/-- What the pipeline hands the body at point `t`, window by window, -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it takes back. -/
def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any grid point: its input buffers hold their blocks, so `body3` applies; the invariant and the
    core's dues pass through untouched. -/
theorem atPoint3 (c : Dev nD) (t : Fin cfg3.N) :
    pre3 V c t ⊢ wp frame (wpE (defs₀ (F := F)) Variants.none c none) Set.univ (bodyAt3 t) (fun _ => post3 V c t) := by
  unfold pre3 post3 bodyAt3
  simp only [dat3_before0, dat3_before1]
  rw [show (dat3 V c).Φ t.succ = (dat3 V c).Φ t.castSucc from rfl,
    show (dat3 V c).owesAt () t.succ = (dat3 V c).owesAt () t.castSucc from rfl,
    dat3_after0, dat3_after1, dat3_after2]
  iintro ⟨HΦ, Ho, ⟨%d0, H0⟩, ⟨%d1, H1⟩, ⟨%d2, H2⟩⟩
  iapply (body3 c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 3's pipeline, at every grid point. -/
theorem obligation3 (c : Dev nD) : BodyObligation (dat3 (F := F) V c) (defs₀ (F := F)) Variants.none () Set.univ := fun t => by
  rw [bigSep_W3, bigSep_W3]
  exact atPoint3 V c t

end Cert.KernelIdeal.Rg

end
-- ==== Proof.KI.Reg4.lean ====
/-
  Region 4 of the program (the pallas_call running `cc4_kernel`), read at a parameter `V`: the buffer contents the
  region finds when it is entered. A window's block at a grid point is the rectangle of its array the point's index map
  selects. The body loads its three input blocks whole (a tile of rows, the weights, the bias row), computes one value
  from them and stores it whole into the output block, so after the body the output block is that value of the input
  blocks and every input block is as it was. From this: the proof data of the region's pipeline, and the body's
  obligation at every grid point.
-/
import proofs.«121421_j52656299049561_1_alg».proof.Proof.Gen.KernelIdeal.Launch
import proofs.«121421_j52656299049561_1_alg».proof.Proof.Gen.KernelIdeal.Skeleton
import proofs.«121421_j52656299049561_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of the window's array (as the region finds it) that the
    point's index map selects. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The value the body stores into the output block, as a function of the input blocks: one whole-block store of
    the body's arithmetic applied to the whole-block loads. -/
def out4 (x0 : Vec F S2000x128 .f32) (x1 : Vec F S128x128 .f32) (x2 : Vec F S1x128 .f32) : Vec F S2000x128 .f32 :=
  View.canon [⟨(Rect.unit (s := S2000x128) ![0, 0] S2000x128.size inb_S2000x128_S2000x128_0_0), k4_pay1 (View.ld x0 (Rect.unit (s := S2000x128) ![0, 0] S2000x128.size inb_S2000x128_S2000x128_0_0)) (View.ld x1 (Rect.unit (s := S128x128) ![0, 0] S128x128.size inb_S128x128_S128x128_0_0)) (View.ld x2 (Rect.unit (s := S1x128) ![0, 0] S1x128.size inb_S1x128_S1x128_0_0))⟩]

/-- The one store covers the whole output block. -/
theorem out4_cover (p : Vec F S2000x128 .f32) (y : S2000x128.Idx) :
    ∃ pc ∈ ([⟨(Rect.unit (s := S2000x128) ![0, 0] S2000x128.size inb_S2000x128_S2000x128_0_0), p⟩] : List (View.Piece (Elt F) S2000x128 .f32)), y ∈ pc.1.set :=
  View.cover_of_tiled [⟨(Rect.unit (s := S2000x128) ![0, 0] S2000x128.size inb_S2000x128_S2000x128_0_0), p⟩] S2000x128.size (by rfl) y

set_option maxHeartbeats 1000000 in
/-- The body run on whole staging buffers: the inputs hold `x`s, the output anything; it ends with the inputs as
    they were and the output at `out4` of the inputs. -/
theorem body4 (c : Dev nD) (E : Set ℕ) (i : grid4.Coords) (a0 : Memref sig .tc .vmem S2000x128 .f32) (h0 : a0.IsWhole) (a1 : Memref sig .tc .vmem S128x128 .f32) (h1 : a1.IsWhole) (a2 : Memref sig .tc .vmem S1x128 .f32) (h2 : a2.IsWhole) (a3 : Memref sig .tc .vmem S2000x128 .f32) (h3 : a3.IsWhole)
    (x0 : Vec F S2000x128 .f32) (x1 : Vec F S128x128 .f32) (x2 : Vec F S1x128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out4 x0 x1 x2)) -∗ K ⟨⟩))
      ⊢ wp frame (wpE (defs₀ (F := F)) Variants.none c none) E (cc4_kernel i a0 h0 a1 h1 a2 h2 a3 h3) K := by
  simp only [cc4_kernel_eq_skeleton]; unfold cc4_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (out4_cover _)

/-- The pipeline's proof data on core `c`: the arrays as the region finds them; after the body at point `t` every
    input buffer still holds its block and the output buffer holds `out4` of the input blocks; nothing owed. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => out4 (blk4 V c 0 t) (blk4 V c 1 t) (blk4 V c 2 t)
  Φ _ := Pipeline.ΦA spec4 c
  q _ := fullShare
  owed _ := 0

theorem dat4_A (c : Dev nD) (w : Fin cfg4.W) : (dat4 V c).A w = V c (Pipeline.arrRef spec4 w) := by
  dsimp only [dat4]

theorem dat4_after0 (c : Dev nD) (t : Fin cfg4.N) : (dat4 V c).after 0 t = blk4 V c 0 t := by dsimp only [dat4]
theorem dat4_after1 (c : Dev nD) (t : Fin cfg4.N) : (dat4 V c).after 1 t = blk4 V c 1 t := by dsimp only [dat4]
theorem dat4_after2 (c : Dev nD) (t : Fin cfg4.N) : (dat4 V c).after 2 t = blk4 V c 2 t := by dsimp only [dat4]
theorem dat4_after3 (c : Dev nD) (t : Fin cfg4.N) : (dat4 V c).after 3 t = out4 (blk4 V c 0 t) (blk4 V c 1 t) (blk4 V c 2 t) := by dsimp only [dat4]

/-- Input window 0's staging buffer holds its block when the body is called, whether or not the point fetched it. -/
theorem dat4_before0 (c : Dev nD) (t : Fin cfg4.N) (d) : (dat4 V c).before 0 t d = blk4 V c 0 t :=
  ((dat4 V c).before_in_eq_fetched 0 rfl (fun _ => rfl) (fun _ _ _ => rfl)
    (fun t => by rw [dat4_after0]; unfold Dat.blockOf blk4; rw [dat4_A]; try rfl) t d).trans
    (by unfold Dat.fetched Dat.blockOf blk4; rw [dat4_A]; try rfl)

/-- Input window 1's staging buffer holds its block when the body is called, whether or not the point fetched it. -/
theorem dat4_before1 (c : Dev nD) (t : Fin cfg4.N) (d) : (dat4 V c).before 1 t d = blk4 V c 1 t :=
  ((dat4 V c).before_in_eq_fetched 1 rfl (fun _ => rfl) (fun _ _ _ => rfl)
    (fun t => by rw [dat4_after1]; unfold Dat.blockOf blk4; rw [dat4_A]; try rfl) t d).trans
    (by unfold Dat.fetched Dat.blockOf blk4; rw [dat4_A]; try rfl)

/-- Input window 2's staging buffer holds its block when the body is called, whether or not the point fetched it. -/
theorem dat4_before2 (c : Dev nD) (t : Fin cfg4.N) (d) : (dat4 V c).before 2 t d = blk4 V c 2 t :=
  ((dat4 V c).before_in_eq_fetched 2 rfl (fun _ => rfl) (fun _ _ _ => rfl)
    (fun t => by rw [dat4_after2]; unfold Dat.blockOf blk4; rw [dat4_A]; try rfl) t d).trans
    (by unfold Dat.fetched Dat.blockOf blk4; rw [dat4_A]; try rfl)

/-- What the pipeline hands the body at point `t`, window by window, -/
def pre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it takes back. -/
def post4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any grid point: its input buffers hold their blocks, so `body4` applies; the invariant and the
    core's dues pass through untouched. -/
theorem atPoint4 (c : Dev nD) (t : Fin cfg4.N) :
    pre4 V c t ⊢ wp frame (wpE (defs₀ (F := F)) Variants.none c none) Set.univ (bodyAt4 t) (fun _ => post4 V c t) := by
  unfold pre4 post4 bodyAt4
  simp only [dat4_before0, dat4_before1, dat4_before2]
  rw [show (dat4 V c).Φ t.succ = (dat4 V c).Φ t.castSucc from rfl,
    show (dat4 V c).owesAt () t.succ = (dat4 V c).owesAt () t.castSucc from rfl,
    dat4_after0, dat4_after1, dat4_after2, dat4_after3]
  iintro ⟨HΦ, Ho, ⟨%d0, H0⟩, ⟨%d1, H1⟩, ⟨%d2, H2⟩, ⟨%d3, H3⟩⟩
  iapply (body4 c Set.univ _ _ _ _ _ _ _ _ _ (blk4 V c 0 t) (blk4 V c 1 t) (blk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 4's pipeline, at every grid point. -/
theorem obligation4 (c : Dev nD) : BodyObligation (dat4 (F := F) V c) (defs₀ (F := F)) Variants.none () Set.univ := fun t => by
  rw [bigSep_W4, bigSep_W4]
  exact atPoint4 V c t

end Cert.KernelIdeal.Rg

end
-- ==== Proof.KI.Reg5.lean ====
/-
  Region 5 of the program (the pallas_call running `cc5_kernel`), read at a parameter `V`: the buffer contents the
  region finds when it is entered. A window's block at a grid point is the rectangle of its array the point's index map
  selects. The body loads its three input blocks whole (a tile of rows, the weights, the bias row), computes one value
  from them and stores it whole into the output block, so after the body the output block is that value of the input
  blocks and every input block is as it was. From this: the proof data of the region's pipeline, and the body's
  obligation at every grid point.
-/
import proofs.«121421_j52656299049561_1_alg».proof.Proof.Gen.KernelIdeal.Launch
import proofs.«121421_j52656299049561_1_alg».proof.Proof.Gen.KernelIdeal.Skeleton
import proofs.«121421_j52656299049561_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of the window's array (as the region finds it) that the
    point's index map selects. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The value the body stores into the output block, as a function of the input blocks: one whole-block store of
    the body's arithmetic applied to the whole-block loads. -/
def out5 (x0 : Vec F S2000x128 .f32) (x1 : Vec F S128x64 .f32) (x2 : Vec F S1x64 .f32) : Vec F S2000x64 .f32 :=
  View.canon [⟨(Rect.unit (s := S2000x64) ![0, 0] S2000x64.size inb_S2000x64_S2000x64_0_0), k5_pay1 (View.ld x0 (Rect.unit (s := S2000x128) ![0, 0] S2000x128.size inb_S2000x128_S2000x128_0_0)) (View.ld x1 (Rect.unit (s := S128x64) ![0, 0] S128x64.size inb_S128x64_S128x64_0_0)) (View.ld x2 (Rect.unit (s := S1x64) ![0, 0] S1x64.size inb_S1x64_S1x64_0_0))⟩]

/-- The one store covers the whole output block. -/
theorem out5_cover (p : Vec F S2000x64 .f32) (y : S2000x64.Idx) :
    ∃ pc ∈ ([⟨(Rect.unit (s := S2000x64) ![0, 0] S2000x64.size inb_S2000x64_S2000x64_0_0), p⟩] : List (View.Piece (Elt F) S2000x64 .f32)), y ∈ pc.1.set :=
  View.cover_of_tiled [⟨(Rect.unit (s := S2000x64) ![0, 0] S2000x64.size inb_S2000x64_S2000x64_0_0), p⟩] S2000x64.size (by rfl) y

set_option maxHeartbeats 1000000 in
/-- The body run on whole staging buffers: the inputs hold `x`s, the output anything; it ends with the inputs as
    they were and the output at `out5` of the inputs. -/
theorem body5 (c : Dev nD) (E : Set ℕ) (i : grid5.Coords) (a0 : Memref sig .tc .vmem S2000x128 .f32) (h0 : a0.IsWhole) (a1 : Memref sig .tc .vmem S128x64 .f32) (h1 : a1.IsWhole) (a2 : Memref sig .tc .vmem S1x64 .f32) (h2 : a2.IsWhole) (a3 : Memref sig .tc .vmem S2000x64 .f32) (h3 : a3.IsWhole)
    (x0 : Vec F S2000x128 .f32) (x1 : Vec F S128x64 .f32) (x2 : Vec F S1x64 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out5 x0 x1 x2)) -∗ K ⟨⟩))
      ⊢ wp frame (wpE (defs₀ (F := F)) Variants.none c none) E (cc5_kernel i a0 h0 a1 h1 a2 h2 a3 h3) K := by
  simp only [cc5_kernel_eq_skeleton]; unfold cc5_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (out5_cover _)

/-- The pipeline's proof data on core `c`: the arrays as the region finds them; after the body at point `t` every
    input buffer still holds its block and the output buffer holds `out5` of the input blocks; nothing owed. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => out5 (blk5 V c 0 t) (blk5 V c 1 t) (blk5 V c 2 t)
  Φ _ := Pipeline.ΦA spec5 c
  q _ := fullShare
  owed _ := 0

theorem dat5_A (c : Dev nD) (w : Fin cfg5.W) : (dat5 V c).A w = V c (Pipeline.arrRef spec5 w) := by
  dsimp only [dat5]

theorem dat5_after0 (c : Dev nD) (t : Fin cfg5.N) : (dat5 V c).after 0 t = blk5 V c 0 t := by dsimp only [dat5]
theorem dat5_after1 (c : Dev nD) (t : Fin cfg5.N) : (dat5 V c).after 1 t = blk5 V c 1 t := by dsimp only [dat5]
theorem dat5_after2 (c : Dev nD) (t : Fin cfg5.N) : (dat5 V c).after 2 t = blk5 V c 2 t := by dsimp only [dat5]
theorem dat5_after3 (c : Dev nD) (t : Fin cfg5.N) : (dat5 V c).after 3 t = out5 (blk5 V c 0 t) (blk5 V c 1 t) (blk5 V c 2 t) := by dsimp only [dat5]

/-- Input window 0's staging buffer holds its block when the body is called, whether or not the point fetched it. -/
theorem dat5_before0 (c : Dev nD) (t : Fin cfg5.N) (d) : (dat5 V c).before 0 t d = blk5 V c 0 t :=
  ((dat5 V c).before_in_eq_fetched 0 rfl (fun _ => rfl) (fun _ _ _ => rfl)
    (fun t => by rw [dat5_after0]; unfold Dat.blockOf blk5; rw [dat5_A]; try rfl) t d).trans
    (by unfold Dat.fetched Dat.blockOf blk5; rw [dat5_A]; try rfl)

/-- Input window 1's staging buffer holds its block when the body is called, whether or not the point fetched it. -/
theorem dat5_before1 (c : Dev nD) (t : Fin cfg5.N) (d) : (dat5 V c).before 1 t d = blk5 V c 1 t :=
  ((dat5 V c).before_in_eq_fetched 1 rfl (fun _ => rfl) (fun _ _ _ => rfl)
    (fun t => by rw [dat5_after1]; unfold Dat.blockOf blk5; rw [dat5_A]; try rfl) t d).trans
    (by unfold Dat.fetched Dat.blockOf blk5; rw [dat5_A]; try rfl)

/-- Input window 2's staging buffer holds its block when the body is called, whether or not the point fetched it. -/
theorem dat5_before2 (c : Dev nD) (t : Fin cfg5.N) (d) : (dat5 V c).before 2 t d = blk5 V c 2 t :=
  ((dat5 V c).before_in_eq_fetched 2 rfl (fun _ => rfl) (fun _ _ _ => rfl)
    (fun t => by rw [dat5_after2]; unfold Dat.blockOf blk5; rw [dat5_A]; try rfl) t d).trans
    (by unfold Dat.fetched Dat.blockOf blk5; rw [dat5_A]; try rfl)

/-- What the pipeline hands the body at point `t`, window by window, -/
def pre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it takes back. -/
def post5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any grid point: its input buffers hold their blocks, so `body5` applies; the invariant and the
    core's dues pass through untouched. -/
theorem atPoint5 (c : Dev nD) (t : Fin cfg5.N) :
    pre5 V c t ⊢ wp frame (wpE (defs₀ (F := F)) Variants.none c none) Set.univ (bodyAt5 t) (fun _ => post5 V c t) := by
  unfold pre5 post5 bodyAt5
  simp only [dat5_before0, dat5_before1, dat5_before2]
  rw [show (dat5 V c).Φ t.succ = (dat5 V c).Φ t.castSucc from rfl,
    show (dat5 V c).owesAt () t.succ = (dat5 V c).owesAt () t.castSucc from rfl,
    dat5_after0, dat5_after1, dat5_after2, dat5_after3]
  iintro ⟨HΦ, Ho, ⟨%d0, H0⟩, ⟨%d1, H1⟩, ⟨%d2, H2⟩, ⟨%d3, H3⟩⟩
  iapply (body5 c Set.univ _ _ _ _ _ _ _ _ _ (blk5 V c 0 t) (blk5 V c 1 t) (blk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 5's pipeline, at every grid point. -/
theorem obligation5 (c : Dev nD) : BodyObligation (dat5 (F := F) V c) (defs₀ (F := F)) Variants.none () Set.univ := fun t => by
  rw [bigSep_W5, bigSep_W5]
  exact atPoint5 V c t

end Cert.KernelIdeal.Rg

end
-- ==== Proof.KI.Fold.lean ====
/-
  What every unscoped buffer of a core holds between the program's twelve items, as a fold from the launch memory.
  A stretch of host operations leaves each buffer at the operations' result on what the stretch found. A region leaves
  each of its windows' arrays at what its pipeline's write-backs leave — an input array exactly as found, the output
  array rebuilt block by block — and every other buffer as it found it. Hence: a buffer that no stretch writes and
  that is no region's output ends holding its launch contents; in particular every argument array does.
-/
import proofs.«121421_j52656299049561_1_alg».proof.Proof.KI.Reg0
import proofs.«121421_j52656299049561_1_alg».proof.Proof.KI.Reg1
import proofs.«121421_j52656299049561_1_alg».proof.Proof.KI.Reg2
import proofs.«121421_j52656299049561_1_alg».proof.Proof.KI.Reg3
import proofs.«121421_j52656299049561_1_alg».proof.Proof.KI.Reg4
import proofs.«121421_j52656299049561_1_alg».proof.Proof.KI.Reg5

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- Core `c`'s buffers at launch. -/
abbrev W0 : Dev nD → Valuation τ sig (Elt F) := fun c b => m (c, b)

/-- After the host stretch before region 0: what region 0 is entered from. -/
abbrev W1 : Dev nD → Valuation τ sig (Elt F) := fun c => StableHlo.after hostOps0 (W0 m c)
/-- The same, read at the TensorCore's references. -/
abbrev B1 : (c : Dev nD) → (b : Ref sig .tc) → Buf (Elt F) ((c : Thread nD τ).loc b) := fun c b => W1 m c b
/-- After region 0: its windows' arrays at what the pipeline's write-backs leave, everything else as entered. -/
def W2 (c : Dev nD) : Valuation τ sig (Elt F) :=
  Pipeline.withArrays spec0 c (W1 m c) fun w => (dat0 (B1 m) c).arrAt w cfg0.N
theorem W2_arr (c : Dev nD) (w : Fin cfg0.W) :
    W2 m c (Proc.devRef .tc (Pipeline.arrRef spec0 w)) = (dat0 (B1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same, read at the TensorCore's references. -/
abbrev B2 : (c : Dev nD) → (b : Ref sig .tc) → Buf (Elt F) ((c : Thread nD τ).loc b) := fun c b => W2 m c b
theorem exit0_arr (c : Dev nD) (w : Fin cfg0.W) : (dat0 (B1 m) c).arrAt w cfg0.N = B2 m c (Pipeline.arrRef spec0 w) :=
  (W2_arr m c w).symm
theorem exit0_rest (c : Dev nD) : ∀ b, b ∉ Finset.univ.image (Pipeline.arrRef spec0) → B2 m c b = B1 m c b :=
  fun b hb => W2_of_ne m c b fun w h => hb (Finset.mem_image.mpr ⟨w, Finset.mem_univ _, h⟩)
/-- Region 0 changes no buffer but its output array `main_v1`: an input array is never written back. -/
theorem W2_keep (c : Dev nD) (b : Ref sig .tc) (hb : b ≠ main_v1) :
    W2 m c (Proc.devRef .tc b) = W1 m c (Proc.devRef .tc b) := by
  by_cases h : ∃ w, Pipeline.arrRef spec0 w = b
  · obtain ⟨w, rfl⟩ := h
    rw [W2_arr]
    match w, hb with
    | ⟨0, _⟩, _ => exact ((dat0 (B1 m) c).arrAt_in 0 rfl _).trans (dat0_A (B1 m) c 0)
    | ⟨1, _⟩, _ => exact ((dat0 (B1 m) c).arrAt_in 1 rfl _).trans (dat0_A (B1 m) c 1)
    | ⟨2, _⟩, _ => exact ((dat0 (B1 m) c).arrAt_in 2 rfl _).trans (dat0_A (B1 m) c 2)
    | ⟨3, _⟩, hb => exact absurd rfl hb
  · exact W2_of_ne m c b fun w e => h ⟨w, e⟩

/-- After the host stretch before region 1: what region 1 is entered from. -/
abbrev W3 : Dev nD → Valuation τ sig (Elt F) := fun c => StableHlo.after hostOps1 (W2 m c)
/-- The same, read at the TensorCore's references. -/
abbrev B3 : (c : Dev nD) → (b : Ref sig .tc) → Buf (Elt F) ((c : Thread nD τ).loc b) := fun c b => W3 m c b
/-- After region 1: its windows' arrays at what the pipeline's write-backs leave, everything else as entered. -/
def W4 (c : Dev nD) : Valuation τ sig (Elt F) :=
  Pipeline.withArrays spec1 c (W3 m c) fun w => (dat1 (B3 m) c).arrAt w cfg1.N
theorem W4_arr (c : Dev nD) (w : Fin cfg1.W) :
    W4 m c (Proc.devRef .tc (Pipeline.arrRef spec1 w)) = (dat1 (B3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same, read at the TensorCore's references. -/
abbrev B4 : (c : Dev nD) → (b : Ref sig .tc) → Buf (Elt F) ((c : Thread nD τ).loc b) := fun c b => W4 m c b
theorem exit1_arr (c : Dev nD) (w : Fin cfg1.W) : (dat1 (B3 m) c).arrAt w cfg1.N = B4 m c (Pipeline.arrRef spec1 w) :=
  (W4_arr m c w).symm
theorem exit1_rest (c : Dev nD) : ∀ b, b ∉ Finset.univ.image (Pipeline.arrRef spec1) → B4 m c b = B3 m c b :=
  fun b hb => W4_of_ne m c b fun w h => hb (Finset.mem_image.mpr ⟨w, Finset.mem_univ _, h⟩)
/-- Region 1 changes no buffer but its output array `main_v3`: an input array is never written back. -/
theorem W4_keep (c : Dev nD) (b : Ref sig .tc) (hb : b ≠ main_v3) :
    W4 m c (Proc.devRef .tc b) = W3 m c (Proc.devRef .tc b) := by
  by_cases h : ∃ w, Pipeline.arrRef spec1 w = b
  · obtain ⟨w, rfl⟩ := h
    rw [W4_arr]
    match w, hb with
    | ⟨0, _⟩, _ => exact ((dat1 (B3 m) c).arrAt_in 0 rfl _).trans (dat1_A (B3 m) c 0)
    | ⟨1, _⟩, _ => exact ((dat1 (B3 m) c).arrAt_in 1 rfl _).trans (dat1_A (B3 m) c 1)
    | ⟨2, _⟩, _ => exact ((dat1 (B3 m) c).arrAt_in 2 rfl _).trans (dat1_A (B3 m) c 2)
    | ⟨3, _⟩, hb => exact absurd rfl hb
  · exact W4_of_ne m c b fun w e => h ⟨w, e⟩

/-- After the host stretch before region 2: what region 2 is entered from. -/
abbrev W5 : Dev nD → Valuation τ sig (Elt F) := fun c => StableHlo.after hostOps2 (W4 m c)
/-- The same, read at the TensorCore's references. -/
abbrev B5 : (c : Dev nD) → (b : Ref sig .tc) → Buf (Elt F) ((c : Thread nD τ).loc b) := fun c b => W5 m c b
/-- After region 2: its windows' arrays at what the pipeline's write-backs leave, everything else as entered. -/
def W6 (c : Dev nD) : Valuation τ sig (Elt F) :=
  Pipeline.withArrays spec2 c (W5 m c) fun w => (dat2 (B5 m) c).arrAt w cfg2.N
theorem W6_arr (c : Dev nD) (w : Fin cfg2.W) :
    W6 m c (Proc.devRef .tc (Pipeline.arrRef spec2 w)) = (dat2 (B5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same, read at the TensorCore's references. -/
abbrev B6 : (c : Dev nD) → (b : Ref sig .tc) → Buf (Elt F) ((c : Thread nD τ).loc b) := fun c b => W6 m c b
theorem exit2_arr (c : Dev nD) (w : Fin cfg2.W) : (dat2 (B5 m) c).arrAt w cfg2.N = B6 m c (Pipeline.arrRef spec2 w) :=
  (W6_arr m c w).symm
theorem exit2_rest (c : Dev nD) : ∀ b, b ∉ Finset.univ.image (Pipeline.arrRef spec2) → B6 m c b = B5 m c b :=
  fun b hb => W6_of_ne m c b fun w h => hb (Finset.mem_image.mpr ⟨w, Finset.mem_univ _, h⟩)
/-- Region 2 changes no buffer but its output array `main_v5`: an input array is never written back. -/
theorem W6_keep (c : Dev nD) (b : Ref sig .tc) (hb : b ≠ main_v5) :
    W6 m c (Proc.devRef .tc b) = W5 m c (Proc.devRef .tc b) := by
  by_cases h : ∃ w, Pipeline.arrRef spec2 w = b
  · obtain ⟨w, rfl⟩ := h
    rw [W6_arr]
    match w, hb with
    | ⟨0, _⟩, _ => exact ((dat2 (B5 m) c).arrAt_in 0 rfl _).trans (dat2_A (B5 m) c 0)
    | ⟨1, _⟩, _ => exact ((dat2 (B5 m) c).arrAt_in 1 rfl _).trans (dat2_A (B5 m) c 1)
    | ⟨2, _⟩, _ => exact ((dat2 (B5 m) c).arrAt_in 2 rfl _).trans (dat2_A (B5 m) c 2)
    | ⟨3, _⟩, hb => exact absurd rfl hb
  · exact W6_of_ne m c b fun w e => h ⟨w, e⟩

/-- After the host stretch before region 3: what region 3 is entered from. -/
abbrev W7 : Dev nD → Valuation τ sig (Elt F) := fun c => StableHlo.after hostOps3 (W6 m c)
/-- The same, read at the TensorCore's references. -/
abbrev B7 : (c : Dev nD) → (b : Ref sig .tc) → Buf (Elt F) ((c : Thread nD τ).loc b) := fun c b => W7 m c b
/-- After region 3: its windows' arrays at what the pipeline's write-backs leave, everything else as entered. -/
def W8 (c : Dev nD) : Valuation τ sig (Elt F) :=
  Pipeline.withArrays spec3 c (W7 m c) fun w => (dat3 (B7 m) c).arrAt w cfg3.N
theorem W8_arr (c : Dev nD) (w : Fin cfg3.W) :
    W8 m c (Proc.devRef .tc (Pipeline.arrRef spec3 w)) = (dat3 (B7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- The same, read at the TensorCore's references. -/
abbrev B8 : (c : Dev nD) → (b : Ref sig .tc) → Buf (Elt F) ((c : Thread nD τ).loc b) := fun c b => W8 m c b
theorem exit3_arr (c : Dev nD) (w : Fin cfg3.W) : (dat3 (B7 m) c).arrAt w cfg3.N = B8 m c (Pipeline.arrRef spec3 w) :=
  (W8_arr m c w).symm
theorem exit3_rest (c : Dev nD) : ∀ b, b ∉ Finset.univ.image (Pipeline.arrRef spec3) → B8 m c b = B7 m c b :=
  fun b hb => W8_of_ne m c b fun w h => hb (Finset.mem_image.mpr ⟨w, Finset.mem_univ _, h⟩)
/-- Region 3 changes no buffer but its output array `main_v39`: an input array is never written back. -/
theorem W8_keep (c : Dev nD) (b : Ref sig .tc) (hb : b ≠ main_v39) :
    W8 m c (Proc.devRef .tc b) = W7 m c (Proc.devRef .tc b) := by
  by_cases h : ∃ w, Pipeline.arrRef spec3 w = b
  · obtain ⟨w, rfl⟩ := h
    rw [W8_arr]
    match w, hb with
    | ⟨0, _⟩, _ => exact ((dat3 (B7 m) c).arrAt_in 0 rfl _).trans (dat3_A (B7 m) c 0)
    | ⟨1, _⟩, _ => exact ((dat3 (B7 m) c).arrAt_in 1 rfl _).trans (dat3_A (B7 m) c 1)
    | ⟨2, _⟩, hb => exact absurd rfl hb
  · exact W8_of_ne m c b fun w e => h ⟨w, e⟩

/-- After the host stretch before region 4: what region 4 is entered from. -/
abbrev W9 : Dev nD → Valuation τ sig (Elt F) := fun c => StableHlo.after hostOps4 (W8 m c)
/-- The same, read at the TensorCore's references. -/
abbrev B9 : (c : Dev nD) → (b : Ref sig .tc) → Buf (Elt F) ((c : Thread nD τ).loc b) := fun c b => W9 m c b
/-- After region 4: its windows' arrays at what the pipeline's write-backs leave, everything else as entered. -/
def W10 (c : Dev nD) : Valuation τ sig (Elt F) :=
  Pipeline.withArrays spec4 c (W9 m c) fun w => (dat4 (B9 m) c).arrAt w cfg4.N
theorem W10_arr (c : Dev nD) (w : Fin cfg4.W) :
    W10 m c (Proc.devRef .tc (Pipeline.arrRef spec4 w)) = (dat4 (B9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
/-- The same, read at the TensorCore's references. -/
abbrev B10 : (c : Dev nD) → (b : Ref sig .tc) → Buf (Elt F) ((c : Thread nD τ).loc b) := fun c b => W10 m c b
theorem exit4_arr (c : Dev nD) (w : Fin cfg4.W) : (dat4 (B9 m) c).arrAt w cfg4.N = B10 m c (Pipeline.arrRef spec4 w) :=
  (W10_arr m c w).symm
theorem exit4_rest (c : Dev nD) : ∀ b, b ∉ Finset.univ.image (Pipeline.arrRef spec4) → B10 m c b = B9 m c b :=
  fun b hb => W10_of_ne m c b fun w h => hb (Finset.mem_image.mpr ⟨w, Finset.mem_univ _, h⟩)
/-- Region 4 changes no buffer but its output array `main_v57`: an input array is never written back. -/
theorem W10_keep (c : Dev nD) (b : Ref sig .tc) (hb : b ≠ main_v57) :
    W10 m c (Proc.devRef .tc b) = W9 m c (Proc.devRef .tc b) := by
  by_cases h : ∃ w, Pipeline.arrRef spec4 w = b
  · obtain ⟨w, rfl⟩ := h
    rw [W10_arr]
    match w, hb with
    | ⟨0, _⟩, _ => exact ((dat4 (B9 m) c).arrAt_in 0 rfl _).trans (dat4_A (B9 m) c 0)
    | ⟨1, _⟩, _ => exact ((dat4 (B9 m) c).arrAt_in 1 rfl _).trans (dat4_A (B9 m) c 1)
    | ⟨2, _⟩, _ => exact ((dat4 (B9 m) c).arrAt_in 2 rfl _).trans (dat4_A (B9 m) c 2)
    | ⟨3, _⟩, hb => exact absurd rfl hb
  · exact W10_of_ne m c b fun w e => h ⟨w, e⟩

/-- After the host stretch before region 5: what region 5 is entered from. -/
abbrev W11 : Dev nD → Valuation τ sig (Elt F) := fun c => StableHlo.after hostOps5 (W10 m c)
/-- The same, read at the TensorCore's references. -/
abbrev B11 : (c : Dev nD) → (b : Ref sig .tc) → Buf (Elt F) ((c : Thread nD τ).loc b) := fun c b => W11 m c b
/-- After region 5: its windows' arrays at what the pipeline's write-backs leave, everything else as entered. -/
def W12 (c : Dev nD) : Valuation τ sig (Elt F) :=
  Pipeline.withArrays spec5 c (W11 m c) fun w => (dat5 (B11 m) c).arrAt w cfg5.N
theorem W12_arr (c : Dev nD) (w : Fin cfg5.W) :
    W12 m c (Proc.devRef .tc (Pipeline.arrRef spec5 w)) = (dat5 (B11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
/-- The same, read at the TensorCore's references. -/
abbrev B12 : (c : Dev nD) → (b : Ref sig .tc) → Buf (Elt F) ((c : Thread nD τ).loc b) := fun c b => W12 m c b
theorem exit5_arr (c : Dev nD) (w : Fin cfg5.W) : (dat5 (B11 m) c).arrAt w cfg5.N = B12 m c (Pipeline.arrRef spec5 w) :=
  (W12_arr m c w).symm
theorem exit5_rest (c : Dev nD) : ∀ b, b ∉ Finset.univ.image (Pipeline.arrRef spec5) → B12 m c b = B11 m c b :=
  fun b hb => W12_of_ne m c b fun w h => hb (Finset.mem_image.mpr ⟨w, Finset.mem_univ _, h⟩)
/-- Region 5 changes no buffer but its output array `main_v75`: an input array is never written back. -/
theorem W12_keep (c : Dev nD) (b : Ref sig .tc) (hb : b ≠ main_v75) :
    W12 m c (Proc.devRef .tc b) = W11 m c (Proc.devRef .tc b) := by
  by_cases h : ∃ w, Pipeline.arrRef spec5 w = b
  · obtain ⟨w, rfl⟩ := h
    rw [W12_arr]
    match w, hb with
    | ⟨0, _⟩, _ => exact ((dat5 (B11 m) c).arrAt_in 0 rfl _).trans (dat5_A (B11 m) c 0)
    | ⟨1, _⟩, _ => exact ((dat5 (B11 m) c).arrAt_in 1 rfl _).trans (dat5_A (B11 m) c 1)
    | ⟨2, _⟩, _ => exact ((dat5 (B11 m) c).arrAt_in 2 rfl _).trans (dat5_A (B11 m) c 2)
    | ⟨3, _⟩, hb => exact absurd rfl hb
  · exact W12_of_ne m c b fun w e => h ⟨w, e⟩

/-! ## What the host stretches write -/

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem fresh3 : (hostOps3 : List (HloOp τ sig (Elt F))).Forall fun op => op.fresh = ∅ := by
  simp only [List.Forall]; repeat' constructor
theorem fresh4 : (hostOps4 : List (HloOp τ sig (Elt F))).Forall fun op => op.fresh = ∅ := by
  simp only [List.Forall]; repeat' constructor
theorem fresh5 : (hostOps5 : List (HloOp τ sig (Elt F))).Forall fun op => op.fresh = ∅ := by
  simp only [List.Forall]; repeat' constructor

/-- A buffer that stretch `j` does not write is, after it, as before it: the references each stretch writes are listed
    once and membership is decided over references. -/
theorem W1_keep (c : Dev nD) (r : Ref sig .tc) (h : r ∉ ([main_v0] : List (Ref sig .tc))) :
    W1 m c (Proc.devRef .tc r) = W0 m c (Proc.devRef .tc r) :=
  StableHlo.after_of_forall_not_mem hostOps0 _ fun op hop hb => by
    simp only [hostOps0, List.mem_singleton] at hop; subst hop
    simp only [StableHlo.reshape_writes, Finset.mem_singleton] at hb
    exact h (by rw [Proc.devRef_injective _ hb]; exact List.mem_singleton_self _)
theorem W3_keep (c : Dev nD) (r : Ref sig .tc) (h : r ∉ ([main_v2] : List (Ref sig .tc))) :
    W3 m c (Proc.devRef .tc r) = W2 m c (Proc.devRef .tc r) :=
  StableHlo.after_of_forall_not_mem hostOps1 _ fun op hop hb => by
    simp only [hostOps1, List.mem_singleton] at hop; subst hop
    simp only [StableHlo.reshape_writes, Finset.mem_singleton] at hb
    exact h (by rw [Proc.devRef_injective _ hb]; exact List.mem_singleton_self _)
theorem W5_keep (c : Dev nD) (r : Ref sig .tc) (h : r ∉ ([main_v4] : List (Ref sig .tc))) :
    W5 m c (Proc.devRef .tc r) = W4 m c (Proc.devRef .tc r) :=
  StableHlo.after_of_forall_not_mem hostOps2 _ fun op hop hb => by
    simp only [hostOps2, List.mem_singleton] at hop; subst hop
    simp only [StableHlo.reshape_writes, Finset.mem_singleton] at hb
    exact h (by rw [Proc.devRef_injective _ hb]; exact List.mem_singleton_self _)

/-! ## The proof data family -/

/-- No pallas_call has a prefetched table. -/
abbrev adm : (p : Fin 6) → (pcfgs (F := F) p).Adm := fun p => (cfgs p).toPCfg_adm

/-- Every pipeline's proof data, each at the contents its region is entered from. -/
def pdats : (p : Fin 6) → (c : Dev nD) → Dat τ (Elt F) Unit ℕ (UR sig nD τ) ℕ (Pipeline.pin (pcfgs (F := F)) adm p) c
  | ⟨0, _⟩ => fun c => dat0 (B1 m) c
  | ⟨1, _⟩ => fun c => dat1 (B3 m) c
  | ⟨2, _⟩ => fun c => dat2 (B5 m) c
  | ⟨3, _⟩ => fun c => dat3 (B7 m) c
  | ⟨4, _⟩ => fun c => dat4 (B9 m) c
  | ⟨5, _⟩ => fun c => dat5 (B11 m) c

abbrev noVar : Variants := Variants.none
/-- No core owes another anything. -/
abbrev noL : GSem nD τ sig → Finset Unit := fun _ => ∅
abbrev noLv : GSem nD τ sig → Unit → ℕ := fun _ _ => 0
/-- What rides beside the buffers through every item: the core's generator register at some state, and nothing owed. -/
abbrev Rest (c : Dev nD) : sProp 𝕄 := iprop((∃ r, prngReg c r) ∗ ∃ W, owes (c : Thread nD τ) (0 : CellTallies nD τ sig Unit) W)

/-- A host stretch as a segment of the run, from contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Rg

end
-- ==== Proof.KI.Seg0.lean ====
/-
  Region 0 as one item of the run. It is entered holding every unscoped buffer at the contents the stretch before it
  left, beside the generator register and no dues. Its windows' arrays are split out of those buffers at entry and put
  back at what the pipeline's write-backs leave at exit; the generator register goes into the pipeline's invariant and
  comes back; the kernel has no semaphore of its own and owes nothing at any point.
-/
import proofs.«121421_j52656299049561_1_alg».proof.Proof.KI.Fold

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 over the thread state "every unscoped buffer at the boundary's contents, the generator register at some
    state, nothing owed": entered at `W1`, left at `W2`. -/
def seg0 : Pipeline.RegionSeg (pcfgs (F := F)) adm (pdats m) () defs₀ noVar noL noLv 0 where
  win := launch0.win.to₀
  block_pos := launch0.block_pos
  stage_whole := launch0.stage_whole
  K := PEmpty
  osem k := k.elim
  ho := Pipeline.OwnSemFacts.none _
  hbody c := (obligation0 (B1 m) c).loose
  hwaits := Pipeline.hwaits_of_owed_zero _ _ _ _ noL noLv 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    -- the arrays leave the unscoped buffers; no table; the dues at the first point are the core's, at nothing
    rw [Pipeline.ownSems0_none]
    have hsplit := Pipeline.arrays_of_unscopedBufs (p := 0) (pcfgs (F := F)) adm (pdats m) launch0.win launch0.arr_whole c
      ((pdats m 0 c).share_full fun _ => rfl) (B1 m c) fun _ => rfl
    rw [Pipeline.unscopedBufs_held] at hsplit
    iintro ⟨⟨Hbufs, Hprng, Hdue⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hprng]; · iexact Hprng
    iexact Hrest
  hin c := by
    -- the invariant at the first point: the scoped buffers no window stages, and the generator register
    rw [show (pdats m 0 c).Φ 0 = Pipeline.ΦA spec0 c from rfl]; unfold Pipeline.ΦA
    iintro ⟨Hprng, -, Hscoped⟩
    isplitl [Hscoped]; · iexact Hscoped
    iexact Hprng
  hout c := by
    -- and the same two come back at the last point
    rw [Pipeline.ownSems0_none, show (pdats m 0 c).Φ (Fin.last _) = Pipeline.ΦA spec0 c from rfl]; unfold Pipeline.ΦA
    iintro ⟨Hscoped, Hprng⟩
    isplitl [Hprng]; · iexact Hprng
    isplitr; · iempintro
    iexact Hscoped
  hexit c := by
    -- the arrays at their final contents rejoin the rest: every unscoped buffer at `W2`
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B1 m c) (B2 m c) ((pdats m 0 c).arrAt · cfg0.N) (exit0_arr m c) (exit0_rest m c)
    rw [Pipeline.unscopedBufs_held] at hjoin
    iintro ⟨Harr, Hdue, Hprng, Hrest⟩
    imodintro
    isplitl [Harr Hrest]
    · iapply hjoin; isplitl [Harr] <;> iassumption
    isplitl [Hprng]; · iexact Hprng
    unfold Pipeline.Dat.owesAt Pipeline.owesWithin
    icases Hdue with ⟨%W, -, Hdue⟩; iexists W; iexact Hdue

end Cert.KernelIdeal.Rg

end
-- ==== Proof.KI.Seg1.lean ====
/-
  Region 1 as one item of the run. It is entered holding every unscoped buffer at the contents the stretch before it
  left, beside the generator register and no dues. Its windows' arrays are split out of those buffers at entry and put
  back at what the pipeline's write-backs leave at exit; the generator register goes into the pipeline's invariant and
  comes back; the kernel has no semaphore of its own and owes nothing at any point.
-/
import proofs.«121421_j52656299049561_1_alg».proof.Proof.KI.Fold

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 1 over the thread state "every unscoped buffer at the boundary's contents, the generator register at some
    state, nothing owed": entered at `W3`, left at `W4`. -/
def seg1 : Pipeline.RegionSeg (pcfgs (F := F)) adm (pdats m) () defs₀ noVar noL noLv 1 where
  win := launch1.win.to₀
  block_pos := launch1.block_pos
  stage_whole := launch1.stage_whole
  K := PEmpty
  osem k := k.elim
  ho := Pipeline.OwnSemFacts.none _
  hbody c := (obligation1 (B3 m) c).loose
  hwaits := Pipeline.hwaits_of_owed_zero _ _ _ _ noL noLv 1 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest (Ix := Unit) (Name := ℕ) (U := UR sig nD τ) (Lvl := ℕ) spec1 c (B3 m c)
  hentry c := by
    -- the arrays leave the unscoped buffers; no table; the dues at the first point are the core's, at nothing
    rw [Pipeline.ownSems0_none]
    have hsplit := Pipeline.arrays_of_unscopedBufs (p := 1) (pcfgs (F := F)) adm (pdats m) launch1.win launch1.arr_whole c
      ((pdats m 1 c).share_full fun _ => rfl) (B3 m c) fun _ => rfl
    rw [Pipeline.unscopedBufs_held] at hsplit
    iintro ⟨⟨Hbufs, Hprng, Hdue⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hprng]; · iexact Hprng
    iexact Hrest
  hin c := by
    -- the invariant at the first point: the scoped buffers no window stages, and the generator register
    rw [show (pdats m 1 c).Φ 0 = Pipeline.ΦA spec1 c from rfl]; unfold Pipeline.ΦA
    iintro ⟨Hprng, -, Hscoped⟩
    isplitl [Hscoped]; · iexact Hscoped
    iexact Hprng
  hout c := by
    -- and the same two come back at the last point
    rw [Pipeline.ownSems0_none, show (pdats m 1 c).Φ (Fin.last _) = Pipeline.ΦA spec1 c from rfl]; unfold Pipeline.ΦA
    iintro ⟨Hscoped, Hprng⟩
    isplitl [Hprng]; · iexact Hprng
    isplitr; · iempintro
    iexact Hscoped
  hexit c := by
    -- the arrays at their final contents rejoin the rest: every unscoped buffer at `W4`
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B3 m c) (B4 m c) ((pdats m 1 c).arrAt · cfg1.N) (exit1_arr m c) (exit1_rest m c)
    rw [Pipeline.unscopedBufs_held] at hjoin
    iintro ⟨Harr, Hdue, Hprng, Hrest⟩
    imodintro
    isplitl [Harr Hrest]
    · iapply hjoin; isplitl [Harr] <;> iassumption
    isplitl [Hprng]; · iexact Hprng
    unfold Pipeline.Dat.owesAt Pipeline.owesWithin
    icases Hdue with ⟨%W, -, Hdue⟩; iexists W; iexact Hdue

end Cert.KernelIdeal.Rg

end
-- ==== Proof.KI.Seg2.lean ====
/-
  Region 2 as one item of the run. It is entered holding every unscoped buffer at the contents the stretch before it
  left, beside the generator register and no dues. Its windows' arrays are split out of those buffers at entry and put
  back at what the pipeline's write-backs leave at exit; the generator register goes into the pipeline's invariant and
  comes back; the kernel has no semaphore of its own and owes nothing at any point.
-/
import proofs.«121421_j52656299049561_1_alg».proof.Proof.KI.Fold

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 2 over the thread state "every unscoped buffer at the boundary's contents, the generator register at some
    state, nothing owed": entered at `W5`, left at `W6`. -/
def seg2 : Pipeline.RegionSeg (pcfgs (F := F)) adm (pdats m) () defs₀ noVar noL noLv 2 where
  win := launch2.win.to₀
  block_pos := launch2.block_pos
  stage_whole := launch2.stage_whole
  K := PEmpty
  osem k := k.elim
  ho := Pipeline.OwnSemFacts.none _
  hbody c := (obligation2 (B5 m) c).loose
  hwaits := Pipeline.hwaits_of_owed_zero _ _ _ _ noL noLv 2 fun _ _ => rfl
  pre c := iprop(StableHlo.held (c : Thread nD τ) (Pipeline.ucRefs τ sig) (W5 m c) ∗ Rest c)
  post c := iprop(StableHlo.held (c : Thread nD τ) (Pipeline.ucRefs τ sig) (W6 m c) ∗ Rest c)
  X c := iprop(∃ r, prngReg c r)
  Y c := iprop(∃ r, prngReg c r)
  Z c := Pipeline.unscopedRest (Ix := Unit) (Name := ℕ) (U := UR sig nD τ) (Lvl := ℕ) spec2 c (B5 m c)
  hentry c := by
    -- the arrays leave the unscoped buffers; no table; the dues at the first point are the core's, at nothing
    rw [Pipeline.ownSems0_none]
    have hsplit := Pipeline.arrays_of_unscopedBufs (p := 2) (pcfgs (F := F)) adm (pdats m) launch2.win launch2.arr_whole c
      ((pdats m 2 c).share_full fun _ => rfl) (B5 m c) fun _ => rfl
    rw [Pipeline.unscopedBufs_held] at hsplit
    iintro ⟨⟨Hbufs, Hprng, Hdue⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hprng]; · iexact Hprng
    iexact Hrest
  hin c := by
    -- the invariant at the first point: the scoped buffers no window stages, and the generator register
    rw [show (pdats m 2 c).Φ 0 = Pipeline.ΦA spec2 c from rfl]; unfold Pipeline.ΦA
    iintro ⟨Hprng, -, Hscoped⟩
    isplitl [Hscoped]; · iexact Hscoped
    iexact Hprng
  hout c := by
    -- and the same two come back at the last point
    rw [Pipeline.ownSems0_none, show (pdats m 2 c).Φ (Fin.last _) = Pipeline.ΦA spec2 c from rfl]; unfold Pipeline.ΦA
    iintro ⟨Hscoped, Hprng⟩
    isplitl [Hprng]; · iexact Hprng
    isplitr; · iempintro
    iexact Hscoped
  hexit c := by
    -- the arrays at their final contents rejoin the rest: every unscoped buffer at `W6`
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (B5 m c) (B6 m c) ((pdats m 2 c).arrAt · cfg2.N) (exit2_arr m c) (exit2_rest m c)
    rw [Pipeline.unscopedBufs_held] at hjoin
    iintro ⟨Harr, Hdue, Hprng, Hrest⟩
    imodintro
    isplitl [Harr Hrest]
    · iapply hjoin; isplitl [Harr] <;> iassumption
    isplitl [Hprng]; · iexact Hprng
    unfold Pipeline.Dat.owesAt Pipeline.owesWithin
    icases Hdue with ⟨%W, -, Hdue⟩; iexists W; iexact Hdue

end Cert.KernelIdeal.Rg

end
-- ==== Proof.KI.Seg3.lean ====
/-
  Region 3 as one item of the run. It is entered holding every unscoped buffer at the contents the stretch before it
  left, beside the generator register and no dues. Its windows' arrays are split out of those buffers at entry and put
  back at what the pipeline's write-backs leave at exit; the generator register goes into the pipeline's invariant and
  comes back; the kernel has no semaphore of its own and owes nothing at any point.
-/
import proofs.«121421_j52656299049561_1_alg».proof.Proof.KI.Fold

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 3 over the thread state "every unscoped buffer at the boundary's contents, the generator register at some
    state, nothing owed": entered at `W7`, left at `W8`. -/
def seg3 : Pipeline.RegionSeg (pcfgs (F := F)) adm (pdats m) () defs₀ noVar noL noLv 3 where
  win := launch3.win.to₀
  block_pos := launch3.block_pos
  stage_whole := launch3.stage_whole
  K := PEmpty
  osem k := k.elim
  ho := Pipeline.OwnSemFacts.none _
  hbody c := (obligation3 (B7 m) c).loose
  hwaits := Pipeline.hwaits_of_owed_zero _ _ _ _ noL noLv 3 fun _ _ => rfl
  pre c := iprop(StableHlo.held (c : Thread nD τ) (Pipeline.ucRefs τ sig) (W7 m c) ∗ Rest c)
  post c := iprop(StableHlo.held (c : Thread nD τ) (Pipeline.ucRefs τ sig) (W8 m c) ∗ Rest c)
  X c := iprop(∃ r, prngReg c r)
  Y c := iprop(∃ r, prngReg c r)
  Z c := Pipeline.unscopedRest (Ix := Unit) (Name := ℕ) (U := UR sig nD τ) (Lvl := ℕ) spec3 c (B7 m c)
  hentry c := by
    -- the arrays leave the unscoped buffers; no table; the dues at the first point are the core's, at nothing
    rw [Pipeline.ownSems0_none]
    have hsplit := Pipeline.arrays_of_unscopedBufs (p := 3) (pcfgs (F := F)) adm (pdats m) launch3.win launch3.arr_whole c
      ((pdats m 3 c).share_full fun _ => rfl) (B7 m c) fun _ => rfl
    rw [Pipeline.unscopedBufs_held] at hsplit
    iintro ⟨⟨Hbufs, Hprng, Hdue⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hprng]; · iexact Hprng
    iexact Hrest
  hin c := by
    -- the invariant at the first point: the scoped buffers no window stages, and the generator register
    rw [show (pdats m 3 c).Φ 0 = Pipeline.ΦA spec3 c from rfl]; unfold Pipeline.ΦA
    iintro ⟨Hprng, -, Hscoped⟩
    isplitl [Hscoped]; · iexact Hscoped
    iexact Hprng
  hout c := by
    -- and the same two come back at the last point
    rw [Pipeline.ownSems0_none, show (pdats m 3 c).Φ (Fin.last _) = Pipeline.ΦA spec3 c from rfl]; unfold Pipeline.ΦA
    iintro ⟨Hscoped, Hprng⟩
    isplitl [Hprng]; · iexact Hprng
    isplitr; · iempintro
    iexact Hscoped
  hexit c := by
    -- the arrays at their final contents rejoin the rest: every unscoped buffer at `W8`
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (B7 m c) (B8 m c) ((pdats m 3 c).arrAt · cfg3.N) (exit3_arr m c) (exit3_rest m c)
    rw [Pipeline.unscopedBufs_held] at hjoin
    iintro ⟨Harr, Hdue, Hprng, Hrest⟩
    imodintro
    isplitl [Harr Hrest]
    · iapply hjoin; isplitl [Harr] <;> iassumption
    isplitl [Hprng]; · iexact Hprng
    unfold Pipeline.Dat.owesAt Pipeline.owesWithin
    icases Hdue with ⟨%W, -, Hdue⟩; iexists W; iexact Hdue

end Cert.KernelIdeal.Rg

end
-- ==== Proof.KI.Seg4.lean ====
/-
  Region 4 as one item of the run. It is entered holding every unscoped buffer at the contents the stretch before it
  left, beside the generator register and no dues. Its windows' arrays are split out of those buffers at entry and put
  back at what the pipeline's write-backs leave at exit; the generator register goes into the pipeline's invariant and
  comes back; the kernel has no semaphore of its own and owes nothing at any point.
-/
import proofs.«121421_j52656299049561_1_alg».proof.Proof.KI.Fold

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 4 over the thread state "every unscoped buffer at the boundary's contents, the generator register at some
    state, nothing owed": entered at `W9`, left at `W10`. -/
def seg4 : Pipeline.RegionSeg (pcfgs (F := F)) adm (pdats m) () defs₀ noVar noL noLv 4 where
  win := launch4.win.to₀
  block_pos := launch4.block_pos
  stage_whole := launch4.stage_whole
  K := PEmpty
  osem k := k.elim
  ho := Pipeline.OwnSemFacts.none _
  hbody c := (obligation4 (B9 m) c).loose
  hwaits := Pipeline.hwaits_of_owed_zero _ _ _ _ noL noLv 4 fun _ _ => rfl
  pre c := iprop(StableHlo.held (c : Thread nD τ) (Pipeline.ucRefs τ sig) (W9 m c) ∗ Rest c)
  post c := iprop(StableHlo.held (c : Thread nD τ) (Pipeline.ucRefs τ sig) (W10 m c) ∗ Rest c)
  X c := iprop(∃ r, prngReg c r)
  Y c := iprop(∃ r, prngReg c r)
  Z c := Pipeline.unscopedRest (Ix := Unit) (Name := ℕ) (U := UR sig nD τ) (Lvl := ℕ) spec4 c (B9 m c)
  hentry c := by
    -- the arrays leave the unscoped buffers; no table; the dues at the first point are the core's, at nothing
    rw [Pipeline.ownSems0_none]
    have hsplit := Pipeline.arrays_of_unscopedBufs (p := 4) (pcfgs (F := F)) adm (pdats m) launch4.win launch4.arr_whole c
      ((pdats m 4 c).share_full fun _ => rfl) (B9 m c) fun _ => rfl
    rw [Pipeline.unscopedBufs_held] at hsplit
    iintro ⟨⟨Hbufs, Hprng, Hdue⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hprng]; · iexact Hprng
    iexact Hrest
  hin c := by
    -- the invariant at the first point: the scoped buffers no window stages, and the generator register
    rw [show (pdats m 4 c).Φ 0 = Pipeline.ΦA spec4 c from rfl]; unfold Pipeline.ΦA
    iintro ⟨Hprng, -, Hscoped⟩
    isplitl [Hscoped]; · iexact Hscoped
    iexact Hprng
  hout c := by
    -- and the same two come back at the last point
    rw [Pipeline.ownSems0_none, show (pdats m 4 c).Φ (Fin.last _) = Pipeline.ΦA spec4 c from rfl]; unfold Pipeline.ΦA
    iintro ⟨Hscoped, Hprng⟩
    isplitl [Hprng]; · iexact Hprng
    isplitr; · iempintro
    iexact Hscoped
  hexit c := by
    -- the arrays at their final contents rejoin the rest: every unscoped buffer at `W10`
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (B9 m c) (B10 m c) ((pdats m 4 c).arrAt · cfg4.N) (exit4_arr m c) (exit4_rest m c)
    rw [Pipeline.unscopedBufs_held] at hjoin
    iintro ⟨Harr, Hdue, Hprng, Hrest⟩
    imodintro
    isplitl [Harr Hrest]
    · iapply hjoin; isplitl [Harr] <;> iassumption
    isplitl [Hprng]; · iexact Hprng
    unfold Pipeline.Dat.owesAt Pipeline.owesWithin
    icases Hdue with ⟨%W, -, Hdue⟩; iexists W; iexact Hdue

end Cert.KernelIdeal.Rg

end
-- ==== Proof.KI.Seg5.lean ====
/-
  Region 5 as one item of the run. It is entered holding every unscoped buffer at the contents the stretch before it
  left, beside the generator register and no dues. Its windows' arrays are split out of those buffers at entry and put
  back at what the pipeline's write-backs leave at exit; the generator register goes into the pipeline's invariant and
  comes back; the kernel has no semaphore of its own and owes nothing at any point.
-/
import proofs.«121421_j52656299049561_1_alg».proof.Proof.KI.Fold

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 5 over the thread state "every unscoped buffer at the boundary's contents, the generator register at some
    state, nothing owed": entered at `W11`, left at `W12`. -/
def seg5 : Pipeline.RegionSeg (pcfgs (F := F)) adm (pdats m) () defs₀ noVar noL noLv 5 where
  win := launch5.win.to₀
  block_pos := launch5.block_pos
  stage_whole := launch5.stage_whole
  K := PEmpty
  osem k := k.elim
  ho := Pipeline.OwnSemFacts.none _
  hbody c := (obligation5 (B11 m) c).loose
  hwaits := Pipeline.hwaits_of_owed_zero _ _ _ _ noL noLv 5 fun _ _ => rfl
  pre c := iprop(StableHlo.held (c : Thread nD τ) (Pipeline.ucRefs τ sig) (W11 m c) ∗ Rest c)
  post c := iprop(StableHlo.held (c : Thread nD τ) (Pipeline.ucRefs τ sig) (W12 m c) ∗ Rest c)
  X c := iprop(∃ r, prngReg c r)
  Y c := iprop(∃ r, prngReg c r)
  Z c := Pipeline.unscopedRest (Ix := Unit) (Name := ℕ) (U := UR sig nD τ) (Lvl := ℕ) spec5 c (B11 m c)
  hentry c := by
    -- the arrays leave the unscoped buffers; no table; the dues at the first point are the core's, at nothing
    rw [Pipeline.ownSems0_none]
    have hsplit := Pipeline.arrays_of_unscopedBufs (p := 5) (pcfgs (F := F)) adm (pdats m) launch5.win launch5.arr_whole c
      ((pdats m 5 c).share_full fun _ => rfl) (B11 m c) fun _ => rfl
    rw [Pipeline.unscopedBufs_held] at hsplit
    iintro ⟨⟨Hbufs, Hprng, Hdue⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hprng]; · iexact Hprng
    iexact Hrest
  hin c := by
    -- the invariant at the first point: the scoped buffers no window stages, and the generator register
    rw [show (pdats m 5 c).Φ 0 = Pipeline.ΦA spec5 c from rfl]; unfold Pipeline.ΦA
    iintro ⟨Hprng, -, Hscoped⟩
    isplitl [Hscoped]; · iexact Hscoped
    iexact Hprng
  hout c := by
    -- and the same two come back at the last point
    rw [Pipeline.ownSems0_none, show (pdats m 5 c).Φ (Fin.last _) = Pipeline.ΦA spec5 c from rfl]; unfold Pipeline.ΦA
    iintro ⟨Hscoped, Hprng⟩
    isplitl [Hprng]; · iexact Hprng
    isplitr; · iempintro
    iexact Hscoped
  hexit c := by
    -- the arrays at their final contents rejoin the rest: every unscoped buffer at `W12`
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (B11 m c) (B12 m c) ((pdats m 5 c).arrAt · cfg5.N) (exit5_arr m c) (exit5_rest m c)
    rw [Pipeline.unscopedBufs_held] at hjoin
    iintro ⟨Harr, Hdue, Hprng, Hrest⟩
    imodintro
    isplitl [Harr Hrest]
    · iapply hjoin; isplitl [Harr] <;> iassumption
    isplitl [Hprng]; · iexact Hprng
    unfold Pipeline.Dat.owesAt Pipeline.owesWithin
    icases Hdue with ⟨%W, -, Hdue⟩; iexists W; iexact Hdue

end Cert.KernelIdeal.Rg

end
-- ==== Proof.KI.Keep.lean ====
/-
  Which buffers the three long stretches of host operations write — the stretch that concatenates the projections,
  computes the degree norms and aggregates once, and the two that aggregate again —, listed once per stretch; a buffer
  outside a stretch's list is, after the stretch, as before it. With the same fact for the regions (each changes its
  output array only) a buffer that nothing writes holds its launch contents at the end.
-/
import proofs.«121421_j52656299049561_1_alg».proof.Proof.KI.Fold

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers the fourth stretch of host operations writes, one per operation, in order. -/
abbrev wrote3 : List (Ref sig .tc) := [main_v6, main_cst, main_v7, main_cst_0, main_v8, main_v9, main_v10, main_cst_1, main_v11, main_v12, main_v13, main_cst_2, main_v14, main_v15, main_cst_3, main_v16, main_v17, main_cst_4, main_v18, main_v19, main_cst_5, main_v20, main_v21, main_v22, main_v23, main_v24, main_c, main_v25, main_v26, main_c_6, main_v27, main_v28, main_v29, main_v30, main_v31, main_cst_7, main_v32, main_v33, main_v34, main_v35, main_v36, main_v37, main_v38]
theorem writes3 : (hostOps3 : List (HloOp τ sig (Elt F))).Forall fun op => op.writes ⊆ (wrote3.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, StableHlo.nary_writes, Finset.singleton_subset_iff, List.mem_toFinset]
    exact List.mem_map_of_mem (by decide)
theorem W7_keep (c : Dev nD) (r : Ref sig .tc) (h : r ∉ wrote3) : W7 m c (Proc.devRef .tc r) = W6 m c (Proc.devRef .tc r) :=
  StableHlo.after_of_writes_sub hostOps3 _ writes3 h

/-- The buffers the fifth stretch writes. -/
abbrev wrote4 : List (Ref sig .tc) := [main_v40, main_v41, main_v42, main_c_8, main_v43, main_v44, main_c_9, main_v45, main_v46, main_v47, main_v48, main_v49, main_cst_10, main_v50, main_v51, main_v52, main_v53, main_v54, main_v55, main_v56]
theorem writes4 : (hostOps4 : List (HloOp τ sig (Elt F))).Forall fun op => op.writes ⊆ (wrote4.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, StableHlo.nary_writes, Finset.singleton_subset_iff, List.mem_toFinset]
    exact List.mem_map_of_mem (by decide)
theorem W9_keep (c : Dev nD) (r : Ref sig .tc) (h : r ∉ wrote4) : W9 m c (Proc.devRef .tc r) = W8 m c (Proc.devRef .tc r) :=
  StableHlo.after_of_writes_sub hostOps4 _ writes4 h

/-- The buffers the sixth stretch writes. -/
abbrev wrote5 : List (Ref sig .tc) := [main_v58, main_v59, main_v60, main_c_11, main_v61, main_v62, main_c_12, main_v63, main_v64, main_v65, main_v66, main_v67, main_cst_13, main_v68, main_v69, main_v70, main_v71, main_v72, main_v73, main_v74]
theorem writes5 : (hostOps5 : List (HloOp τ sig (Elt F))).Forall fun op => op.writes ⊆ (wrote5.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, StableHlo.nary_writes, Finset.singleton_subset_iff, List.mem_toFinset]
    exact List.mem_map_of_mem (by decide)
theorem W11_keep (c : Dev nD) (r : Ref sig .tc) (h : r ∉ wrote5) : W11 m c (Proc.devRef .tc r) = W10 m c (Proc.devRef .tc r) :=
  StableHlo.after_of_writes_sub hostOps5 _ writes5 h

/-- A buffer no item writes ends at its launch contents: twelve steps back through the fold. -/
theorem W12_untouched (c : Dev nD) (r : Ref sig .tc)
    (h0 : r ∉ ([main_v0] : List (Ref sig .tc))) (o0 : r ≠ main_v1) (h1 : r ∉ ([main_v2] : List (Ref sig .tc))) (o1 : r ≠ main_v3)
    (h2 : r ∉ ([main_v4] : List (Ref sig .tc))) (o2 : r ≠ main_v5) (h3 : r ∉ wrote3) (o3 : r ≠ main_v39)
    (h4 : r ∉ wrote4) (o4 : r ≠ main_v57) (h5 : r ∉ wrote5) (o5 : r ≠ main_v75) :
    W12 m c (Proc.devRef .tc r) = m ((c : Thread nD τ).loc r) :=
  (W12_keep m c r o5).trans <| (W11_keep m c r h5).trans <| (W10_keep m c r o4).trans <| (W9_keep m c r h4).trans <|
  (W8_keep m c r o3).trans <| (W7_keep m c r h3).trans <| (W6_keep m c r o2).trans <| (W5_keep m c r h2).trans <|
  (W4_keep m c r o1).trans <| (W3_keep m c r h1).trans <| (W2_keep m c r o0).trans <| (W1_keep m c r h0).trans rfl

theorem W12_arg0 (c : Dev nD) : W12 m c (Proc.devRef .tc main_arg0) = m ((c : Thread nD τ).loc main_arg0) :=
  W12_untouched m c main_arg0 (by decide) (by decide) (by decide) (by decide) (by decide) (by decide) (by decide) (by decide) (by decide) (by decide) (by decide) (by decide)
theorem W12_arg1 (c : Dev nD) : W12 m c (Proc.devRef .tc main_arg1) = m ((c : Thread nD τ).loc main_arg1) :=
  W12_untouched m c main_arg1 (by decide) (by decide) (by decide) (by decide) (by decide) (by decide) (by decide) (by decide) (by decide) (by decide) (by decide) (by decide)
theorem W12_arg2 (c : Dev nD) : W12 m c (Proc.devRef .tc main_arg2) = m ((c : Thread nD τ).loc main_arg2) :=
  W12_untouched m c main_arg2 (by decide) (by decide) (by decide) (by decide) (by decide) (by decide) (by decide) (by decide) (by decide) (by decide) (by decide) (by decide)
theorem W12_arg3 (c : Dev nD) : W12 m c (Proc.devRef .tc main_arg3) = m ((c : Thread nD τ).loc main_arg3) :=
  W12_untouched m c main_arg3 (by decide) (by decide) (by decide) (by decide) (by decide) (by decide) (by decide) (by decide) (by decide) (by decide) (by decide) (by decide)
theorem W12_arg4 (c : Dev nD) : W12 m c (Proc.devRef .tc main_arg4) = m ((c : Thread nD τ).loc main_arg4) :=
  W12_untouched m c main_arg4 (by decide) (by decide) (by decide) (by decide) (by decide) (by decide) (by decide) (by decide) (by decide) (by decide) (by decide) (by decide)
theorem W12_arg5 (c : Dev nD) : W12 m c (Proc.devRef .tc main_arg5) = m ((c : Thread nD τ).loc main_arg5) :=
  W12_untouched m c main_arg5 (by decide) (by decide) (by decide) (by decide) (by decide) (by decide) (by decide) (by decide) (by decide) (by decide) (by decide) (by decide)
theorem W12_arg6 (c : Dev nD) : W12 m c (Proc.devRef .tc main_arg6) = m ((c : Thread nD τ).loc main_arg6) :=
  W12_untouched m c main_arg6 (by decide) (by decide) (by decide) (by decide) (by decide) (by decide) (by decide) (by decide) (by decide) (by decide) (by decide) (by decide)
theorem W12_arg7 (c : Dev nD) : W12 m c (Proc.devRef .tc main_arg7) = m ((c : Thread nD τ).loc main_arg7) :=
  W12_untouched m c main_arg7 (by decide) (by decide) (by decide) (by decide) (by decide) (by decide) (by decide) (by decide) (by decide) (by decide) (by decide) (by decide)
theorem W12_arg8 (c : Dev nD) : W12 m c (Proc.devRef .tc main_arg8) = m ((c : Thread nD τ).loc main_arg8) :=
  W12_untouched m c main_arg8 (by decide) (by decide) (by decide) (by decide) (by decide) (by decide) (by decide) (by decide) (by decide) (by decide) (by decide) (by decide)
theorem W12_arg9 (c : Dev nD) : W12 m c (Proc.devRef .tc main_arg9) = m ((c : Thread nD τ).loc main_arg9) :=
  W12_untouched m c main_arg9 (by decide) (by decide) (by decide) (by decide) (by decide) (by decide) (by decide) (by decide) (by decide) (by decide) (by decide) (by decide)
theorem W12_arg10 (c : Dev nD) : W12 m c (Proc.devRef .tc main_arg10) = m ((c : Thread nD τ).loc main_arg10) :=
  W12_untouched m c main_arg10 (by decide) (by decide) (by decide) (by decide) (by decide) (by decide) (by decide) (by decide) (by decide) (by decide) (by decide) (by decide)
theorem W12_arg11 (c : Dev nD) : W12 m c (Proc.devRef .tc main_arg11) = m ((c : Thread nD τ).loc main_arg11) :=
  W12_untouched m c main_arg11 (by decide) (by decide) (by decide) (by decide) (by decide) (by decide) (by decide) (by decide) (by decide) (by decide) (by decide) (by decide)
theorem W12_arg12 (c : Dev nD) : W12 m c (Proc.devRef .tc main_arg12) = m ((c : Thread nD τ).loc main_arg12) :=
  W12_untouched m c main_arg12 (by decide) (by decide) (by decide) (by decide) (by decide) (by decide) (by decide) (by decide) (by decide) (by decide) (by decide) (by decide)
theorem W12_arg13 (c : Dev nD) : W12 m c (Proc.devRef .tc main_arg13) = m ((c : Thread nD τ).loc main_arg13) :=
  W12_untouched m c main_arg13 (by decide) (by decide) (by decide) (by decide) (by decide) (by decide) (by decide) (by decide) (by decide) (by decide) (by decide) (by decide)
theorem W12_arg14 (c : Dev nD) : W12 m c (Proc.devRef .tc main_arg14) = m ((c : Thread nD τ).loc main_arg14) :=
  W12_untouched m c main_arg14 (by decide) (by decide) (by decide) (by decide) (by decide) (by decide) (by decide) (by decide) (by decide) (by decide) (by decide) (by decide)
theorem W12_arg15 (c : Dev nD) : W12 m c (Proc.devRef .tc main_arg15) = m ((c : Thread nD τ).loc main_arg15) :=
  W12_untouched m c main_arg15 (by decide) (by decide) (by decide) (by decide) (by decide) (by decide) (by decide) (by decide) (by decide) (by decide) (by decide) (by decide)

end Cert.KernelIdeal.Rg

end
-- ==== Proof.KI.Run.lean ====
/-
  The whole program as one run. Its twelve items — six stretches of host operations, six regions — are chained: each
  is entered from what the one before it left. From the launch memory, with nothing owed, every weakly fair execution
  terminates without a fault, and at the end every unscoped buffer of every core holds the last boundary's contents
  (`W12`). Two readings of that one fact follow: the argument arrays end as launched (nothing writes them), and the
  result array ends at what the last region's pipeline leaves.
-/
import proofs.«121421_j52656299049561_1_alg».proof.Proof.KI.Seg0
import proofs.«121421_j52656299049561_1_alg».proof.Proof.KI.Seg1
import proofs.«121421_j52656299049561_1_alg».proof.Proof.KI.Seg2
import proofs.«121421_j52656299049561_1_alg».proof.Proof.KI.Seg3
import proofs.«121421_j52656299049561_1_alg».proof.Proof.KI.Seg4
import proofs.«121421_j52656299049561_1_alg».proof.Proof.KI.Seg5
import proofs.«121421_j52656299049561_1_alg».proof.Proof.KI.Keep

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- The twelve items in order. -/
abbrev segs : List (Pipeline.Seg (pcfgs (F := F)) adm (pdats m) () defs₀ noVar noL noLv) :=
  [ .host (hostSeg hostOps0 hostOps0_sub fresh0 (W0 m)),
    .region (seg0 m),
    .host (hostSeg hostOps1 hostOps1_sub fresh1 (W2 m)),
    .region (seg1 m),
    .host (hostSeg hostOps2 hostOps2_sub fresh2 (W4 m)),
    .region (seg2 m),
    .host (hostSeg hostOps3 hostOps3_sub fresh3 (W6 m)),
    .region (seg3 m),
    .host (hostSeg hostOps4 hostOps4_sub fresh4 (W8 m)),
    .region (seg4 m),
    .host (hostSeg hostOps5 hostOps5_sub fresh5 (W10 m)),
    .region (seg5 m) ]

/-- The last thread state, beside the core owing nothing: every unscoped buffer at `W12`, the generator register at
    some state. -/
abbrev Tend (c : Dev nD) : sProp 𝕄 := iprop(StableHlo.held (c : Thread nD τ) (Pipeline.ucRefs τ sig) (W12 m c) ∗ ∃ r, prngReg c r)

set_option backward.isDefEq.respectTransparency.types false in
/-- Every weakly fair execution of the program from memory `m` with zero counters terminates, nothing faulting, and
    in every final state each unscoped buffer of each core holds `W12`'s contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ noVar noL noLv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tend m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl,
      fun c => by
        -- the last region's exit state is the last thread state beside "nothing owed": a regrouping
        show iprop(StableHlo.held (c : Thread nD τ) (Pipeline.ucRefs τ sig) (W12 m c) ∗ Rest c)
          ⊢ iprop(Tend m c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach noL noLv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

end Cert.KernelIdeal.Rg

end
-- ==== Proof.Frames.lean ====
/-
  Four of the five claims. Each kernel program, run from any memory, terminates without a fault and ends with every
  unscoped buffer at the last boundary's contents; an argument array is an unscoped buffer that no host operation writes
  and that is no region's output, so it ends as launched: the two kernel frames. The reference has no kernel: its frame
  is its run with the result forgotten. The idealization rewrote no operation, so there is nothing to preserve.
-/
import proofs.«121421_j52656299049561_1_alg».proof.Defs
import proofs.«121421_j52656299049561_1_alg».proof.Proof.K.Run
import proofs.«121421_j52656299049561_1_alg».proof.Proof.KI.Run
import proofs.«121421_j52656299049561_1_alg».proof.Proof.Gen.ReferenceIdeal.Run
import proofs.«121421_j52656299049561_1_alg».proof.Proof.Gen.Pre_finite_inputs

noncomputable section

namespace Cert.Proof.Parts

open Idealize.ShloMosaic Idealize.SL.Sem

theorem frame_kernel : Cert.frame_Kernel := fun m ρ _ =>
  (θ_run (Cert.Kernel.defs (F := Bits)) _ _).mono (fun r h c => ⟨
      (h c _ (Cert.Kernel.Rg.mem_uc Cert.Kernel.main_arg0 (by decide))).trans (Cert.Kernel.Rg.W12_arg0 m c),
      (h c _ (Cert.Kernel.Rg.mem_uc Cert.Kernel.main_arg1 (by decide))).trans (Cert.Kernel.Rg.W12_arg1 m c),
      (h c _ (Cert.Kernel.Rg.mem_uc Cert.Kernel.main_arg2 (by decide))).trans (Cert.Kernel.Rg.W12_arg2 m c),
      (h c _ (Cert.Kernel.Rg.mem_uc Cert.Kernel.main_arg3 (by decide))).trans (Cert.Kernel.Rg.W12_arg3 m c),
      (h c _ (Cert.Kernel.Rg.mem_uc Cert.Kernel.main_arg4 (by decide))).trans (Cert.Kernel.Rg.W12_arg4 m c),
      (h c _ (Cert.Kernel.Rg.mem_uc Cert.Kernel.main_arg5 (by decide))).trans (Cert.Kernel.Rg.W12_arg5 m c),
      (h c _ (Cert.Kernel.Rg.mem_uc Cert.Kernel.main_arg6 (by decide))).trans (Cert.Kernel.Rg.W12_arg6 m c),
      (h c _ (Cert.Kernel.Rg.mem_uc Cert.Kernel.main_arg7 (by decide))).trans (Cert.Kernel.Rg.W12_arg7 m c),
      (h c _ (Cert.Kernel.Rg.mem_uc Cert.Kernel.main_arg8 (by decide))).trans (Cert.Kernel.Rg.W12_arg8 m c),
      (h c _ (Cert.Kernel.Rg.mem_uc Cert.Kernel.main_arg9 (by decide))).trans (Cert.Kernel.Rg.W12_arg9 m c),
      (h c _ (Cert.Kernel.Rg.mem_uc Cert.Kernel.main_arg10 (by decide))).trans (Cert.Kernel.Rg.W12_arg10 m c),
      (h c _ (Cert.Kernel.Rg.mem_uc Cert.Kernel.main_arg11 (by decide))).trans (Cert.Kernel.Rg.W12_arg11 m c),
      (h c _ (Cert.Kernel.Rg.mem_uc Cert.Kernel.main_arg12 (by decide))).trans (Cert.Kernel.Rg.W12_arg12 m c),
      (h c _ (Cert.Kernel.Rg.mem_uc Cert.Kernel.main_arg13 (by decide))).trans (Cert.Kernel.Rg.W12_arg13 m c),
      (h c _ (Cert.Kernel.Rg.mem_uc Cert.Kernel.main_arg14 (by decide))).trans (Cert.Kernel.Rg.W12_arg14 m c),
      (h c _ (Cert.Kernel.Rg.mem_uc Cert.Kernel.main_arg15 (by decide))).trans (Cert.Kernel.Rg.W12_arg15 m c)⟩)
    (Cert.Kernel.Rg.run_all (F := Bits) m ρ)

theorem frame_kernelIdeal : Cert.frame_KernelIdeal := fun m ρ _ =>
  (θ_run (Cert.KernelIdeal.defs (F := Ideal)) _ _).mono (fun r h c => ⟨
      (h c _ (Cert.KernelIdeal.Rg.mem_uc Cert.KernelIdeal.main_arg0 (by decide))).trans (Cert.KernelIdeal.Rg.W12_arg0 m c),
      (h c _ (Cert.KernelIdeal.Rg.mem_uc Cert.KernelIdeal.main_arg1 (by decide))).trans (Cert.KernelIdeal.Rg.W12_arg1 m c),
      (h c _ (Cert.KernelIdeal.Rg.mem_uc Cert.KernelIdeal.main_arg2 (by decide))).trans (Cert.KernelIdeal.Rg.W12_arg2 m c),
      (h c _ (Cert.KernelIdeal.Rg.mem_uc Cert.KernelIdeal.main_arg3 (by decide))).trans (Cert.KernelIdeal.Rg.W12_arg3 m c),
      (h c _ (Cert.KernelIdeal.Rg.mem_uc Cert.KernelIdeal.main_arg4 (by decide))).trans (Cert.KernelIdeal.Rg.W12_arg4 m c),
      (h c _ (Cert.KernelIdeal.Rg.mem_uc Cert.KernelIdeal.main_arg5 (by decide))).trans (Cert.KernelIdeal.Rg.W12_arg5 m c),
      (h c _ (Cert.KernelIdeal.Rg.mem_uc Cert.KernelIdeal.main_arg6 (by decide))).trans (Cert.KernelIdeal.Rg.W12_arg6 m c),
      (h c _ (Cert.KernelIdeal.Rg.mem_uc Cert.KernelIdeal.main_arg7 (by decide))).trans (Cert.KernelIdeal.Rg.W12_arg7 m c),
      (h c _ (Cert.KernelIdeal.Rg.mem_uc Cert.KernelIdeal.main_arg8 (by decide))).trans (Cert.KernelIdeal.Rg.W12_arg8 m c),
      (h c _ (Cert.KernelIdeal.Rg.mem_uc Cert.KernelIdeal.main_arg9 (by decide))).trans (Cert.KernelIdeal.Rg.W12_arg9 m c),
      (h c _ (Cert.KernelIdeal.Rg.mem_uc Cert.KernelIdeal.main_arg10 (by decide))).trans (Cert.KernelIdeal.Rg.W12_arg10 m c),
      (h c _ (Cert.KernelIdeal.Rg.mem_uc Cert.KernelIdeal.main_arg11 (by decide))).trans (Cert.KernelIdeal.Rg.W12_arg11 m c),
      (h c _ (Cert.KernelIdeal.Rg.mem_uc Cert.KernelIdeal.main_arg12 (by decide))).trans (Cert.KernelIdeal.Rg.W12_arg12 m c),
      (h c _ (Cert.KernelIdeal.Rg.mem_uc Cert.KernelIdeal.main_arg13 (by decide))).trans (Cert.KernelIdeal.Rg.W12_arg13 m c),
      (h c _ (Cert.KernelIdeal.Rg.mem_uc Cert.KernelIdeal.main_arg14 (by decide))).trans (Cert.KernelIdeal.Rg.W12_arg14 m c),
      (h c _ (Cert.KernelIdeal.Rg.mem_uc Cert.KernelIdeal.main_arg15 (by decide))).trans (Cert.KernelIdeal.Rg.W12_arg15 m c)⟩)
    (Cert.KernelIdeal.Rg.run_all (F := Ideal) m ρ)

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

end Cert.Proof.Parts

end
-- ==== Proof.LibDotSum.lean ====
/-
  A matrix product's contraction as a plain sum over the shared axis, for any record of dimension numbers whose operand
  indices are known coordinate by coordinate (at a printed program's literal records those coordinate facts hold by
  computation). Two forms: rows × columns (rank 2 by rank 2), and the same with one leading batch axis shared by both
  operands and the result (rank 3 by rank 3).
-/
import Idealize.ShloMosaic.Lib.ValueIdx

noncomputable section

open scoped BigOperators

namespace Cert.LibDotSum

open Idealize.ShloMosaic Idealize.ShloMosaic.ValueIdx

/-- `M × K` by `K × N`: the sum over the record's contraction index of a function of the two operand indices is the sum
    over `k : Fin K` of it at `(row, k)` and `(k, column)`. -/
theorem plain {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    {α : Type} [AddCommMonoid α] (f : (⟨2, ![M, K]⟩ : Shape).Idx → (⟨2, ![K, N]⟩ : Shape).Idx → α)
    (j : (⟨2, ![M, N]⟩ : Shape).Idx) :
    ∑ k : d.contr.Idx, f (d.lhsIdx j k) (d.rhsIdx j k) = ∑ k : Fin K, f (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a; apply Fin.ext
    match a with
    | ⟨0, _⟩ => exact hl0 j _
    | ⟨1, _⟩ => exact (hl1 j _).trans (contrEquiv1_symm_val d K hr hs k)
  have e2 : d.rhsIdx j ((contrEquiv1 d K hr hs).symm k) = ix2 k (j 1) := by
    funext a; apply Fin.ext
    match a with
    | ⟨0, _⟩ => exact (hr0 j _).trans (contrEquiv1_symm_val d K hr hs k)
    | ⟨1, _⟩ => exact hr1 j _
  exact congrArg₂ f e1 e2

/-- `B × M × K` by `B × K × N` with the leading axis a batch axis: at result index `(b, row, column)` the sum over `k : Fin K`
    of the function at `(b, row, k)` and `(b, k, column)`. -/
theorem batched {B M K N : Nat} (d : DotDims ⟨3, ![B, M, K]⟩ ⟨3, ![B, K, N]⟩ ⟨3, ![B, M, N]⟩)
    (hr : d.contr.rank = 1) (hs : d.contr.size ⟨0, by omega⟩ = K)
    (hl0 : ∀ j k, (d.lhsIdx j k 0).val = (j 0).val)
    (hl1 : ∀ j k, (d.lhsIdx j k 1).val = (j 1).val)
    (hl2 : ∀ j k, (d.lhsIdx j k 2).val = (k ⟨0, by omega⟩).val)
    (hr0 : ∀ j k, (d.rhsIdx j k 0).val = (j 0).val)
    (hr1 : ∀ j k, (d.rhsIdx j k 1).val = (k ⟨0, by omega⟩).val)
    (hr2 : ∀ j k, (d.rhsIdx j k 2).val = (j 2).val)
    {α : Type} [AddCommMonoid α] (f : (⟨3, ![B, M, K]⟩ : Shape).Idx → (⟨3, ![B, K, N]⟩ : Shape).Idx → α)
    (j : (⟨3, ![B, M, N]⟩ : Shape).Idx) :
    ∑ k : d.contr.Idx, f (d.lhsIdx j k) (d.rhsIdx j k) = ∑ k : Fin K, f (ix3 (j 0) (j 1) k) (ix3 (j 0) k (j 2)) := by
  rw [← Equiv.sum_comp (contrEquiv1 d K hr hs).symm]
  refine Finset.sum_congr rfl fun k _ => ?_
  have e1 : d.lhsIdx j ((contrEquiv1 d K hr hs).symm k) = ix3 (j 0) (j 1) k := by
    funext a; apply Fin.ext
    match a with
    | ⟨0, _⟩ => exact hl0 j _
    | ⟨1, _⟩ => exact hl1 j _
    | ⟨2, _⟩ => exact (hl2 j _).trans (contrEquiv1_symm_val d K hr hs k)
  have e2 : d.rhsIdx j ((contrEquiv1 d K hr hs).symm k) = ix3 (j 0) k (j 2) := by
    funext a; apply Fin.ext
    match a with
    | ⟨0, _⟩ => exact hr0 j _
    | ⟨1, _⟩ => exact (hr1 j _).trans (contrEquiv1_symm_val d K hr hs k)
    | ⟨2, _⟩ => exact hr2 j _
  exact congrArg₂ f e1 e2

end Cert.LibDotSum

end
-- ==== Proof.LibMatProd.lean ====
/-
  Matrix products at the exact (extended-real) reading, element by element. A rows-by-columns product, whether the host's
  `dot_general` or a kernel's matmul into a zero accumulator whose operands were first narrowed to a shorter float format
  (a change of format is the identity on exact values), is at (r, c) the sum over the shared axis of A(r, k) · B(k, c).
  Both are stated for any record of dimension numbers whose operand indices are known coordinate by coordinate.
-/
import Idealize.ShloMosaic.PureOps.Ideal.Laws
import Idealize.ShloMosaic.Lib.ValueIdx
import proofs.«121421_j52656299049561_1_alg».proof.Proof.LibDotSum

noncomputable section

open scoped BigOperators

namespace Cert.Spec

open Idealize.ShloMosaic Idealize.ShloMosaic.ValueIdx

/-- The product of an `M × K` array by a `K × N` array: at (r, c) the sum over k of A(r, k) · B(k, c). -/
def rowsByCols {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- Two `M × N` arrays added, then one row `b` added to every row, then the maximum with a fixed value `z`
    (with `z` zero: bias, then the rectifier). -/
def addRowMax {M N : Nat} (P Q : (⟨2, ![M, N]⟩ : Shape).Idx → EReal) (b : (⟨2, ![1, N]⟩ : Shape).Idx → EReal) (z : EReal) :
    (⟨2, ![M, N]⟩ : Shape).Idx → EReal :=
  fun j => max ((P j + Q j) + b (ix2 (0 : Fin 1) (j 1))) z

/-- One row `b` added to every row of an `M × N` array. -/
def addRow {M N : Nat} (P : (⟨2, ![M, N]⟩ : Shape).Idx → EReal) (b : (⟨2, ![1, N]⟩ : Shape).Idx → EReal) :
    (⟨2, ![M, N]⟩ : Shape).Idx → EReal :=
  fun j => P j + b (ix2 (0 : Fin 1) (j 1))

end Cert.Spec

namespace Cert.MatProd

open Idealize.ShloMosaic Idealize.ShloMosaic.ValueIdx

/-- The host's product of an `M × K` by a `K × N` array, at (r, c): `∑ k, A (r, k) · B (k, c)`. -/
theorem hostDot_apply {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ .f32) (B : FVec Ideal ⟨2, ![K, N]⟩ .f32) (j : (⟨2, ![M, N]⟩ : Shape).Idx) :
    Host.dotGeneral (F := Ideal) d none A B j = Cert.Spec.rowsByCols A B j := by
  unfold Cert.Spec.rowsByCols
  simp only [Host.dotGeneral]
  rw [Ideal.dotGeneral_apply]
  exact Cert.LibDotSum.plain d hr hs hl0 hl1 hr0 hr1 (fun a b => A a * B b) j

/-- A kernel's matmul of two blocks narrowed to bf16, into the zero accumulator, at (r, c): the same sum of the
    un-narrowed blocks' products. -/
theorem tileDot_apply {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ .f32) (B : FVec Ideal ⟨2, ![K, N]⟩ .f32)
    (hb : (FTy.bf16).bits < (FTy.f32).bits) (j : (⟨2, ![M, N]⟩ : Shape).Idx) :
    matmul (F := Ideal) d none (truncf .bf16 A hb) (truncf .bf16 B hb) (constant ⟨2, ![M, N]⟩ .f32 0x00000000#32) j
      = Cert.Spec.rowsByCols A B j := by
  unfold Cert.Spec.rowsByCols
  simp only [matmul]
  rw [Ideal.matmul_constant_zero_apply]
  exact Cert.LibDotSum.plain d hr hs hl0 hl1 hr0 hr1 (fun a b => A a * B b) j

end Cert.MatProd

end
-- ==== Proof.Val.Model.lean ====
/-
  The function both programs compute, on the extended reals, as one function of the sixteen argument arrays.
  Three blocks of node features are each projected (rows times a weight matrix, plus one bias row) and stacked into one
  array of 50000 rows. A node's degree norm is (max(degree, 1))^(-1/2), the degree counted by adding one per edge at the
  edge's end. One round of aggregation scales each row by its source norm, reads the rows at the edges' source ends,
  adds them up at the edges' destination ends, and scales each row by its destination norm. Three rounds follow: the
  first adds a bias row and takes the larger of the result and zero; the second multiplies by a weight matrix, adds a bias
  row and takes the larger of the result and zero; the third multiplies by a weight matrix and adds a bias row.
  The aggregation and the norms are kept as the host operations that compute them, unopened: both programs apply the
  same ones, so only their inputs ever need comparing.
-/
import proofs.«121421_j52656299049561_1_alg».proof.Proof.Gen.KernelIdeal
import proofs.«121421_j52656299049561_1_alg».proof.Proof.LibMatProd
import Idealize.ShloMosaic.PureOps.Ideal
import Idealize.ShloMosaic.Lib.ValueIdx

noncomputable section

namespace Cert.Spec

open Idealize.ShloMosaic Idealize.ShloMosaic.ValueIdx

/-- One row `b` added to every row of an `M × N` array, then the larger of the sum and zero. -/
def rowRelu {M N : Nat} (P : (⟨2, ![M, N]⟩ : Shape).Idx → EReal) (b : (⟨2, ![1, N]⟩ : Shape).Idx → EReal) :
    (⟨2, ![M, N]⟩ : Shape).Idx → EReal :=
  fun j => max (P j + b (ix2 (0 : Fin 1) (j 1))) 0

end Cert.Spec

namespace Cert.KernelIdeal.Val

open Cert.KernelIdeal Cert.KernelIdeal.Facts₀ Idealize.ShloMosaic Idealize.ShloMosaic.ValueIdx

/-- A node's degree norm from the list of edge ends `idx`: one is added at each edge's end into zeros, the larger of
    that count and one is raised to the power -1/2. -/
def degNorm (idx : IVec S800000 32) : FVec Ideal S50000 .f32 :=
  Host.powf (F := Ideal)
    (maximumf
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 idx)
        (broadcastInDim S800000 ![] bcast_S_S800000 (constant (F := Ideal) S_ .f32 0x3F800000#32)))
      (broadcastInDim S50000 ![] bcast_S_S50000 (constant (F := Ideal) S_ .f32 0x3F800000#32)))
    (broadcastInDim S50000 ![] bcast_S_S50000 (constant (F := Ideal) S_ .f32 0xBF000000#32))

/-- One round of aggregation of the rows `h` over the edges `src → dst` with the norms `ns`, `nd`: scale by the
    source norm, read at the source ends (a negative index counted from the end), add up at the destination ends
    into zeros, scale by the destination norm. -/
def agg (ns nd : FVec Ideal S50000 .f32) (src dst : IVec S800000 32) (h : FVec Ideal S50000x128 .f32) : FVec Ideal S50000x128 .f32 :=
  mulf
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128
        (mulf h (broadcastInDim S50000x128 ![0, 1] bcast_S50000x1_S50000x128_0_1 (broadcastInDim S50000x1 ![0] bcast_S50000_S50000x1_0 ns)))
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1 (broadcastInDim S50000x1 ![0] bcast_S50000_S50000x1_0 nd))

/-- The three projections stacked: 20000, 15000 and 15000 rows of 128. -/
def stacked (p0 : FVec Ideal S20000x128 .f32) (p1 p2 : FVec Ideal S15000x128 .f32) : FVec Ideal S50000x128 .f32 :=
  concatenate S50000x128 0 [⟨S20000x128, p0⟩, ⟨S15000x128, p1⟩, ⟨S15000x128, p2⟩] concatenates_S20000x128_S15000x128_S15000x128_S50000x128_d0

/-- The whole computation: the result array, 50000 rows of 64, from the sixteen argument arrays. The bias vectors
    enter as single rows `r0 … r5` (the vector of 128 or 64 entries laid out as one row). -/
def model (a0 : FVec Ideal S20000x512 .f32) (a1 : FVec Ideal S15000x256 .f32) (a2 : FVec Ideal S15000x128 .f32)
    (w0 : FVec Ideal S512x128 .f32) (r0 : FVec Ideal S1x128 .f32) (w1 : FVec Ideal S256x128 .f32) (r1 : FVec Ideal S1x128 .f32)
    (w2 : FVec Ideal S128x128 .f32) (r2 : FVec Ideal S1x128 .f32) (r3 : FVec Ideal S1x128 .f32)
    (w4 : FVec Ideal S128x128 .f32) (r4 : FVec Ideal S1x128 .f32) (w5 : FVec Ideal S128x64 .f32) (r5 : FVec Ideal S1x64 .f32)
    (src dst : IVec S800000 32) : FVec Ideal S50000x64 .f32 :=
  Cert.Spec.addRow (Cert.Spec.rowsByCols
    (agg (degNorm src) (degNorm dst) src dst
      (Cert.Spec.rowRelu (Cert.Spec.rowsByCols
        (agg (degNorm src) (degNorm dst) src dst
          (Cert.Spec.rowRelu
            (agg (degNorm src) (degNorm dst) src dst
              (stacked (Cert.Spec.addRow (Cert.Spec.rowsByCols a0 w0) r0) (Cert.Spec.addRow (Cert.Spec.rowsByCols a1 w1) r1)
                (Cert.Spec.addRow (Cert.Spec.rowsByCols a2 w2) r2)))
            r3))
        w4) r4))
    w5) r5

end Cert.KernelIdeal.Val

end
-- ==== Proof.Val.Host.lean ====
/-
  What the host operations between the regions compute, read off the program's own list of operations, for ANY contents
  `V` of the buffers the stretch starts from. The three one-operation stretches lay a bias vector out as one row. The long
  stretch stacks the three projections, computes the two degree norms from the edge lists, and aggregates once; it also
  lays the first layer's bias out as a row. The next two stretches each aggregate once more, with the norms computed
  before, and lay a bias out as a row. Every result is stated with the aggregation and the norms as the model's own
  functions of the stretch's inputs: the operations are listed, never evaluated.
-/
import proofs.«121421_j52656299049561_1_alg».proof.Proof.Gen.KernelIdeal.Launch
import proofs.«121421_j52656299049561_1_alg».proof.Proof.Val.Model
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable (V : Valuation τ sig (Elt Ideal))

/-! ## A bias vector laid out as one row -/

theorem row0 : StableHlo.after hostOps0 V (Proc.devRef .tc main_v0) = shapeCast S1x128 (V (Proc.devRef .tc main_arg4)) Facts₀.shapeCasts_S128_S1x128 := by
  after_results; rfl
theorem row1 : StableHlo.after hostOps1 V (Proc.devRef .tc main_v2) = shapeCast S1x128 (V (Proc.devRef .tc main_arg6)) Facts₀.shapeCasts_S128_S1x128 := by
  after_results; rfl
theorem row2 : StableHlo.after hostOps2 V (Proc.devRef .tc main_v4) = shapeCast S1x128 (V (Proc.devRef .tc main_arg8)) Facts₀.shapeCasts_S128_S1x128 := by
  after_results; rfl

/-! ## The long stretch: stack, norms, first aggregation -/

set_option maxHeartbeats 16000000 in
/-- The first layer's input to the rectifier: one aggregation of the three projections stacked. -/
theorem agg3 : StableHlo.after hostOps3 V (Proc.devRef .tc main_v37) =
    agg (degNorm (V (Proc.devRef .tc main_arg14))) (degNorm (V (Proc.devRef .tc main_arg15))) (V (Proc.devRef .tc main_arg14)) (V (Proc.devRef .tc main_arg15))
      (stacked (V (Proc.devRef .tc main_v1)) (V (Proc.devRef .tc main_v3)) (V (Proc.devRef .tc main_v5))) := by
  after_results_simp; rfl

set_option maxHeartbeats 16000000 in
/-- The source-side norm, kept for the later aggregations. -/
theorem norm3s : StableHlo.after hostOps3 V (Proc.devRef .tc main_v17) = degNorm (V (Proc.devRef .tc main_arg14)) := by
  after_results_simp; rfl

set_option maxHeartbeats 16000000 in
/-- The destination-side norm. -/
theorem norm3d : StableHlo.after hostOps3 V (Proc.devRef .tc main_v21) = degNorm (V (Proc.devRef .tc main_arg15)) := by
  after_results_simp; rfl

set_option maxHeartbeats 16000000 in
theorem row3 : StableHlo.after hostOps3 V (Proc.devRef .tc main_v38) = shapeCast S1x128 (V (Proc.devRef .tc main_arg9)) Facts₀.shapeCasts_S128_S1x128 := by
  after_results_simp; rfl

/-! ## The second and third aggregations -/

set_option maxHeartbeats 8000000 in
theorem agg4 : StableHlo.after hostOps4 V (Proc.devRef .tc main_v55) =
    agg (V (Proc.devRef .tc main_v17)) (V (Proc.devRef .tc main_v21)) (V (Proc.devRef .tc main_arg14)) (V (Proc.devRef .tc main_arg15)) (V (Proc.devRef .tc main_v39)) := by
  after_results_simp; rfl

set_option maxHeartbeats 8000000 in
theorem row4 : StableHlo.after hostOps4 V (Proc.devRef .tc main_v56) = shapeCast S1x128 (V (Proc.devRef .tc main_arg11)) Facts₀.shapeCasts_S128_S1x128 := by
  after_results_simp; rfl

set_option maxHeartbeats 8000000 in
theorem agg5 : StableHlo.after hostOps5 V (Proc.devRef .tc main_v73) =
    agg (V (Proc.devRef .tc main_v17)) (V (Proc.devRef .tc main_v21)) (V (Proc.devRef .tc main_arg14)) (V (Proc.devRef .tc main_arg15)) (V (Proc.devRef .tc main_v57)) := by
  after_results_simp; rfl

set_option maxHeartbeats 8000000 in
theorem row5 : StableHlo.after hostOps5 V (Proc.devRef .tc main_v74) = shapeCast S1x64 (V (Proc.devRef .tc main_arg13)) Facts₀.shapeCasts_S64_S1x64 := by
  after_results_simp; rfl

end Cert.KernelIdeal.Val

end
-- ==== Proof.Val.Kernel.lean ====
/-
  The kernel program's result array, as the model of the launch memory's argument arrays.
  Read backwards through the twelve items. The result array is what the last region's pipeline leaves: the last layer
  of the model applied to what the stretch before it computed. That stretch aggregates what the fifth region left, with
  the norms the long stretch computed from the edge lists, which nothing has written since; and so on back to the three
  projections, each of which reads argument arrays that nothing has written. Each step is one named equation between a
  buffer at a boundary and the model's value for it; the aggregation is never opened.
  The six regions' values (each output array as one function of the region's input arrays) are hypotheses here.
-/
import proofs.«121421_j52656299049561_1_alg».proof.Proof.KI.Run
import proofs.«121421_j52656299049561_1_alg».proof.Proof.Val.Host

set_option maxRecDepth 16384

noncomputable section

namespace Cert.KernelIdeal.Val

open Cert.KernelIdeal Cert.KernelIdeal.Gen Cert.KernelIdeal.Rg
open Idealize.ShloMosaic Idealize.ShloMosaic.TcCoe Idealize.SL.Sem Idealize.ShloMosaic.StableHlo

variable (m : (ℓ : Loc nD τ sig) → Buf (Elt Ideal) ℓ) (c : Dev nD)

/-! ## A buffer nothing has written yet holds its launch contents at every earlier boundary -/

theorem at1 (r : Ref sig .tc) (a0 : r ∉ ([main_v0] : List (Ref sig .tc))) : W1 m c (Proc.devRef .tc r) = m ((c : Thread nD τ).loc r) :=
  (W1_keep m c r a0).trans rfl
theorem at2 (r : Ref sig .tc) (a0 : r ∉ ([main_v0] : List (Ref sig .tc))) (o0 : r ≠ main_v1) : W2 m c (Proc.devRef .tc r) = m ((c : Thread nD τ).loc r) :=
  (W2_keep m c r o0).trans (at1 m c r a0)
theorem at3 (r : Ref sig .tc) (a0 : r ∉ ([main_v0] : List (Ref sig .tc))) (o0 : r ≠ main_v1) (a1 : r ∉ ([main_v2] : List (Ref sig .tc))) :
    W3 m c (Proc.devRef .tc r) = m ((c : Thread nD τ).loc r) :=
  (W3_keep m c r a1).trans (at2 m c r a0 o0)
theorem at4 (r : Ref sig .tc) (a0 : r ∉ ([main_v0] : List (Ref sig .tc))) (o0 : r ≠ main_v1) (a1 : r ∉ ([main_v2] : List (Ref sig .tc))) (o1 : r ≠ main_v3) :
    W4 m c (Proc.devRef .tc r) = m ((c : Thread nD τ).loc r) :=
  (W4_keep m c r o1).trans (at3 m c r a0 o0 a1)
theorem at5 (r : Ref sig .tc) (a0 : r ∉ ([main_v0] : List (Ref sig .tc))) (o0 : r ≠ main_v1) (a1 : r ∉ ([main_v2] : List (Ref sig .tc))) (o1 : r ≠ main_v3)
    (a2 : r ∉ ([main_v4] : List (Ref sig .tc))) : W5 m c (Proc.devRef .tc r) = m ((c : Thread nD τ).loc r) :=
  (W5_keep m c r a2).trans (at4 m c r a0 o0 a1 o1)
theorem at6 (r : Ref sig .tc) (a0 : r ∉ ([main_v0] : List (Ref sig .tc))) (o0 : r ≠ main_v1) (a1 : r ∉ ([main_v2] : List (Ref sig .tc))) (o1 : r ≠ main_v3)
    (a2 : r ∉ ([main_v4] : List (Ref sig .tc))) (o2 : r ≠ main_v5) : W6 m c (Proc.devRef .tc r) = m ((c : Thread nD τ).loc r) :=
  (W6_keep m c r o2).trans (at5 m c r a0 o0 a1 o1 a2)
theorem at8 (r : Ref sig .tc) (a0 : r ∉ ([main_v0] : List (Ref sig .tc))) (o0 : r ≠ main_v1) (a1 : r ∉ ([main_v2] : List (Ref sig .tc))) (o1 : r ≠ main_v3)
    (a2 : r ∉ ([main_v4] : List (Ref sig .tc))) (o2 : r ≠ main_v5) (a3 : r ∉ wrote3) (o3 : r ≠ main_v39) :
    W8 m c (Proc.devRef .tc r) = m ((c : Thread nD τ).loc r) :=
  (W8_keep m c r o3).trans <| (W7_keep m c r a3).trans (at6 m c r a0 o0 a1 o1 a2 o2)
theorem at10 (r : Ref sig .tc) (a0 : r ∉ ([main_v0] : List (Ref sig .tc))) (o0 : r ≠ main_v1) (a1 : r ∉ ([main_v2] : List (Ref sig .tc))) (o1 : r ≠ main_v3)
    (a2 : r ∉ ([main_v4] : List (Ref sig .tc))) (o2 : r ≠ main_v5) (a3 : r ∉ wrote3) (o3 : r ≠ main_v39) (a4 : r ∉ wrote4) (o4 : r ≠ main_v57) :
    W10 m c (Proc.devRef .tc r) = m ((c : Thread nD τ).loc r) :=
  (W10_keep m c r o4).trans <| (W9_keep m c r a4).trans (at8 m c r a0 o0 a1 o1 a2 o2 a3 o3)

section Chain

/-! ## The six regions' values, assumed -/

variable
  (h0 : ∀ (V : (c : Dev nD) → (b : Ref sig .tc) → Buf (Elt Ideal) ((c : Thread nD τ).loc b)) (c : Dev nD),
    (dat0 V c).arrAt 3 cfg0.N = Cert.Spec.addRow (Cert.Spec.rowsByCols (V c main_arg0) (V c main_arg3)) (V c main_v0))
  (h1 : ∀ (V : (c : Dev nD) → (b : Ref sig .tc) → Buf (Elt Ideal) ((c : Thread nD τ).loc b)) (c : Dev nD),
    (dat1 V c).arrAt 3 cfg1.N = Cert.Spec.addRow (Cert.Spec.rowsByCols (V c main_arg1) (V c main_arg5)) (V c main_v2))
  (h2 : ∀ (V : (c : Dev nD) → (b : Ref sig .tc) → Buf (Elt Ideal) ((c : Thread nD τ).loc b)) (c : Dev nD),
    (dat2 V c).arrAt 3 cfg2.N = Cert.Spec.addRow (Cert.Spec.rowsByCols (V c main_arg2) (V c main_arg7)) (V c main_v4))
  (h3 : ∀ (V : (c : Dev nD) → (b : Ref sig .tc) → Buf (Elt Ideal) ((c : Thread nD τ).loc b)) (c : Dev nD),
    (dat3 V c).arrAt 2 cfg3.N = Cert.Spec.rowRelu (V c main_v37) (V c main_v38))
  (h4 : ∀ (V : (c : Dev nD) → (b : Ref sig .tc) → Buf (Elt Ideal) ((c : Thread nD τ).loc b)) (c : Dev nD),
    (dat4 V c).arrAt 3 cfg4.N = Cert.Spec.rowRelu (Cert.Spec.rowsByCols (V c main_v55) (V c main_arg10)) (V c main_v56))
  (h5 : ∀ (V : (c : Dev nD) → (b : Ref sig .tc) → Buf (Elt Ideal) ((c : Thread nD τ).loc b)) (c : Dev nD),
    (dat5 V c).arrAt 3 cfg5.N = Cert.Spec.addRow (Cert.Spec.rowsByCols (V c main_v73) (V c main_arg12)) (V c main_v74))

include h0 h1 h2 h3 h4 h5

-- one declaration of some sixty decided memberships and forty rewrites: the default budget ends half way through it
set_option maxHeartbeats 8000000 in
/-- The result array after the run is the model of the launch memory's argument arrays. -/
theorem kernel_is_model :
    W12 m c (Proc.devRef .tc main_v75) =
      model (m ((c : Thread nD τ).loc main_arg0)) (m ((c : Thread nD τ).loc main_arg1)) (m ((c : Thread nD τ).loc main_arg2)) (m ((c : Thread nD τ).loc main_arg3)) (shapeCast S1x128 (m ((c : Thread nD τ).loc main_arg4)) Facts₀.shapeCasts_S128_S1x128) (m ((c : Thread nD τ).loc main_arg5)) (shapeCast S1x128 (m ((c : Thread nD τ).loc main_arg6)) Facts₀.shapeCasts_S128_S1x128) (m ((c : Thread nD τ).loc main_arg7)) (shapeCast S1x128 (m ((c : Thread nD τ).loc main_arg8)) Facts₀.shapeCasts_S128_S1x128)
        (shapeCast S1x128 (m ((c : Thread nD τ).loc main_arg9)) Facts₀.shapeCasts_S128_S1x128) (m ((c : Thread nD τ).loc main_arg10)) (shapeCast S1x128 (m ((c : Thread nD τ).loc main_arg11)) Facts₀.shapeCasts_S128_S1x128) (m ((c : Thread nD τ).loc main_arg12)) (shapeCast S1x64 (m ((c : Thread nD τ).loc main_arg13)) Facts₀.shapeCasts_S64_S1x64) (m ((c : Thread nD τ).loc main_arg14)) (m ((c : Thread nD τ).loc main_arg15)) := by
  -- the three projections, each at its region's exit
  have r0 : W1 m c (Proc.devRef .tc main_v0) = (shapeCast S1x128 (m ((c : Thread nD τ).loc main_arg4)) Facts₀.shapeCasts_S128_S1x128) := row0 (W0 m c)
  have p0 : W2 m c (Proc.devRef .tc main_v1) = Cert.Spec.addRow (Cert.Spec.rowsByCols (m ((c : Thread nD τ).loc main_arg0)) (m ((c : Thread nD τ).loc main_arg3))) (shapeCast S1x128 (m ((c : Thread nD τ).loc main_arg4)) Facts₀.shapeCasts_S128_S1x128) := by
    refine (W2_arr m c 3).trans ((h0 (B1 m) c).trans ?_)
    rw [show B1 m c main_arg0 = (m ((c : Thread nD τ).loc main_arg0)) from at1 m c main_arg0 (by decide),
      show B1 m c main_arg3 = (m ((c : Thread nD τ).loc main_arg3)) from at1 m c main_arg3 (by decide), show B1 m c main_v0 = _ from r0]
  have r1 : W3 m c (Proc.devRef .tc main_v2) = (shapeCast S1x128 (m ((c : Thread nD τ).loc main_arg6)) Facts₀.shapeCasts_S128_S1x128) :=
    (row1 (W2 m c)).trans (by rw [show W2 m c (Proc.devRef .tc main_arg6) = (m ((c : Thread nD τ).loc main_arg6)) from at2 m c main_arg6 (by decide) (by decide)])
  have p1 : W4 m c (Proc.devRef .tc main_v3) = Cert.Spec.addRow (Cert.Spec.rowsByCols (m ((c : Thread nD τ).loc main_arg1)) (m ((c : Thread nD τ).loc main_arg5))) (shapeCast S1x128 (m ((c : Thread nD τ).loc main_arg6)) Facts₀.shapeCasts_S128_S1x128) := by
    refine (W4_arr m c 3).trans ((h1 (B3 m) c).trans ?_)
    rw [show B3 m c main_arg1 = (m ((c : Thread nD τ).loc main_arg1)) from at3 m c main_arg1 (by decide) (by decide) (by decide),
      show B3 m c main_arg5 = (m ((c : Thread nD τ).loc main_arg5)) from at3 m c main_arg5 (by decide) (by decide) (by decide), show B3 m c main_v2 = _ from r1]
  have r2 : W5 m c (Proc.devRef .tc main_v4) = (shapeCast S1x128 (m ((c : Thread nD τ).loc main_arg8)) Facts₀.shapeCasts_S128_S1x128) :=
    (row2 (W4 m c)).trans (by rw [show W4 m c (Proc.devRef .tc main_arg8) = (m ((c : Thread nD τ).loc main_arg8)) from at4 m c main_arg8 (by decide) (by decide) (by decide) (by decide)])
  have p2 : W6 m c (Proc.devRef .tc main_v5) = Cert.Spec.addRow (Cert.Spec.rowsByCols (m ((c : Thread nD τ).loc main_arg2)) (m ((c : Thread nD τ).loc main_arg7))) (shapeCast S1x128 (m ((c : Thread nD τ).loc main_arg8)) Facts₀.shapeCasts_S128_S1x128) := by
    refine (W6_arr m c 3).trans ((h2 (B5 m) c).trans ?_)
    rw [show B5 m c main_arg2 = (m ((c : Thread nD τ).loc main_arg2)) from at5 m c main_arg2 (by decide) (by decide) (by decide) (by decide) (by decide),
      show B5 m c main_arg7 = (m ((c : Thread nD τ).loc main_arg7)) from at5 m c main_arg7 (by decide) (by decide) (by decide) (by decide) (by decide), show B5 m c main_v4 = _ from r2]
  -- the first two projections are still there when the long stretch starts
  have p0' : W6 m c (Proc.devRef .tc main_v1) = _ :=
    (W6_keep m c main_v1 (by decide)).trans <| (W5_keep m c main_v1 (by decide)).trans <| (W4_keep m c main_v1 (by decide)).trans <|
      (W3_keep m c main_v1 (by decide)).trans p0
  have p1' : W6 m c (Proc.devRef .tc main_v3) = _ :=
    (W6_keep m c main_v3 (by decide)).trans <| (W5_keep m c main_v3 (by decide)).trans p1
  have s6 : W6 m c (Proc.devRef .tc main_arg14) = (m ((c : Thread nD τ).loc main_arg14)) := at6 m c main_arg14 (by decide) (by decide) (by decide) (by decide) (by decide) (by decide)
  have d6 : W6 m c (Proc.devRef .tc main_arg15) = (m ((c : Thread nD τ).loc main_arg15)) := at6 m c main_arg15 (by decide) (by decide) (by decide) (by decide) (by decide) (by decide)
  -- the long stretch: norms, first aggregation, the first layer's bias row
  have ns7 : W7 m c (Proc.devRef .tc main_v17) = degNorm (m ((c : Thread nD τ).loc main_arg14)) := (norm3s (W6 m c)).trans (by rw [s6])
  have nd7 : W7 m c (Proc.devRef .tc main_v21) = degNorm (m ((c : Thread nD τ).loc main_arg15)) := (norm3d (W6 m c)).trans (by rw [d6])
  have a7 : W7 m c (Proc.devRef .tc main_v37) = _ := (agg3 (W6 m c)).trans (by rw [s6, d6, p0', p1', p2])
  have r7 : W7 m c (Proc.devRef .tc main_v38) = (shapeCast S1x128 (m ((c : Thread nD τ).loc main_arg9)) Facts₀.shapeCasts_S128_S1x128) :=
    (row3 (W6 m c)).trans (by rw [show W6 m c (Proc.devRef .tc main_arg9) = (m ((c : Thread nD τ).loc main_arg9)) from at6 m c main_arg9 (by decide) (by decide) (by decide) (by decide) (by decide) (by decide)])
  -- the first layer
  have l8 : W8 m c (Proc.devRef .tc main_v39) = _ :=
    (W8_arr m c 2).trans ((h3 (B7 m) c).trans (by rw [show B7 m c main_v37 = _ from a7, show B7 m c main_v38 = _ from r7]))
  have ns8 : W8 m c (Proc.devRef .tc main_v17) = _ := (W8_keep m c main_v17 (by decide)).trans ns7
  have nd8 : W8 m c (Proc.devRef .tc main_v21) = _ := (W8_keep m c main_v21 (by decide)).trans nd7
  have s8 : W8 m c (Proc.devRef .tc main_arg14) = (m ((c : Thread nD τ).loc main_arg14)) := at8 m c main_arg14 (by decide) (by decide) (by decide) (by decide) (by decide) (by decide) (by decide) (by decide)
  have d8 : W8 m c (Proc.devRef .tc main_arg15) = (m ((c : Thread nD τ).loc main_arg15)) := at8 m c main_arg15 (by decide) (by decide) (by decide) (by decide) (by decide) (by decide) (by decide) (by decide)
  -- second aggregation, second layer
  have a9 : W9 m c (Proc.devRef .tc main_v55) = _ := (agg4 (W8 m c)).trans (by rw [ns8, nd8, s8, d8, l8])
  have r9 : W9 m c (Proc.devRef .tc main_v56) = (shapeCast S1x128 (m ((c : Thread nD τ).loc main_arg11)) Facts₀.shapeCasts_S128_S1x128) :=
    (row4 (W8 m c)).trans (by rw [show W8 m c (Proc.devRef .tc main_arg11) = (m ((c : Thread nD τ).loc main_arg11)) from at8 m c main_arg11 (by decide) (by decide) (by decide) (by decide) (by decide) (by decide) (by decide) (by decide)])
  have w9 : W9 m c (Proc.devRef .tc main_arg10) = (m ((c : Thread nD τ).loc main_arg10)) :=
    (W9_keep m c main_arg10 (by decide)).trans (at8 m c main_arg10 (by decide) (by decide) (by decide) (by decide) (by decide) (by decide) (by decide) (by decide))
  have l10 : W10 m c (Proc.devRef .tc main_v57) = _ :=
    (W10_arr m c 3).trans ((h4 (B9 m) c).trans (by rw [show B9 m c main_v55 = _ from a9, show B9 m c main_arg10 = _ from w9, show B9 m c main_v56 = _ from r9]))
  have ns10 : W10 m c (Proc.devRef .tc main_v17) = _ :=
    (W10_keep m c main_v17 (by decide)).trans <| (W9_keep m c main_v17 (by decide)).trans ns8
  have nd10 : W10 m c (Proc.devRef .tc main_v21) = _ :=
    (W10_keep m c main_v21 (by decide)).trans <| (W9_keep m c main_v21 (by decide)).trans nd8
  have s10 : W10 m c (Proc.devRef .tc main_arg14) = (m ((c : Thread nD τ).loc main_arg14)) := at10 m c main_arg14 (by decide) (by decide) (by decide) (by decide) (by decide) (by decide) (by decide) (by decide) (by decide) (by decide)
  have d10 : W10 m c (Proc.devRef .tc main_arg15) = (m ((c : Thread nD τ).loc main_arg15)) := at10 m c main_arg15 (by decide) (by decide) (by decide) (by decide) (by decide) (by decide) (by decide) (by decide) (by decide) (by decide)
  -- third aggregation, last layer
  have a11 : W11 m c (Proc.devRef .tc main_v73) = _ := (agg5 (W10 m c)).trans (by rw [ns10, nd10, s10, d10, l10])
  have r11 : W11 m c (Proc.devRef .tc main_v74) = (shapeCast S1x64 (m ((c : Thread nD τ).loc main_arg13)) Facts₀.shapeCasts_S64_S1x64) :=
    (row5 (W10 m c)).trans (by rw [show W10 m c (Proc.devRef .tc main_arg13) = (m ((c : Thread nD τ).loc main_arg13)) from at10 m c main_arg13 (by decide) (by decide) (by decide) (by decide) (by decide) (by decide) (by decide) (by decide) (by decide) (by decide)])
  have w11 : W11 m c (Proc.devRef .tc main_arg12) = (m ((c : Thread nD τ).loc main_arg12)) :=
    (W11_keep m c main_arg12 (by decide)).trans (at10 m c main_arg12 (by decide) (by decide) (by decide) (by decide) (by decide) (by decide) (by decide) (by decide) (by decide) (by decide))
  refine (W12_arr m c 3).trans ((h5 (B11 m) c).trans ?_)
  rw [show B11 m c main_v73 = _ from a11, show B11 m c main_arg12 = _ from w11, show B11 m c main_v74 = _ from r11]
  rfl

end Chain

end Cert.KernelIdeal.Val

end
-- ==== Proof.LibReshapeRow.lean ====
import Idealize.ShloMosaic.Lib.Pipeline.Value
import Idealize.ShloMosaic.Lib.ValueIdx
import Idealize.ShloMosaic.Lib.ValueLayout

/-!
# A vector as a one-row matrix: reshape and broadcast agree

Two ways of writing a vector `x` of `n` entries as a `1 × n` matrix: reshaping it (same entries in row-major order), and
broadcasting it along axis 1 (entry `(u, i)` reads `x i`). The only row is row `0`, whose row-major position of column
`i` is `0 * n + i = i`, so both arrays have `x i` at `(u, i)`.
-/

namespace Idealize.ShloMosaic

open Idealize.ShloMosaic.ValueIdx

/-- A vector of `n` entries reshaped to a `1 × n` row is the same array as the vector broadcast along axis 1 into a
    `1 × n` row: entry `(u, i)` of either is entry `i` of the vector. -/
theorem shapeCast_row_eq_broadcastInDim {α : Type} {n : Nat} (x : (⟨1, ![n]⟩ : Shape).Idx → α)
    (h₁ : (⟨1, ![n]⟩ : Shape).ShapeCasts ⟨2, ![1, n]⟩)
    (h₂ : (⟨1, ![n]⟩ : Shape).BroadcastsInDim ⟨2, ![1, n]⟩ ![1]) :
    shapeCast ⟨2, ![1, n]⟩ x h₁ = broadcastInDim ⟨2, ![1, n]⟩ ![1] h₂ x := by
  funext j
  obtain ⟨u, i, rfl⟩ : ∃ (u : Fin 1) (i : Fin n), j = ix2 u i := ⟨j 0, j 1, eq_ix2 j⟩
  -- the reshape at (u, i) is x at i
  rw [shapeCast_a_1a_apply x h₁ u i]
  -- the broadcast at (u, i) is x at i: the vector's only axis goes to axis 1
  refine (broadcastInDim_apply ![1] h₂ x (ix2 u i) (ix1 i) ?_).symm
  intro a
  match a with
  | ⟨0, _⟩ =>
    show i.val = if n = 1 then 0 else i.val
    split
    · have := i.isLt; omega
    · rfl

/-- The same at an element type of a float instance: a float vector of `n` entries reshaped to `1 × n` is its
    broadcast along axis 1. -/
theorem shapeCast_row_eq_broadcastInDim_fvec {F : FTy → Type} {φ : FTy} {n : Nat} (x : FVec F ⟨1, ![n]⟩ φ)
    (h₁ : (⟨1, ![n]⟩ : Shape).ShapeCasts ⟨2, ![1, n]⟩)
    (h₂ : (⟨1, ![n]⟩ : Shape).BroadcastsInDim ⟨2, ![1, n]⟩ ![1]) :
    shapeCast ⟨2, ![1, n]⟩ x h₁ = broadcastInDim ⟨2, ![1, n]⟩ ![1] h₂ x :=
  shapeCast_row_eq_broadcastInDim x h₁ h₂

end Idealize.ShloMosaic
-- ==== Proof.Val.Ref.lean ====
/-
  The reference program's result, as one composed term of its sixteen argument arrays, is the model function of those
  arrays.

  The reference computes three projections (a host matrix product plus a bias vector spread over the rows), stacks them,
  and runs three rounds of "aggregate over the edges, then a dense layer": bias and rectifier; product, bias and
  rectifier; product and bias. The model is the same nest with each dense stage written index by index (a rows-by-columns
  sum, one row added to every row, the larger of that and zero) and with the aggregation and the degree norms kept as the
  host operations that compute them.

  The proof goes stage by stage, each stage stated over arbitrary arrays:
  * a host product of an `M × K` by a `K × N` array is, at (r, c), the sum over k of A(r, k) · B(k, c);
  * a vector of `N` entries written as one row and spread over `M` rows reads, at (r, c), the vector's entry c, which is
    what the vector reshaped to a `1 × N` row reads at (0, c); so adding the spread vector is adding that row to every
    row, and the larger of that sum and a spread zero is the rectified sum;
  * the reference's degree norm and its round of aggregation are the model's: the same host operations applied to the
    same operands, the two programs' shape records having equal fields.
  Rewriting the reference's term with these, from the projections outwards, leaves exactly the model's nest.
-/
import proofs.«121421_j52656299049561_1_alg».proof.Proof.Gen.ReferenceIdeal.Run
import proofs.«121421_j52656299049561_1_alg».proof.Proof.Gen.ReferenceIdeal.Read
import proofs.«121421_j52656299049561_1_alg».proof.Proof.Val.Model
import proofs.«121421_j52656299049561_1_alg».proof.Proof.LibMatProd
import proofs.«121421_j52656299049561_1_alg».proof.Proof.LibReshapeRow
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx

/-- A one-row array spread over the rows of an `M × N` array (axis 0 to axis 0, axis 1 to axis 1) reads, at any
    index, the row's entry at that index's column. -/
theorem spreadRow_apply {M N : Nat} {α : Type} (v : (⟨2, ![1, N]⟩ : Shape).Idx → α)
    (h : (⟨2, ![1, N]⟩ : Shape).BroadcastsInDim ⟨2, ![M, N]⟩ ![0, 1]) (j : (⟨2, ![M, N]⟩ : Shape).Idx) :
    broadcastInDim ⟨2, ![M, N]⟩ ![0, 1] h v j = v (ix2 (0 : Fin 1) (j 1)) := by
  refine broadcastInDim_apply ![0, 1] h v j (ix2 (0 : Fin 1) (j 1)) ?_
  intro a
  match a with
  | ⟨0, _⟩ =>
    show (0 : Nat) = if (1 : Nat) = 1 then 0 else (j 0).val
    rw [if_pos rfl]
  | ⟨1, _⟩ =>
    show (j 1).val = if N = 1 then 0 else (j 1).val
    split
    · have := idx2_lt1 j; omega
    · rfl

/-- A vector of `N` entries written as one row by a broadcast along axis 1, then spread over `M` rows, reads at any
    index the vector's entry at the column — the same as the vector reshaped to one row, read at row 0. -/
theorem spreadVec_apply {M N : Nat} (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hs : (⟨1, ![N]⟩ : Shape).ShapeCasts ⟨2, ![1, N]⟩) (j : (⟨2, ![M, N]⟩ : Shape).Idx) :
    broadcastInDim ⟨2, ![M, N]⟩ ![0, 1] h2 (broadcastInDim ⟨2, ![1, N]⟩ ![1] h1 b) j
      = shapeCast ⟨2, ![1, N]⟩ b hs (ix2 (0 : Fin 1) (j 1)) := by
  rw [spreadRow_apply, shapeCast_row_eq_broadcastInDim_fvec b hs h1]

/-- The host's product of an `M × K` by a `K × N` array is the rows-by-columns sum, as arrays. -/
theorem hostDot_eq {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ .f32) (B : FVec Ideal ⟨2, ![K, N]⟩ .f32) :
    Host.dotGeneral (F := Ideal) d none A B = Cert.Spec.rowsByCols A B :=
  funext fun j => Cert.MatProd.hostDot_apply d hr hs hl0 hl1 hr0 hr1 A B j

/-- An array plus a bias vector spread over its rows is the array with that vector, as one row, added to every row. -/
theorem addBias_eq {M N : Nat} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hs : (⟨1, ![N]⟩ : Shape).ShapeCasts ⟨2, ![1, N]⟩) :
    addf X (broadcastInDim ⟨2, ![M, N]⟩ ![0, 1] h2 (broadcastInDim ⟨2, ![1, N]⟩ ![1] h1 b))
      = Cert.Spec.addRow X (shapeCast ⟨2, ![1, N]⟩ b hs) := by
  funext j
  show X j + broadcastInDim ⟨2, ![M, N]⟩ ![0, 1] h2 (broadcastInDim ⟨2, ![1, N]⟩ ![1] h1 b) j
    = X j + shapeCast ⟨2, ![1, N]⟩ b hs (ix2 (0 : Fin 1) (j 1))
  rw [spreadVec_apply b h1 h2 hs j]

/-- The same followed by the larger of the sum and a spread zero: bias, then the rectifier. -/
theorem biasRelu_eq {M N : Nat} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hs : (⟨1, ![N]⟩ : Shape).ShapeCasts ⟨2, ![1, N]⟩) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = Cert.Spec.rowRelu X (shapeCast ⟨2, ![1, N]⟩ b hs) := by
  funext j
  show max (X j + broadcastInDim ⟨2, ![M, N]⟩ ![0, 1] h2 (broadcastInDim ⟨2, ![1, N]⟩ ![1] h1 b) j)
      (Ideal.ofBits .f32 0x00000000#32)
    = max (X j + shapeCast ⟨2, ![1, N]⟩ b hs (ix2 (0 : Fin 1) (j 1))) 0
  rw [spreadVec_apply b h1 h2 hs j, Ideal.ofBits_zero_f32]

section Aggregation

open Cert.ReferenceIdeal Cert.ReferenceIdeal.Facts₀

/-- The degree norm as the reference writes it is the model's degree norm: the same host operations on the same list
    of edge ends (the two programs' shape records have equal fields). -/
theorem norm_eq (idx : IVec S800000 32) :
    Host.powf (F := Ideal)
      (maximumf
        (Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 idx)
          (broadcastInDim S800000 ![] bcast_S_S800000 (constant (F := Ideal) S_ .f32 0x3F800000#32)))
        (broadcastInDim S50000 ![] bcast_S_S50000 (constant (F := Ideal) S_ .f32 0x3F800000#32)))
      (broadcastInDim S50000 ![] bcast_S_S50000 (constant (F := Ideal) S_ .f32 0xBF000000#32))
      = Cert.KernelIdeal.Val.degNorm idx := by
  unfold Cert.KernelIdeal.Val.degNorm
  rfl

/-- One round of aggregation as the reference writes it, on any rows `h` and any norms, is the model's round. -/
theorem agg_eq (ns nd : FVec Ideal S50000 .f32) (src dst : IVec S800000 32) (h : FVec Ideal S50000x128 .f32) :
    mulf
      (Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 dst)
        (Host.gather gather_S50000x128_S800000x1_S800000x128_1_0_n_n_0_1_1128
          (mulf h (broadcastInDim S50000x128 ![0, 1] bcast_S50000x1_S50000x128_0_1 (broadcastInDim S50000x1 ![0] bcast_S50000_S50000x1_0 ns)))
          (broadcastInDim S800000x1 ![0] bcast_S800000_S800000x1_0
            (select (cmpi .slt src (broadcastInDim S800000 ![] bcast_S_S800000 (constantI S_ 32 0#32)))
              (addi src (broadcastInDim S800000 ![] bcast_S_S800000 (constantI S_ 32 50000#32))) src))))
      (broadcastInDim S50000x128 ![0, 1] bcast_S50000x1_S50000x128_0_1 (broadcastInDim S50000x1 ![0] bcast_S50000_S50000x1_0 nd))
      = Cert.KernelIdeal.Val.agg ns nd src dst h := by
  unfold Cert.KernelIdeal.Val.agg
  rfl

end Aggregation

section Assembly

open Cert.ReferenceIdeal Cert.ReferenceIdeal.Facts₀ Idealize.ShloMosaic.TcCoe Idealize.SL.Sem

/-- the reference's result term is the model of its argument arrays (bias vectors laid out as rows) -/
theorem ref_is_model (m : (ℓ : Loc nD τ sig) → Buf (Elt Ideal) ℓ) (c : Dev nD) :
    Cert.ReferenceIdeal.Value.res_main_v88 (F := Ideal) m c =
      Cert.KernelIdeal.Val.model (m ((c.tc : Thread nD τ).loc main_arg0)) (m ((c.tc : Thread nD τ).loc main_arg1)) (m ((c.tc : Thread nD τ).loc main_arg2))
        (m ((c.tc : Thread nD τ).loc main_arg3)) (shapeCast Cert.KernelIdeal.S1x128 (m ((c.tc : Thread nD τ).loc main_arg4)) Cert.KernelIdeal.Facts₀.shapeCasts_S128_S1x128)
        (m ((c.tc : Thread nD τ).loc main_arg5)) (shapeCast Cert.KernelIdeal.S1x128 (m ((c.tc : Thread nD τ).loc main_arg6)) Cert.KernelIdeal.Facts₀.shapeCasts_S128_S1x128)
        (m ((c.tc : Thread nD τ).loc main_arg7)) (shapeCast Cert.KernelIdeal.S1x128 (m ((c.tc : Thread nD τ).loc main_arg8)) Cert.KernelIdeal.Facts₀.shapeCasts_S128_S1x128)
        (shapeCast Cert.KernelIdeal.S1x128 (m ((c.tc : Thread nD τ).loc main_arg9)) Cert.KernelIdeal.Facts₀.shapeCasts_S128_S1x128)
        (m ((c.tc : Thread nD τ).loc main_arg10)) (shapeCast Cert.KernelIdeal.S1x128 (m ((c.tc : Thread nD τ).loc main_arg11)) Cert.KernelIdeal.Facts₀.shapeCasts_S128_S1x128)
        (m ((c.tc : Thread nD τ).loc main_arg12)) (shapeCast Cert.KernelIdeal.S1x64 (m ((c.tc : Thread nD τ).loc main_arg13)) Cert.KernelIdeal.Facts₀.shapeCasts_S64_S1x64)
        (m ((c.tc : Thread nD τ).loc main_arg14)) (m ((c.tc : Thread nD τ).loc main_arg15)) := by
  unfold Cert.ReferenceIdeal.Value.res_main_v88
  -- the three projections: each host product is the rows-by-columns sum, each bias a row added to every row
  rw [hostDot_eq dot_S20000x512_S512x128_S20000x128_1_0_0_1_n_n rfl rfl Read.lhs_main_v0_0 Read.lhs_main_v0_1 Read.rhs_main_v0_0 Read.rhs_main_v0_1,
    hostDot_eq dot_S15000x256_S256x128_S15000x128_1_0_0_1_n_n rfl rfl Read.lhs_main_v4_0 Read.lhs_main_v4_1 Read.rhs_main_v4_0 Read.rhs_main_v4_1,
    hostDot_eq dot_S15000x128_S128x128_S15000x128_1_0_0_1_n_n rfl rfl Read.lhs_main_v8_0 Read.lhs_main_v8_1 Read.rhs_main_v8_0 Read.rhs_main_v8_1]
  rw [addBias_eq _ _ bcast_S128_S1x128_1 bcast_S1x128_S20000x128_0_1 Cert.KernelIdeal.Facts₀.shapeCasts_S128_S1x128,
    addBias_eq _ _ bcast_S128_S1x128_1 bcast_S1x128_S15000x128_0_1 Cert.KernelIdeal.Facts₀.shapeCasts_S128_S1x128,
    addBias_eq _ _ bcast_S128_S1x128_1 bcast_S1x128_S15000x128_0_1 Cert.KernelIdeal.Facts₀.shapeCasts_S128_S1x128]
  -- the two degree norms, wherever they occur
  rw [norm_eq (m ((c.tc : Thread nD τ).loc main_arg14)), norm_eq (m ((c.tc : Thread nD τ).loc main_arg15))]
  -- the three rounds of aggregation
  rw [agg_eq, agg_eq, agg_eq]
  -- the two rectifier layers and the last layer
  rw [biasRelu_eq _ _ bcast_S128_S1x128_1 bcast_S1x128_S50000x128_0_1 bcast_S_S50000x128 Cert.KernelIdeal.Facts₀.shapeCasts_S128_S1x128,
    biasRelu_eq _ _ bcast_S128_S1x128_1 bcast_S1x128_S50000x128_0_1 bcast_S_S50000x128 Cert.KernelIdeal.Facts₀.shapeCasts_S128_S1x128]
  rw [hostDot_eq dot_S50000x128_S128x128_S50000x128_1_0_0_1_n_n rfl rfl Read.lhs_main_v64_0 Read.lhs_main_v64_1 Read.rhs_main_v64_0 Read.rhs_main_v64_1,
    hostDot_eq dot_S50000x128_S128x64_S50000x64_1_0_0_1_n_n rfl rfl Read.lhs_main_v85_0 Read.lhs_main_v85_1 Read.rhs_main_v85_0 Read.rhs_main_v85_1]
  rw [addBias_eq _ _ bcast_S64_S1x64_1 bcast_S1x64_S50000x64_0_1 Cert.KernelIdeal.Facts₀.shapeCasts_S64_S1x64]
  -- what is left is the model's own nest, with the stack written out
  unfold Cert.KernelIdeal.Val.model Cert.KernelIdeal.Val.stacked
  rfl

end Assembly

end Cert.ReferenceIdeal.RefValue

end
-- ==== Proof.LibRowBias.lean ====
/-
  One row added to every row of an array: a [1, b] block broadcast over a rows reads, at (p, c), the block's one row at c.
-/
import Idealize.ShloMosaic.Lib.ValueIdx
import Idealize.ShloMosaic.Lib.ValueLayout
import Idealize.ShloMosaic.Lib.Pipeline.Value

noncomputable section

namespace Cert.RowBias

open Idealize.ShloMosaic Idealize.ShloMosaic.ValueIdx

/-- A `[1, b]` array broadcast to `[a, b]`, read at any index `y`: the one row at `y`'s column. -/
theorem bcastRow_apply {a b : ℕ} {α : Type} (v : (⟨2, ![1, b]⟩ : Shape).Idx → α)
    (h : (⟨2, ![1, b]⟩ : Shape).Broadcasts ⟨2, ![a, b]⟩) (y : (⟨2, ![a, b]⟩ : Shape).Idx) :
    broadcastTo ⟨2, ![a, b]⟩ v h y = v (ix2 (0 : Fin 1) (y 1)) := by
  obtain ⟨p, q, rfl⟩ : ∃ (p : Fin a) (q : Fin b), y = ix2 p q := ⟨y 0, y 1, eq_ix2 y⟩
  exact broadcastTo_1b_ab_apply v h p q

/-- A vector of `b` entries reshaped to one row, read at `(0, c)`: the entry `c`. -/
theorem rowOf_apply {b : ℕ} {α : Type} (x : (⟨1, ![b]⟩ : Shape).Idx → α) (h : (⟨1, ![b]⟩ : Shape).ShapeCasts ⟨2, ![1, b]⟩)
    (c : Fin b) : shapeCast ⟨2, ![1, b]⟩ x h (ix2 (0 : Fin 1) c) = x (ix1 c) :=
  shapeCast_a_1a_apply x h 0 c

end Cert.RowBias

end
-- ==== Proof.Val.Out0.lean ====
/-
  Region 0 (the first feature projection): the array its pipeline leaves. The grid has 10 points; point t takes rows
  2000 t … 2000 t + 1999 of the 20000 × 512 feature array, the whole 512 × 128 weight matrix and the 1 × 128 bias row,
  and writes back the 2000 × 128 tile whose entry (p, q) is the sum over k of feature (2000 t + p, k) · weight (k, q),
  plus bias (0, q). That is block t of one function of the three arrays, the product with the bias row added to every
  row; the ten tiles cover the 20000 rows, so the output array ends holding that function.
-/
import proofs.«121421_j52656299049561_1_alg».proof.Proof.KI.Reg0
import proofs.«121421_j52656299049561_1_alg».proof.Proof.LibMatProd
import proofs.«121421_j52656299049561_1_alg».proof.Proof.LibRowBias
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Cert.KernelIdeal.Rg Cert.KernelIdeal.Facts₀
open Idealize.ShloMosaic Idealize.ShloMosaic.TcCoe Idealize.ShloMosaic.ValueIdx Idealize.SL.Sem

variable (V : (c : Dev nD) → (b : Ref sig .tc) → Buf (Elt Ideal) ((c : Thread nD τ).loc b))

namespace Proj0

/-- The store rectangle's offsets, however the zeros are spelt. -/
theorem noOffset : (![0, 0] : Fin 2 → Nat) = fun _ => 0 := funext fun a => by fin_cases a <;> rfl

/-- The body's arithmetic at an index: row y 0 of the tile against column y 1 of the weights, plus the bias row's entry. -/
theorem projTile_apply (x0 : Vec Ideal S2000x512 .f32) (x1 : Vec Ideal S512x128 .f32) (x2 : Vec Ideal S1x128 .f32)
    (y : S2000x128.Idx) :
    k0_pay1 x0 x1 x2 y = Cert.Spec.rowsByCols x0 x1 y + x2 (ix2 (0 : Fin 1) (y 1)) := by
  unfold k0_pay1
  rw [addf_apply, shapeCast_self, Cert.RowBias.bcastRow_apply]
  rw [Cert.MatProd.tileDot_apply dot_S2000x512_S512x128_S2000x128_1_0_0_1_n_n rfl rfl
    (fun _ _ => rfl) (fun j k => dot_S2000x512_S512x128_S2000x128_1_0_0_1_n_n.lhsIdx_val_of_single rfl j k)
    (fun j k => dot_S2000x512_S512x128_S2000x128_1_0_0_1_n_n.rhsIdx_val_of_single rfl j k) (fun _ _ => rfl)]

/-- One entry of an output tile. When tile row p of the row tile is row r of the feature array, the weight block is the
    weight matrix and the bias block is the bias row, the body's value at (p, q) is the product plus bias at (r, q). -/
theorem projTile_of_blocks (A : S20000x512.Idx → EReal) (W : S512x128.Idx → EReal) (b : S1x128.Idx → EReal)
    (x0 : Vec Ideal S2000x512 .f32) (x1 : Vec Ideal S512x128 .f32) (x2 : Vec Ideal S1x128 .f32)
    (p : Fin 2000) (q : Fin 128) (r : Fin 20000)
    (h0 : ∀ k : Fin 512, x0 (ix2 p k) = A (ix2 r k))
    (h1 : ∀ k : Fin 512, x1 (ix2 k q) = W (ix2 k q))
    (h2 : x2 (ix2 (0 : Fin 1) q) = b (ix2 (0 : Fin 1) q)) :
    k0_pay1 x0 x1 x2 (ix2 p q) = Cert.Spec.addRow (Cert.Spec.rowsByCols A W) b (ix2 r q) := by
  rw [projTile_apply]
  show (∑ k : Fin 512, x0 (ix2 p k) * x1 (ix2 k q)) + x2 (ix2 (0 : Fin 1) q)
    = (∑ k : Fin 512, A (ix2 r k) * W (ix2 k q)) + b (ix2 (0 : Fin 1) q)
  rw [h2]
  congr 1
  exact Finset.sum_congr rfl fun k _ => by rw [h0, h1]

/-- The printed index maps over the grid: the row tile and the output tile sit at block row t, the weights and the
    bias row at block (0, 0), whatever the point. -/
theorem blockIndices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the product plus bias of the arrays the region is entered from. -/
theorem flushedTile (c : Dev nD) (t : Fin cfg0.N) :
    (dat0 V c).flushed 3 t = ((cfg0.win 3).blk t).view.read (Elt Ideal)
      (Cert.Spec.addRow (Cert.Spec.rowsByCols (V c main_arg0) (V c main_arg3)) (V c main_v0)) := by
  show (cfg0.win 3).cut (grid0.coords t) ((dat0 V c).after 3 t) = _
  rw [dat0_after3]
  unfold out0
  rw [View.canon_unit_zero noOffset]
  simp only [View.ld_unit_zero (S := S2000x512) noOffset, View.ld_unit_zero (S := S512x128) noOffset, View.ld_unit_zero (S := S1x128) noOffset]
  obtain ⟨e00, e01, e10, e11, e20, e21, e30, e31⟩ := blockIndices t
  have ht : t.val < 10 := lt_of_lt_of_eq t.isLt N_0
  funext y
  obtain ⟨p, q, rfl⟩ : ∃ (p : Fin 2000) (q : Fin 128), y = ix2 p q := ⟨y 0, y 1, eq_ix2 y⟩
  have hp : p.val < 2000 := p.isLt
  -- the output block's entry (p, q) is the array's entry (2000 t + p, q)
  have hout : ((cfg0.win 3).blk t).view.emb (ix2 p q) = (ix2 (⟨t.val * 2000 + p.val, by omega⟩ : Fin 20000) q : S20000x128.Idx) := by
    funext a; apply Fin.ext
    match a with
    | ⟨0, _⟩ => show win0_3.index t (0 : Fin 2) * 2000 + 1 * p.val = t.val * 2000 + p.val; rw [e30]; omega
    | ⟨1, _⟩ => show win0_3.index t (1 : Fin 2) * 128 + 1 * q.val = q.val; rw [e31]; omega
  show k0_pay1 (blk0 V c 0 t) (blk0 V c 1 t) (blk0 V c 2 t) (ix2 p q)
    = Cert.Spec.addRow (Cert.Spec.rowsByCols (V c main_arg0) (V c main_arg3)) (V c main_v0) (((cfg0.win 3).blk t).view.emb (ix2 p q))
  rw [hout]
  refine projTile_of_blocks (V c main_arg0) (V c main_arg3) (V c main_v0) _ _ _ p q _ (fun k => ?_) (fun k => ?_) ?_
  · -- the row tile's row p is the feature array's row 2000 t + p
    show V c main_arg0 (((cfg0.win 0).blk t).view.emb (ix2 p k)) = V c main_arg0 (ix2 (⟨t.val * 2000 + p.val, by omega⟩ : Fin 20000) k)
    refine congrArg _ ?_
    funext a; apply Fin.ext
    match a with
    | ⟨0, _⟩ => show win0_0.index t (0 : Fin 2) * 2000 + 1 * p.val = t.val * 2000 + p.val; rw [e00]; omega
    | ⟨1, _⟩ => show win0_0.index t (1 : Fin 2) * 512 + 1 * k.val = k.val; rw [e01]; omega
  · -- the weight block is the weight matrix
    show V c main_arg3 (((cfg0.win 1).blk t).view.emb (ix2 k q)) = V c main_arg3 (ix2 k q)
    refine congrArg _ ?_
    funext a; apply Fin.ext
    match a with
    | ⟨0, _⟩ => show win0_1.index t (0 : Fin 2) * 512 + 1 * k.val = k.val; rw [e10]; omega
    | ⟨1, _⟩ => show win0_1.index t (1 : Fin 2) * 128 + 1 * q.val = q.val; rw [e11]; omega
  · -- the bias block is the bias row
    show V c main_v0 (((cfg0.win 2).blk t).view.emb (ix2 (0 : Fin 1) q)) = V c main_v0 (ix2 (0 : Fin 1) q)
    refine congrArg _ ?_
    funext a; apply Fin.ext
    match a with
    | ⟨0, _⟩ => show win0_2.index t (0 : Fin 2) * 1 + 1 * (0 : Fin 1).val = (0 : Fin 1).val; rw [e20]; rfl
    | ⟨1, _⟩ => show win0_2.index t (1 : Fin 2) * 128 + 1 * q.val = q.val; rw [e21]; omega

/-- An index of the output array is in point t's tile iff each coordinate is in the tile's range on its axis. -/
theorem mem_outTile (t : Fin cfg0.N) (i : S20000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v1).slice (win0_3.rect t)).set ↔ _
  rw [View.set_slice_whole, Rect.mem_set_unit]
  exact Iff.rfl

/-- Every row r of the output lies in the tile written back at point r / 2000. -/
theorem outTiles_cover (i : S20000x128.Idx) :
    ∃ t : Fin cfg0.N, (cfg0.win 3).flush t = true ∧ i ∈ ((cfg0.win 3).blk t).view.set := by
  have hi0 : (i 0).val < 20000 := (i 0).isLt
  have hi1 : (i 1).val < 128 := (i 1).isLt
  obtain ⟨t, ht⟩ : ∃ t : Fin cfg0.N, t.val = (i 0).val / 2000 :=
    ⟨⟨(i 0).val / 2000, lt_of_lt_of_eq (show (i 0).val / 2000 < 10 by omega) N_0.symm⟩, rfl⟩
  obtain ⟨-, -, -, -, -, -, e30, e31⟩ := blockIndices t
  refine ⟨t, flush0_3 t, ?_⟩
  rw [mem_outTile]
  intro a
  match a with
  | ⟨0, _⟩ => show win0_3.index t (0 : Fin 2) * 2000 ≤ (i 0).val ∧ (i 0).val < win0_3.index t (0 : Fin 2) * 2000 + 2000; rw [e30, ht]; omega
  | ⟨1, _⟩ => show win0_3.index t (1 : Fin 2) * 128 ≤ (i 1).val ∧ (i 1).val < win0_3.index t (1 : Fin 2) * 128 + 128; rw [e31]; omega

end Proj0

/-- The region's output array after its pipeline has run: the feature array times the weight matrix, plus the bias row on every row. -/
theorem out0 (c : Dev nD) :
    (dat0 V c).arrAt 3 cfg0.N = Cert.Spec.addRow (Cert.Spec.rowsByCols (V c main_arg0) (V c main_arg3)) (V c main_v0) :=
  (dat0 V c).arrAt_eq_of_cover 3 _ (fun t _ => Proj0.flushedTile V c t) Proj0.outTiles_cover

end Cert.KernelIdeal.Val

end
-- ==== Proof.Val.Out1.lean ====
/-
  Region 1 (the second feature projection): the array its pipeline leaves. The grid has 15 points; point t takes rows
  1000 t … 1000 t + 999 of the 15000 × 256 feature array, the whole 256 × 128 weight matrix and the 1 × 128 bias row,
  and writes back the 1000 × 128 tile whose entry (p, q) is the sum over k of feature (1000 t + p, k) · weight (k, q),
  plus bias (0, q). That is block t of one function of the three arrays, the product with the bias row added to every
  row; the fifteen tiles cover the 15000 rows, so the output array ends holding that function.
-/
import proofs.«121421_j52656299049561_1_alg».proof.Proof.KI.Reg1
import proofs.«121421_j52656299049561_1_alg».proof.Proof.LibMatProd
import proofs.«121421_j52656299049561_1_alg».proof.Proof.LibRowBias
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Cert.KernelIdeal.Rg Cert.KernelIdeal.Facts₀
open Idealize.ShloMosaic Idealize.ShloMosaic.TcCoe Idealize.ShloMosaic.ValueIdx Idealize.SL.Sem

variable (V : (c : Dev nD) → (b : Ref sig .tc) → Buf (Elt Ideal) ((c : Thread nD τ).loc b))

namespace Proj1

/-- The store rectangle's offsets, however the zeros are spelt. -/
theorem noOffset : (![0, 0] : Fin 2 → Nat) = fun _ => 0 := funext fun a => by fin_cases a <;> rfl

/-- The body's arithmetic at an index: row y 0 of the tile against column y 1 of the weights, plus the bias row's entry. -/
theorem projTile_apply (x0 : Vec Ideal S1000x256 .f32) (x1 : Vec Ideal S256x128 .f32) (x2 : Vec Ideal S1x128 .f32)
    (y : S1000x128.Idx) :
    k1_pay1 x0 x1 x2 y = Cert.Spec.rowsByCols x0 x1 y + x2 (ix2 (0 : Fin 1) (y 1)) := by
  unfold k1_pay1
  rw [addf_apply, shapeCast_self, Cert.RowBias.bcastRow_apply]
  rw [Cert.MatProd.tileDot_apply dot_S1000x256_S256x128_S1000x128_1_0_0_1_n_n rfl rfl
    (fun _ _ => rfl) (fun j k => dot_S1000x256_S256x128_S1000x128_1_0_0_1_n_n.lhsIdx_val_of_single rfl j k)
    (fun j k => dot_S1000x256_S256x128_S1000x128_1_0_0_1_n_n.rhsIdx_val_of_single rfl j k) (fun _ _ => rfl)]

/-- One entry of an output tile. When tile row p of the row tile is row r of the feature array, the weight block is the
    weight matrix and the bias block is the bias row, the body's value at (p, q) is the product plus bias at (r, q). -/
theorem projTile_of_blocks (A : S15000x256.Idx → EReal) (W : S256x128.Idx → EReal) (b : S1x128.Idx → EReal)
    (x0 : Vec Ideal S1000x256 .f32) (x1 : Vec Ideal S256x128 .f32) (x2 : Vec Ideal S1x128 .f32)
    (p : Fin 1000) (q : Fin 128) (r : Fin 15000)
    (h0 : ∀ k : Fin 256, x0 (ix2 p k) = A (ix2 r k))
    (h1 : ∀ k : Fin 256, x1 (ix2 k q) = W (ix2 k q))
    (h2 : x2 (ix2 (0 : Fin 1) q) = b (ix2 (0 : Fin 1) q)) :
    k1_pay1 x0 x1 x2 (ix2 p q) = Cert.Spec.addRow (Cert.Spec.rowsByCols A W) b (ix2 r q) := by
  rw [projTile_apply]
  show (∑ k : Fin 256, x0 (ix2 p k) * x1 (ix2 k q)) + x2 (ix2 (0 : Fin 1) q)
    = (∑ k : Fin 256, A (ix2 r k) * W (ix2 k q)) + b (ix2 (0 : Fin 1) q)
  rw [h2]
  congr 1
  exact Finset.sum_congr rfl fun k _ => by rw [h0, h1]

/-- The printed index maps over the grid: the row tile and the output tile sit at block row t, the weights and the
    bias row at block (0, 0), whatever the point. -/
theorem blockIndices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the product plus bias of the arrays the region is entered from. -/
theorem flushedTile (c : Dev nD) (t : Fin cfg1.N) :
    (dat1 V c).flushed 3 t = ((cfg1.win 3).blk t).view.read (Elt Ideal)
      (Cert.Spec.addRow (Cert.Spec.rowsByCols (V c main_arg1) (V c main_arg5)) (V c main_v2)) := by
  show (cfg1.win 3).cut (grid1.coords t) ((dat1 V c).after 3 t) = _
  rw [dat1_after3]
  unfold out1
  rw [View.canon_unit_zero noOffset]
  simp only [View.ld_unit_zero (S := S1000x256) noOffset, View.ld_unit_zero (S := S256x128) noOffset, View.ld_unit_zero (S := S1x128) noOffset]
  obtain ⟨e00, e01, e10, e11, e20, e21, e30, e31⟩ := blockIndices t
  have ht : t.val < 15 := lt_of_lt_of_eq t.isLt N_1
  funext y
  obtain ⟨p, q, rfl⟩ : ∃ (p : Fin 1000) (q : Fin 128), y = ix2 p q := ⟨y 0, y 1, eq_ix2 y⟩
  have hp : p.val < 1000 := p.isLt
  -- the output block's entry (p, q) is the array's entry (1000 t + p, q)
  have hout : ((cfg1.win 3).blk t).view.emb (ix2 p q) = (ix2 (⟨t.val * 1000 + p.val, by omega⟩ : Fin 15000) q : S15000x128.Idx) := by
    funext a; apply Fin.ext
    match a with
    | ⟨0, _⟩ => show win1_3.index t (0 : Fin 2) * 1000 + 1 * p.val = t.val * 1000 + p.val; rw [e30]; omega
    | ⟨1, _⟩ => show win1_3.index t (1 : Fin 2) * 128 + 1 * q.val = q.val; rw [e31]; omega
  show k1_pay1 (blk1 V c 0 t) (blk1 V c 1 t) (blk1 V c 2 t) (ix2 p q)
    = Cert.Spec.addRow (Cert.Spec.rowsByCols (V c main_arg1) (V c main_arg5)) (V c main_v2) (((cfg1.win 3).blk t).view.emb (ix2 p q))
  rw [hout]
  refine projTile_of_blocks (V c main_arg1) (V c main_arg5) (V c main_v2) _ _ _ p q _ (fun k => ?_) (fun k => ?_) ?_
  · -- the row tile's row p is the feature array's row 1000 t + p
    show V c main_arg1 (((cfg1.win 0).blk t).view.emb (ix2 p k)) = V c main_arg1 (ix2 (⟨t.val * 1000 + p.val, by omega⟩ : Fin 15000) k)
    refine congrArg _ ?_
    funext a; apply Fin.ext
    match a with
    | ⟨0, _⟩ => show win1_0.index t (0 : Fin 2) * 1000 + 1 * p.val = t.val * 1000 + p.val; rw [e00]; omega
    | ⟨1, _⟩ => show win1_0.index t (1 : Fin 2) * 256 + 1 * k.val = k.val; rw [e01]; omega
  · -- the weight block is the weight matrix
    show V c main_arg5 (((cfg1.win 1).blk t).view.emb (ix2 k q)) = V c main_arg5 (ix2 k q)
    refine congrArg _ ?_
    funext a; apply Fin.ext
    match a with
    | ⟨0, _⟩ => show win1_1.index t (0 : Fin 2) * 256 + 1 * k.val = k.val; rw [e10]; omega
    | ⟨1, _⟩ => show win1_1.index t (1 : Fin 2) * 128 + 1 * q.val = q.val; rw [e11]; omega
  · -- the bias block is the bias row
    show V c main_v2 (((cfg1.win 2).blk t).view.emb (ix2 (0 : Fin 1) q)) = V c main_v2 (ix2 (0 : Fin 1) q)
    refine congrArg _ ?_
    funext a; apply Fin.ext
    match a with
    | ⟨0, _⟩ => show win1_2.index t (0 : Fin 2) * 1 + 1 * (0 : Fin 1).val = (0 : Fin 1).val; rw [e20]; rfl
    | ⟨1, _⟩ => show win1_2.index t (1 : Fin 2) * 128 + 1 * q.val = q.val; rw [e21]; omega

/-- An index of the output array is in point t's tile iff each coordinate is in the tile's range on its axis. -/
theorem mem_outTile (t : Fin cfg1.N) (i : S15000x128.Idx) :
    i ∈ ((cfg1.win 3).blk t).view.set ↔ ∀ a : Fin 2, win1_3.index t a * S1000x128.size a ≤ (i a).val ∧ (i a).val < win1_3.index t a * S1000x128.size a + S1000x128.size a := by
  show i ∈ ((View.whole main_v3).slice (win1_3.rect t)).set ↔ _
  rw [View.set_slice_whole, Rect.mem_set_unit]
  exact Iff.rfl

/-- Every row r of the output lies in the tile written back at point r / 1000. -/
theorem outTiles_cover (i : S15000x128.Idx) :
    ∃ t : Fin cfg1.N, (cfg1.win 3).flush t = true ∧ i ∈ ((cfg1.win 3).blk t).view.set := by
  have hi0 : (i 0).val < 15000 := (i 0).isLt
  have hi1 : (i 1).val < 128 := (i 1).isLt
  obtain ⟨t, ht⟩ : ∃ t : Fin cfg1.N, t.val = (i 0).val / 1000 :=
    ⟨⟨(i 0).val / 1000, lt_of_lt_of_eq (show (i 0).val / 1000 < 15 by omega) N_1.symm⟩, rfl⟩
  obtain ⟨-, -, -, -, -, -, e30, e31⟩ := blockIndices t
  refine ⟨t, flush1_3 t, ?_⟩
  rw [mem_outTile]
  intro a
  match a with
  | ⟨0, _⟩ => show win1_3.index t (0 : Fin 2) * 1000 ≤ (i 0).val ∧ (i 0).val < win1_3.index t (0 : Fin 2) * 1000 + 1000; rw [e30, ht]; omega
  | ⟨1, _⟩ => show win1_3.index t (1 : Fin 2) * 128 ≤ (i 1).val ∧ (i 1).val < win1_3.index t (1 : Fin 2) * 128 + 128; rw [e31]; omega

end Proj1

/-- The region's output array after its pipeline has run: the feature array times the weight matrix, plus the bias row on every row. -/
theorem out1 (c : Dev nD) :
    (dat1 V c).arrAt 3 cfg1.N = Cert.Spec.addRow (Cert.Spec.rowsByCols (V c main_arg1) (V c main_arg5)) (V c main_v2) :=
  (dat1 V c).arrAt_eq_of_cover 3 _ (fun t _ => Proj1.flushedTile V c t) Proj1.outTiles_cover

end Cert.KernelIdeal.Val

end
-- ==== Proof.Val.Out2.lean ====
/-
  Region 2 (the third feature projection): the array its pipeline leaves. The grid has 15 points; point t takes rows
  1000 t … 1000 t + 999 of the 15000 × 128 feature array, the whole 128 × 128 weight matrix and the 1 × 128 bias row,
  and writes back the 1000 × 128 tile whose entry (p, q) is the sum over k of feature (1000 t + p, k) · weight (k, q),
  plus bias (0, q). That is block t of one function of the three arrays, the product with the bias row added to every
  row; the fifteen tiles cover the 15000 rows, so the output array ends holding that function.
-/
import proofs.«121421_j52656299049561_1_alg».proof.Proof.KI.Reg2
import proofs.«121421_j52656299049561_1_alg».proof.Proof.LibMatProd
import proofs.«121421_j52656299049561_1_alg».proof.Proof.LibRowBias
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Cert.KernelIdeal.Rg Cert.KernelIdeal.Facts₀
open Idealize.ShloMosaic Idealize.ShloMosaic.TcCoe Idealize.ShloMosaic.ValueIdx Idealize.SL.Sem

variable (V : (c : Dev nD) → (b : Ref sig .tc) → Buf (Elt Ideal) ((c : Thread nD τ).loc b))

namespace Proj2

/-- The store rectangle's offsets, however the zeros are spelt. -/
theorem noOffset : (![0, 0] : Fin 2 → Nat) = fun _ => 0 := funext fun a => by fin_cases a <;> rfl

/-- The body's arithmetic at an index: row y 0 of the tile against column y 1 of the weights, plus the bias row's entry. -/
theorem projTile_apply (x0 : Vec Ideal S1000x128 .f32) (x1 : Vec Ideal S128x128 .f32) (x2 : Vec Ideal S1x128 .f32)
    (y : S1000x128.Idx) :
    k2_pay1 x0 x1 x2 y = Cert.Spec.rowsByCols x0 x1 y + x2 (ix2 (0 : Fin 1) (y 1)) := by
  unfold k2_pay1
  rw [addf_apply, shapeCast_self, Cert.RowBias.bcastRow_apply]
  rw [Cert.MatProd.tileDot_apply dot_S1000x128_S128x128_S1000x128_1_0_0_1_n_n rfl rfl
    (fun _ _ => rfl) (fun j k => dot_S1000x128_S128x128_S1000x128_1_0_0_1_n_n.lhsIdx_val_of_single rfl j k)
    (fun j k => dot_S1000x128_S128x128_S1000x128_1_0_0_1_n_n.rhsIdx_val_of_single rfl j k) (fun _ _ => rfl)]

/-- One entry of an output tile. When tile row p of the row tile is row r of the feature array, the weight block is the
    weight matrix and the bias block is the bias row, the body's value at (p, q) is the product plus bias at (r, q). -/
theorem projTile_of_blocks (A : S15000x128.Idx → EReal) (W : S128x128.Idx → EReal) (b : S1x128.Idx → EReal)
    (x0 : Vec Ideal S1000x128 .f32) (x1 : Vec Ideal S128x128 .f32) (x2 : Vec Ideal S1x128 .f32)
    (p : Fin 1000) (q : Fin 128) (r : Fin 15000)
    (h0 : ∀ k : Fin 128, x0 (ix2 p k) = A (ix2 r k))
    (h1 : ∀ k : Fin 128, x1 (ix2 k q) = W (ix2 k q))
    (h2 : x2 (ix2 (0 : Fin 1) q) = b (ix2 (0 : Fin 1) q)) :
    k2_pay1 x0 x1 x2 (ix2 p q) = Cert.Spec.addRow (Cert.Spec.rowsByCols A W) b (ix2 r q) := by
  rw [projTile_apply]
  show (∑ k : Fin 128, x0 (ix2 p k) * x1 (ix2 k q)) + x2 (ix2 (0 : Fin 1) q)
    = (∑ k : Fin 128, A (ix2 r k) * W (ix2 k q)) + b (ix2 (0 : Fin 1) q)
  rw [h2]
  congr 1
  exact Finset.sum_congr rfl fun k _ => by rw [h0, h1]

/-- The printed index maps over the grid: the row tile and the output tile sit at block row t, the weights and the
    bias row at block (0, 0), whatever the point. -/
theorem blockIndices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the product plus bias of the arrays the region is entered from. -/
theorem flushedTile (c : Dev nD) (t : Fin cfg2.N) :
    (dat2 V c).flushed 3 t = ((cfg2.win 3).blk t).view.read (Elt Ideal)
      (Cert.Spec.addRow (Cert.Spec.rowsByCols (V c main_arg2) (V c main_arg7)) (V c main_v4)) := by
  show (cfg2.win 3).cut (grid2.coords t) ((dat2 V c).after 3 t) = _
  rw [dat2_after3]
  unfold out2
  rw [View.canon_unit_zero noOffset]
  simp only [View.ld_unit_zero (S := S1000x128) noOffset, View.ld_unit_zero (S := S128x128) noOffset, View.ld_unit_zero (S := S1x128) noOffset]
  obtain ⟨e00, e01, e10, e11, e20, e21, e30, e31⟩ := blockIndices t
  have ht : t.val < 15 := lt_of_lt_of_eq t.isLt N_2
  funext y
  obtain ⟨p, q, rfl⟩ : ∃ (p : Fin 1000) (q : Fin 128), y = ix2 p q := ⟨y 0, y 1, eq_ix2 y⟩
  have hp : p.val < 1000 := p.isLt
  -- the output block's entry (p, q) is the array's entry (1000 t + p, q)
  have hout : ((cfg2.win 3).blk t).view.emb (ix2 p q) = (ix2 (⟨t.val * 1000 + p.val, by omega⟩ : Fin 15000) q : S15000x128.Idx) := by
    funext a; apply Fin.ext
    match a with
    | ⟨0, _⟩ => show win2_3.index t (0 : Fin 2) * 1000 + 1 * p.val = t.val * 1000 + p.val; rw [e30]; omega
    | ⟨1, _⟩ => show win2_3.index t (1 : Fin 2) * 128 + 1 * q.val = q.val; rw [e31]; omega
  show k2_pay1 (blk2 V c 0 t) (blk2 V c 1 t) (blk2 V c 2 t) (ix2 p q)
    = Cert.Spec.addRow (Cert.Spec.rowsByCols (V c main_arg2) (V c main_arg7)) (V c main_v4) (((cfg2.win 3).blk t).view.emb (ix2 p q))
  rw [hout]
  refine projTile_of_blocks (V c main_arg2) (V c main_arg7) (V c main_v4) _ _ _ p q _ (fun k => ?_) (fun k => ?_) ?_
  · -- the row tile's row p is the feature array's row 1000 t + p
    show V c main_arg2 (((cfg2.win 0).blk t).view.emb (ix2 p k)) = V c main_arg2 (ix2 (⟨t.val * 1000 + p.val, by omega⟩ : Fin 15000) k)
    refine congrArg _ ?_
    funext a; apply Fin.ext
    match a with
    | ⟨0, _⟩ => show win2_0.index t (0 : Fin 2) * 1000 + 1 * p.val = t.val * 1000 + p.val; rw [e00]; omega
    | ⟨1, _⟩ => show win2_0.index t (1 : Fin 2) * 128 + 1 * k.val = k.val; rw [e01]; omega
  · -- the weight block is the weight matrix
    show V c main_arg7 (((cfg2.win 1).blk t).view.emb (ix2 k q)) = V c main_arg7 (ix2 k q)
    refine congrArg _ ?_
    funext a; apply Fin.ext
    match a with
    | ⟨0, _⟩ => show win2_1.index t (0 : Fin 2) * 128 + 1 * k.val = k.val; rw [e10]; omega
    | ⟨1, _⟩ => show win2_1.index t (1 : Fin 2) * 128 + 1 * q.val = q.val; rw [e11]; omega
  · -- the bias block is the bias row
    show V c main_v4 (((cfg2.win 2).blk t).view.emb (ix2 (0 : Fin 1) q)) = V c main_v4 (ix2 (0 : Fin 1) q)
    refine congrArg _ ?_
    funext a; apply Fin.ext
    match a with
    | ⟨0, _⟩ => show win2_2.index t (0 : Fin 2) * 1 + 1 * (0 : Fin 1).val = (0 : Fin 1).val; rw [e20]; rfl
    | ⟨1, _⟩ => show win2_2.index t (1 : Fin 2) * 128 + 1 * q.val = q.val; rw [e21]; omega

/-- An index of the output array is in point t's tile iff each coordinate is in the tile's range on its axis. -/
theorem mem_outTile (t : Fin cfg2.N) (i : S15000x128.Idx) :
    i ∈ ((cfg2.win 3).blk t).view.set ↔ ∀ a : Fin 2, win2_3.index t a * S1000x128.size a ≤ (i a).val ∧ (i a).val < win2_3.index t a * S1000x128.size a + S1000x128.size a := by
  show i ∈ ((View.whole main_v5).slice (win2_3.rect t)).set ↔ _
  rw [View.set_slice_whole, Rect.mem_set_unit]
  exact Iff.rfl

/-- Every row r of the output lies in the tile written back at point r / 1000. -/
theorem outTiles_cover (i : S15000x128.Idx) :
    ∃ t : Fin cfg2.N, (cfg2.win 3).flush t = true ∧ i ∈ ((cfg2.win 3).blk t).view.set := by
  have hi0 : (i 0).val < 15000 := (i 0).isLt
  have hi1 : (i 1).val < 128 := (i 1).isLt
  obtain ⟨t, ht⟩ : ∃ t : Fin cfg2.N, t.val = (i 0).val / 1000 :=
    ⟨⟨(i 0).val / 1000, lt_of_lt_of_eq (show (i 0).val / 1000 < 15 by omega) N_2.symm⟩, rfl⟩
  obtain ⟨-, -, -, -, -, -, e30, e31⟩ := blockIndices t
  refine ⟨t, flush2_3 t, ?_⟩
  rw [mem_outTile]
  intro a
  match a with
  | ⟨0, _⟩ => show win2_3.index t (0 : Fin 2) * 1000 ≤ (i 0).val ∧ (i 0).val < win2_3.index t (0 : Fin 2) * 1000 + 1000; rw [e30, ht]; omega
  | ⟨1, _⟩ => show win2_3.index t (1 : Fin 2) * 128 ≤ (i 1).val ∧ (i 1).val < win2_3.index t (1 : Fin 2) * 128 + 128; rw [e31]; omega

end Proj2

/-- The region's output array after its pipeline has run: the feature array times the weight matrix, plus the bias row on every row. -/
theorem out2 (c : Dev nD) :
    (dat2 V c).arrAt 3 cfg2.N = Cert.Spec.addRow (Cert.Spec.rowsByCols (V c main_arg2) (V c main_arg7)) (V c main_v4) :=
  (dat2 V c).arrAt_eq_of_cover 3 _ (fun t _ => Proj2.flushedTile V c t) Proj2.outTiles_cover

end Cert.KernelIdeal.Val

end
-- ==== Proof.Val.Out3.lean ====
/-
  The region that adds a bias row and rectifies, as one function of its two input arrays. The input has 50000 rows of 128
  entries and is walked in 25 tiles of 2000 rows; at every tile the body adds the single bias row to each row of the tile
  and replaces every entry below zero by zero. Read entry by entry, what a tile's point writes back is that tile of
  "(array + bias row) or zero, whichever is larger" of the whole arrays, and the 25 tiles fill the 50000 rows, so the
  output array ends as that function of the whole input array and the bias row.
-/
import proofs.«121421_j52656299049561_1_alg».proof.Proof.KI.Reg3
import proofs.«121421_j52656299049561_1_alg».proof.Proof.Val.Model
import proofs.«121421_j52656299049561_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Rg Cert.KernelIdeal.Facts₀ Idealize.ShloMosaic Idealize.ShloMosaic.TcCoe Idealize.ShloMosaic.ValueIdx Idealize.SL.Sem
open Idealize.ShloMosaic.Pipeline (Dat)

/-- The offset vector of a whole-block rectangle is zero on both axes. -/
theorem zero_off3 : (![0, 0] : Fin 2 → Nat) = fun _ => 0 := funext fun a => by fin_cases a <;> rfl

/-- The body's arithmetic at an index of the tile: the tile's entry plus the bias row's entry in that column, or zero
    when that sum is below zero. -/
theorem biasRelu3_at (x0 : Vec Ideal S2000x128 .f32) (x1 : Vec Ideal S1x128 .f32) (y : S2000x128.Idx) :
    k3_pay1 x0 x1 y = max (x0 y + x1 (ix2 (0 : Fin 1) (y 1))) 0 := by
  unfold k3_pay1
  simp only [shapeCast_self]
  show max (x0 y + broadcastTo S2000x128 x1 _ y) (Ideal.ofBits .f32 0x00000000#32) = _
  rw [Cert.RowBias.bcastRow_apply, Ideal.ofBits_zero_f32]

/-- The printed index maps over the 25 grid points: the row tile and the output tile sit at the same block row, which
    is the point's number; all three windows stay in block column 0; the bias row stays at block (0, 0). -/
theorem idx_facts3 : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0
    ∧ win3_2.index t (0 : Fin 2) = t.val :=
  (by decide +kernel : ∀ t : Fin grid3.N, _)

/-- One entry of what a point stores, against the whole arrays: when the tile's entry at `y` is the array's entry at `i`
    and the bias block's entry in `y`'s column is the bias row's entry in `i`'s column, the body's value at `y` is the
    bias-and-rectify of the whole arrays at `i`. -/
theorem tile_entry3 (A : S50000x128.Idx → EReal) (b : S1x128.Idx → EReal) (x0 : Vec Ideal S2000x128 .f32) (x1 : Vec Ideal S1x128 .f32)
    (y : S2000x128.Idx) (i : S50000x128.Idx) (h0 : x0 y = A i) (h1 : x1 (ix2 (0 : Fin 1) (y 1)) = b (ix2 (0 : Fin 1) (i 1))) :
    k3_pay1 x0 x1 y = Cert.Spec.rowRelu A b i := by
  rw [biasRelu3_at, h0, h1]
  rfl

variable (V : (c : Dev nD) → (b : Ref sig .tc) → Buf (Elt Ideal) ((c : Thread nD τ).loc b))

/-- What grid point `t` writes back is block `t` of the bias-and-rectify of the two whole arrays. -/
theorem flushed3_eq (c : Dev nD) (t : Fin cfg3.N) :
    (dat3 V c).flushed 2 t = ((cfg3.win 2).blk t).view.read (Elt Ideal) (Cert.Spec.rowRelu (V c main_v37) (V c main_v38)) := by
  show (cfg3.win 2).cut (grid3.coords t) ((dat3 V c).after 2 t) = _
  rw [dat3_after2]
  unfold Rg.out3
  rw [View.canon_unit_zero zero_off3]
  simp only [View.ld_unit_zero (S := S2000x128) zero_off3, View.ld_unit_zero (S := S1x128) zero_off3]
  obtain ⟨e0, e1, e2, e3, e4, e5⟩ := idx_facts3 t
  funext j
  refine tile_entry3 (V c main_v37) (V c main_v38) (blk3 V c 0 t) (blk3 V c 1 t) j (((cfg3.win 2).blk t).view.emb j) ?_ ?_
  · show V c main_v37 (((cfg3.win 0).blk t).view.emb j) = V c main_v37 (((cfg3.win 2).blk t).view.emb j)
    have h0 : ((cfg3.win 0).blk t).view.emb j = ((cfg3.win 2).blk t).view.emb j := by
      funext a; apply Fin.ext
      match a with
      | ⟨0, _⟩ => show win3_0.index t (0 : Fin 2) * 2000 + 1 * (j 0).val = win3_2.index t (0 : Fin 2) * 2000 + 1 * (j 0).val; omega
      | ⟨1, _⟩ => show win3_0.index t (1 : Fin 2) * 128 + 1 * (j 1).val = win3_2.index t (1 : Fin 2) * 128 + 1 * (j 1).val; omega
    rw [h0]
  · show V c main_v38 (((cfg3.win 1).blk t).view.emb (ix2 (0 : Fin 1) (j 1))) = V c main_v38 (ix2 (0 : Fin 1) ((((cfg3.win 2).blk t).view.emb j) 1))
    have h1 : ((cfg3.win 1).blk t).view.emb (ix2 (0 : Fin 1) (j 1)) = ix2 (0 : Fin 1) ((((cfg3.win 2).blk t).view.emb j) 1) := by
      funext a; apply Fin.ext
      match a with
      | ⟨0, _⟩ => show win3_1.index t (0 : Fin 2) * 1 + 1 * 0 = 0; omega
      | ⟨1, _⟩ => show win3_1.index t (1 : Fin 2) * 128 + 1 * (j 1).val = win3_2.index t (1 : Fin 2) * 128 + 1 * (j 1).val; omega
    exact congrArg (V c main_v38) h1

/-- An index of the output array lies in point `t`'s block exactly when each coordinate lies in the block's range on
    its axis. -/
theorem mem_tile3 (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v39).slice (win3_2.rect t)).set ↔ _
  rw [View.set_slice_whole, Rect.mem_set_unit]
  exact Iff.rfl

/-- The 25 tiles of 2000 rows fill the 50000 rows: row `r` lies in the tile of point `r / 2000`. -/
theorem tiles_fill3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 25 := N_3
  have ht : (i 0).val / 2000 < cfg3.N := by rw [hN]; omega
  obtain ⟨e0, e1, e2, e3, e4, e5⟩ := idx_facts3 ⟨(i 0).val / 2000, ht⟩
  refine ⟨⟨(i 0).val / 2000, ht⟩, flush3_2 _, ?_⟩
  rw [mem_tile3]
  intro a
  match a with
  | ⟨0, _⟩ =>
    show win3_2.index ⟨(i 0).val / 2000, ht⟩ (0 : Fin 2) * 2000 ≤ (i 0).val ∧ (i 0).val < win3_2.index ⟨(i 0).val / 2000, ht⟩ (0 : Fin 2) * 2000 + 2000
    rw [e5]
    show (i 0).val / 2000 * 2000 ≤ (i 0).val ∧ (i 0).val < (i 0).val / 2000 * 2000 + 2000
    omega
  | ⟨1, _⟩ =>
    show win3_2.index ⟨(i 0).val / 2000, ht⟩ (1 : Fin 2) * 128 ≤ (i 1).val ∧ (i 1).val < win3_2.index ⟨(i 0).val / 2000, ht⟩ (1 : Fin 2) * 128 + 128
    omega

/-- The region's output array after its 25 points: the input array with the bias row added to every row and every entry
    below zero replaced by zero. -/
theorem out3 (c : Dev nD) :
    (dat3 V c).arrAt 2 cfg3.N = Cert.Spec.rowRelu (V c main_v37) (V c main_v38) :=
  (dat3 V c).arrAt_eq_of_cover 2 (Cert.Spec.rowRelu (V c main_v37) (V c main_v38)) (fun t _ => flushed3_eq V c t) tiles_fill3

end Cert.KernelIdeal.Val

end
-- ==== Proof.Val.Out4.lean ====
/-
  The region that multiplies by a weight matrix, adds a bias row and rectifies, as one function of its three input arrays.
  The input has 50000 rows of 128 entries and is walked in 25 tiles of 2000 rows; at every tile the body multiplies the
  tile by the whole 128 × 128 weight matrix (both first narrowed to a shorter float format, which changes no exact value,
  the sum started from zero), adds the single bias row to each row, and replaces every entry below zero by zero. Read
  entry by entry, a row of the tile's product is that row of the whole array times the weight matrix, so what a tile's
  point writes back is that tile of "(array · weights + bias row) or zero, whichever is larger" of the whole arrays, and
  the 25 tiles fill the 50000 rows, so the output array ends as that function of the whole arrays.
-/
import proofs.«121421_j52656299049561_1_alg».proof.Proof.KI.Reg4
import proofs.«121421_j52656299049561_1_alg».proof.Proof.Val.Model
import proofs.«121421_j52656299049561_1_alg».proof.Proof.LibRowBias
import proofs.«121421_j52656299049561_1_alg».proof.Proof.LibMatProd
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Rg Cert.KernelIdeal.Facts₀ Idealize.ShloMosaic Idealize.ShloMosaic.TcCoe Idealize.ShloMosaic.ValueIdx Idealize.SL.Sem
open Idealize.ShloMosaic.Pipeline (Dat)

/-- The offset vector of a whole-block rectangle is zero on both axes. -/
theorem zero_off4 : (![0, 0] : Fin 2 → Nat) = fun _ => 0 := funext fun a => by fin_cases a <;> rfl

/-- The tile product's left operand is read at the output's row: axis 0 of the left operand is its free axis. -/
theorem dot_left_row4 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- The tile product's right operand is read at the output's column: axis 1 of the right operand is its free axis. -/
theorem dot_right_col4 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's arithmetic at an index of the tile: the tile's row times the weight matrix's column, plus the bias row's
    entry in that column, or zero when that sum is below zero. -/
theorem dotBiasRelu4_at (x0 : Vec Ideal S2000x128 .f32) (x1 : Vec Ideal S128x128 .f32) (x2 : Vec Ideal S1x128 .f32) (y : S2000x128.Idx) :
    k4_pay1 x0 x1 x2 y = max (Cert.Spec.rowsByCols x0 x1 y + x2 (ix2 (0 : Fin 1) (y 1))) 0 := by
  unfold k4_pay1
  simp only [shapeCast_self]
  show max (matmul (F := Ideal) dot_S2000x128_S128x128_S2000x128_1_0_0_1_n_n none (truncf .bf16 x0 _) (truncf .bf16 x1 _) (constant S2000x128 .f32 0x00000000#32) y
      + broadcastTo S2000x128 x2 _ y) (Ideal.ofBits .f32 0x00000000#32) = _
  rw [Cert.MatProd.tileDot_apply dot_S2000x128_S128x128_S2000x128_1_0_0_1_n_n rfl rfl dot_left_row4
      (fun j q => dot_S2000x128_S128x128_S2000x128_1_0_0_1_n_n.lhsIdx_val_of_single rfl j q)
      (fun j q => dot_S2000x128_S128x128_S2000x128_1_0_0_1_n_n.rhsIdx_val_of_single rfl j q) dot_right_col4,
    Cert.RowBias.bcastRow_apply, Ideal.ofBits_zero_f32]

/-- The printed index maps over the 25 grid points: the row tile and the output tile sit at the same block row, which
    is the point's number, and in block column 0; the weight matrix and the bias row stay at block (0, 0). -/
theorem idx_facts4 : ∀ t : Fin cfg4.N, win4_0.index t (0 : Fin 2) = win4_3.index t (0 : Fin 2)
    ∧ win4_0.index t (1 : Fin 2) = 0 ∧ win4_3.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val :=
  (by decide +kernel : ∀ t : Fin grid4.N, _)

/-- One entry of what a point stores, against the whole arrays: when the tile's row through `y` is the array's row
    through `i`, the weight block's column through `y` is the weight matrix's column through `i`, and the bias block's
    entry in `y`'s column is the bias row's entry in `i`'s column, the body's value at `y` is the product, bias and
    rectifier of the whole arrays at `i`. -/
theorem tile_entry4 (A : S50000x128.Idx → EReal) (W : S128x128.Idx → EReal) (b : S1x128.Idx → EReal)
    (x0 : Vec Ideal S2000x128 .f32) (x1 : Vec Ideal S128x128 .f32) (x2 : Vec Ideal S1x128 .f32)
    (y : S2000x128.Idx) (i : S50000x128.Idx)
    (h0 : ∀ k : Fin 128, x0 (ix2 (y 0) k) = A (ix2 (i 0) k))
    (h1 : ∀ k : Fin 128, x1 (ix2 k (y 1)) = W (ix2 k (i 1)))
    (h2 : x2 (ix2 (0 : Fin 1) (y 1)) = b (ix2 (0 : Fin 1) (i 1))) :
    k4_pay1 x0 x1 x2 y = Cert.Spec.rowRelu (Cert.Spec.rowsByCols A W) b i := by
  rw [dotBiasRelu4_at, h2]
  have hs : Cert.Spec.rowsByCols x0 x1 y = Cert.Spec.rowsByCols A W i := by
    unfold Cert.Spec.rowsByCols
    exact Finset.sum_congr rfl fun k _ => by rw [h0 k, h1 k]
  rw [hs]
  rfl

variable (V : (c : Dev nD) → (b : Ref sig .tc) → Buf (Elt Ideal) ((c : Thread nD τ).loc b))

/-- What grid point `t` writes back is block `t` of the product, bias and rectifier of the three whole arrays. -/
theorem flushed4_eq (c : Dev nD) (t : Fin cfg4.N) :
    (dat4 V c).flushed 3 t = ((cfg4.win 3).blk t).view.read (Elt Ideal)
      (Cert.Spec.rowRelu (Cert.Spec.rowsByCols (V c main_v55) (V c main_arg10)) (V c main_v56)) := by
  show (cfg4.win 3).cut (grid4.coords t) ((dat4 V c).after 3 t) = _
  rw [dat4_after3]
  unfold Rg.out4
  rw [View.canon_unit_zero zero_off4]
  simp only [View.ld_unit_zero (S := S2000x128) zero_off4, View.ld_unit_zero (S := S128x128) zero_off4, View.ld_unit_zero (S := S1x128) zero_off4]
  obtain ⟨e0, e1, e2, e3, e4, e5, e6, e7⟩ := idx_facts4 t
  funext j
  refine tile_entry4 (V c main_v55) (V c main_arg10) (V c main_v56) (blk4 V c 0 t) (blk4 V c 1 t) (blk4 V c 2 t) j (((cfg4.win 3).blk t).view.emb j) (fun k => ?_) (fun k => ?_) ?_
  · show V c main_v55 (((cfg4.win 0).blk t).view.emb (ix2 (j 0) k)) = V c main_v55 (ix2 ((((cfg4.win 3).blk t).view.emb j) 0) k)
    have h0 : ((cfg4.win 0).blk t).view.emb (ix2 (j 0) k) = ix2 ((((cfg4.win 3).blk t).view.emb j) 0) k := by
      funext a; apply Fin.ext
      match a with
      | ⟨0, _⟩ => show win4_0.index t (0 : Fin 2) * 2000 + 1 * (j 0).val = win4_3.index t (0 : Fin 2) * 2000 + 1 * (j 0).val; omega
      | ⟨1, _⟩ => show win4_0.index t (1 : Fin 2) * 128 + 1 * k.val = k.val; omega
    exact congrArg (V c main_v55) h0
  · show V c main_arg10 (((cfg4.win 1).blk t).view.emb (ix2 k (j 1))) = V c main_arg10 (ix2 k ((((cfg4.win 3).blk t).view.emb j) 1))
    have h1 : ((cfg4.win 1).blk t).view.emb (ix2 k (j 1)) = ix2 k ((((cfg4.win 3).blk t).view.emb j) 1) := by
      funext a; apply Fin.ext
      match a with
      | ⟨0, _⟩ => show win4_1.index t (0 : Fin 2) * 128 + 1 * k.val = k.val; omega
      | ⟨1, _⟩ => show win4_1.index t (1 : Fin 2) * 128 + 1 * (j 1).val = win4_3.index t (1 : Fin 2) * 128 + 1 * (j 1).val; omega
    exact congrArg (V c main_arg10) h1
  · show V c main_v56 (((cfg4.win 2).blk t).view.emb (ix2 (0 : Fin 1) (j 1))) = V c main_v56 (ix2 (0 : Fin 1) ((((cfg4.win 3).blk t).view.emb j) 1))
    have h2 : ((cfg4.win 2).blk t).view.emb (ix2 (0 : Fin 1) (j 1)) = ix2 (0 : Fin 1) ((((cfg4.win 3).blk t).view.emb j) 1) := by
      funext a; apply Fin.ext
      match a with
      | ⟨0, _⟩ => show win4_2.index t (0 : Fin 2) * 1 + 1 * 0 = 0; omega
      | ⟨1, _⟩ => show win4_2.index t (1 : Fin 2) * 128 + 1 * (j 1).val = win4_3.index t (1 : Fin 2) * 128 + 1 * (j 1).val; omega
    exact congrArg (V c main_v56) h2

/-- An index of the output array lies in point `t`'s block exactly when each coordinate lies in the block's range on
    its axis. -/
theorem mem_tile4 (t : Fin cfg4.N) (i : S50000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v57).slice (win4_3.rect t)).set ↔ _
  rw [View.set_slice_whole, Rect.mem_set_unit]
  exact Iff.rfl

/-- The 25 tiles of 2000 rows fill the 50000 rows: row `r` lies in the tile of point `r / 2000`. -/
theorem tiles_fill4 (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 25 := N_4
  have ht : (i 0).val / 2000 < cfg4.N := by rw [hN]; omega
  obtain ⟨e0, e1, e2, e3, e4, e5, e6, e7⟩ := idx_facts4 ⟨(i 0).val / 2000, ht⟩
  refine ⟨⟨(i 0).val / 2000, ht⟩, flush4_3 _, ?_⟩
  rw [mem_tile4]
  intro a
  match a with
  | ⟨0, _⟩ =>
    show win4_3.index ⟨(i 0).val / 2000, ht⟩ (0 : Fin 2) * 2000 ≤ (i 0).val ∧ (i 0).val < win4_3.index ⟨(i 0).val / 2000, ht⟩ (0 : Fin 2) * 2000 + 2000
    rw [e7]
    show (i 0).val / 2000 * 2000 ≤ (i 0).val ∧ (i 0).val < (i 0).val / 2000 * 2000 + 2000
    omega
  | ⟨1, _⟩ =>
    show win4_3.index ⟨(i 0).val / 2000, ht⟩ (1 : Fin 2) * 128 ≤ (i 1).val ∧ (i 1).val < win4_3.index ⟨(i 0).val / 2000, ht⟩ (1 : Fin 2) * 128 + 128
    omega

/-- The region's output array after its 25 points: the input array times the weight matrix, with the bias row added to
    every row and every entry below zero replaced by zero. -/
theorem out4 (c : Dev nD) :
    (dat4 V c).arrAt 3 cfg4.N = Cert.Spec.rowRelu (Cert.Spec.rowsByCols (V c main_v55) (V c main_arg10)) (V c main_v56) :=
  (dat4 V c).arrAt_eq_of_cover 3 (Cert.Spec.rowRelu (Cert.Spec.rowsByCols (V c main_v55) (V c main_arg10)) (V c main_v56))
    (fun t _ => flushed4_eq V c t) tiles_fill4

end Cert.KernelIdeal.Val

end
-- ==== Proof.Val.Out5.lean ====
/-
  Region 5 (the output projection): the array its pipeline leaves. The grid has 25 points; point t takes rows
  2000 t … 2000 t + 1999 of the 50000 × 128 feature array, the whole 128 × 64 weight matrix and the 1 × 64 bias row,
  and writes back the 2000 × 64 tile whose entry (p, q) is the sum over k of feature (2000 t + p, k) · weight (k, q),
  plus bias (0, q). That is block t of one function of the three arrays, the product with the bias row added to every
  row; the twenty-five tiles cover the 50000 rows, so the output array ends holding that function.
-/
import proofs.«121421_j52656299049561_1_alg».proof.Proof.KI.Reg5
import proofs.«121421_j52656299049561_1_alg».proof.Proof.LibMatProd
import proofs.«121421_j52656299049561_1_alg».proof.Proof.LibRowBias
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Cert.KernelIdeal.Rg Cert.KernelIdeal.Facts₀
open Idealize.ShloMosaic Idealize.ShloMosaic.TcCoe Idealize.ShloMosaic.ValueIdx Idealize.SL.Sem

variable (V : (c : Dev nD) → (b : Ref sig .tc) → Buf (Elt Ideal) ((c : Thread nD τ).loc b))

namespace Proj5

/-- The store rectangle's offsets, however the zeros are spelt. -/
theorem noOffset : (![0, 0] : Fin 2 → Nat) = fun _ => 0 := funext fun a => by fin_cases a <;> rfl

/-- The body's arithmetic at an index: row y 0 of the tile against column y 1 of the weights, plus the bias row's entry
    (the tile and the bias row each pass through a reshape to their own shape, which changes nothing). -/
theorem projTile_apply (x0 : Vec Ideal S2000x128 .f32) (x1 : Vec Ideal S128x64 .f32) (x2 : Vec Ideal S1x64 .f32)
    (y : S2000x64.Idx) :
    k5_pay1 x0 x1 x2 y = Cert.Spec.rowsByCols x0 x1 y + x2 (ix2 (0 : Fin 1) (y 1)) := by
  unfold k5_pay1
  rw [addf_apply, shapeCast_self, shapeCast_self, Cert.RowBias.bcastRow_apply]
  rw [Cert.MatProd.tileDot_apply dot_S2000x128_S128x64_S2000x64_1_0_0_1_n_n rfl rfl
    (fun _ _ => rfl) (fun j k => dot_S2000x128_S128x64_S2000x64_1_0_0_1_n_n.lhsIdx_val_of_single rfl j k)
    (fun j k => dot_S2000x128_S128x64_S2000x64_1_0_0_1_n_n.rhsIdx_val_of_single rfl j k) (fun _ _ => rfl)]

/-- One entry of an output tile. When tile row p of the row tile is row r of the feature array, the weight block is the
    weight matrix and the bias block is the bias row, the body's value at (p, q) is the product plus bias at (r, q). -/
theorem projTile_of_blocks (A : S50000x128.Idx → EReal) (W : S128x64.Idx → EReal) (b : S1x64.Idx → EReal)
    (x0 : Vec Ideal S2000x128 .f32) (x1 : Vec Ideal S128x64 .f32) (x2 : Vec Ideal S1x64 .f32)
    (p : Fin 2000) (q : Fin 64) (r : Fin 50000)
    (h0 : ∀ k : Fin 128, x0 (ix2 p k) = A (ix2 r k))
    (h1 : ∀ k : Fin 128, x1 (ix2 k q) = W (ix2 k q))
    (h2 : x2 (ix2 (0 : Fin 1) q) = b (ix2 (0 : Fin 1) q)) :
    k5_pay1 x0 x1 x2 (ix2 p q) = Cert.Spec.addRow (Cert.Spec.rowsByCols A W) b (ix2 r q) := by
  rw [projTile_apply]
  show (∑ k : Fin 128, x0 (ix2 p k) * x1 (ix2 k q)) + x2 (ix2 (0 : Fin 1) q)
    = (∑ k : Fin 128, A (ix2 r k) * W (ix2 k q)) + b (ix2 (0 : Fin 1) q)
  rw [h2]
  congr 1
  exact Finset.sum_congr rfl fun k _ => by rw [h0, h1]

/-- The printed index maps over the grid: the row tile and the output tile sit at block row t, the weights and the
    bias row at block (0, 0), whatever the point. -/
theorem blockIndices : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point t writes back is block t of the product plus bias of the arrays the region is entered from. -/
theorem flushedTile (c : Dev nD) (t : Fin cfg5.N) :
    (dat5 V c).flushed 3 t = ((cfg5.win 3).blk t).view.read (Elt Ideal)
      (Cert.Spec.addRow (Cert.Spec.rowsByCols (V c main_v73) (V c main_arg12)) (V c main_v74)) := by
  show (cfg5.win 3).cut (grid5.coords t) ((dat5 V c).after 3 t) = _
  rw [dat5_after3]
  unfold out5
  rw [View.canon_unit_zero noOffset]
  simp only [View.ld_unit_zero (S := S2000x128) noOffset, View.ld_unit_zero (S := S128x64) noOffset, View.ld_unit_zero (S := S1x64) noOffset]
  obtain ⟨e00, e01, e10, e11, e20, e21, e30, e31⟩ := blockIndices t
  have ht : t.val < 25 := lt_of_lt_of_eq t.isLt N_5
  funext y
  obtain ⟨p, q, rfl⟩ : ∃ (p : Fin 2000) (q : Fin 64), y = ix2 p q := ⟨y 0, y 1, eq_ix2 y⟩
  have hp : p.val < 2000 := p.isLt
  -- the output block's entry (p, q) is the array's entry (2000 t + p, q)
  have hout : ((cfg5.win 3).blk t).view.emb (ix2 p q) = (ix2 (⟨t.val * 2000 + p.val, by omega⟩ : Fin 50000) q : S50000x64.Idx) := by
    funext a; apply Fin.ext
    match a with
    | ⟨0, _⟩ => show win5_3.index t (0 : Fin 2) * 2000 + 1 * p.val = t.val * 2000 + p.val; rw [e30]; omega
    | ⟨1, _⟩ => show win5_3.index t (1 : Fin 2) * 64 + 1 * q.val = q.val; rw [e31]; omega
  show k5_pay1 (blk5 V c 0 t) (blk5 V c 1 t) (blk5 V c 2 t) (ix2 p q)
    = Cert.Spec.addRow (Cert.Spec.rowsByCols (V c main_v73) (V c main_arg12)) (V c main_v74) (((cfg5.win 3).blk t).view.emb (ix2 p q))
  rw [hout]
  refine projTile_of_blocks (V c main_v73) (V c main_arg12) (V c main_v74) _ _ _ p q _ (fun k => ?_) (fun k => ?_) ?_
  · -- the row tile's row p is the feature array's row 2000 t + p
    show V c main_v73 (((cfg5.win 0).blk t).view.emb (ix2 p k)) = V c main_v73 (ix2 (⟨t.val * 2000 + p.val, by omega⟩ : Fin 50000) k)
    refine congrArg _ ?_
    funext a; apply Fin.ext
    match a with
    | ⟨0, _⟩ => show win5_0.index t (0 : Fin 2) * 2000 + 1 * p.val = t.val * 2000 + p.val; rw [e00]; omega
    | ⟨1, _⟩ => show win5_0.index t (1 : Fin 2) * 128 + 1 * k.val = k.val; rw [e01]; omega
  · -- the weight block is the weight matrix
    show V c main_arg12 (((cfg5.win 1).blk t).view.emb (ix2 k q)) = V c main_arg12 (ix2 k q)
    refine congrArg _ ?_
    funext a; apply Fin.ext
    match a with
    | ⟨0, _⟩ => show win5_1.index t (0 : Fin 2) * 128 + 1 * k.val = k.val; rw [e10]; omega
    | ⟨1, _⟩ => show win5_1.index t (1 : Fin 2) * 64 + 1 * q.val = q.val; rw [e11]; omega
  · -- the bias block is the bias row
    show V c main_v74 (((cfg5.win 2).blk t).view.emb (ix2 (0 : Fin 1) q)) = V c main_v74 (ix2 (0 : Fin 1) q)
    refine congrArg _ ?_
    funext a; apply Fin.ext
    match a with
    | ⟨0, _⟩ => show win5_2.index t (0 : Fin 2) * 1 + 1 * (0 : Fin 1).val = (0 : Fin 1).val; rw [e20]; rfl
    | ⟨1, _⟩ => show win5_2.index t (1 : Fin 2) * 64 + 1 * q.val = q.val; rw [e21]; omega

/-- An index of the output array is in point t's tile iff each coordinate is in the tile's range on its axis. -/
theorem mem_outTile (t : Fin cfg5.N) (i : S50000x64.Idx) :
    i ∈ ((cfg5.win 3).blk t).view.set ↔ ∀ a : Fin 2, win5_3.index t a * S2000x64.size a ≤ (i a).val ∧ (i a).val < win5_3.index t a * S2000x64.size a + S2000x64.size a := by
  show i ∈ ((View.whole main_v75).slice (win5_3.rect t)).set ↔ _
  rw [View.set_slice_whole, Rect.mem_set_unit]
  exact Iff.rfl

/-- Every row r of the output lies in the tile written back at point r / 2000. -/
theorem outTiles_cover (i : S50000x64.Idx) :
    ∃ t : Fin cfg5.N, (cfg5.win 3).flush t = true ∧ i ∈ ((cfg5.win 3).blk t).view.set := by
  have hi0 : (i 0).val < 50000 := (i 0).isLt
  have hi1 : (i 1).val < 64 := (i 1).isLt
  obtain ⟨t, ht⟩ : ∃ t : Fin cfg5.N, t.val = (i 0).val / 2000 :=
    ⟨⟨(i 0).val / 2000, lt_of_lt_of_eq (show (i 0).val / 2000 < 25 by omega) N_5.symm⟩, rfl⟩
  obtain ⟨-, -, -, -, -, -, e30, e31⟩ := blockIndices t
  refine ⟨t, flush5_3 t, ?_⟩
  rw [mem_outTile]
  intro a
  match a with
  | ⟨0, _⟩ => show win5_3.index t (0 : Fin 2) * 2000 ≤ (i 0).val ∧ (i 0).val < win5_3.index t (0 : Fin 2) * 2000 + 2000; rw [e30, ht]; omega
  | ⟨1, _⟩ => show win5_3.index t (1 : Fin 2) * 64 ≤ (i 1).val ∧ (i 1).val < win5_3.index t (1 : Fin 2) * 64 + 64; rw [e31]; omega

end Proj5

/-- The region's output array after its pipeline has run: the feature array times the weight matrix, plus the bias row on every row. -/
theorem out5 (c : Dev nD) :
    (dat5 V c).arrAt 3 cfg5.N = Cert.Spec.addRow (Cert.Spec.rowsByCols (V c main_v73) (V c main_arg12)) (V c main_v74) :=
  (dat5 V c).arrAt_eq_of_cover 3 _ (fun t _ => Proj5.flushedTile V c t) Proj5.outTiles_cover

end Cert.KernelIdeal.Val

end
-- ==== Proof.Algebraic.lean ====
/-
  The fifth claim. Run from memories that agree on the sixteen argument arrays, the idealized kernel program and the
  idealized reference both terminate with their arguments unchanged, and their result arrays are equal: the kernel's is the
  model of its launch memory's arguments (the six regions' values chained through the host operations between them), the
  reference's is the model of its own (its operations' composed term, stage by stage), and the arguments agree.
-/
import proofs.«121421_j52656299049561_1_alg».proof.Proof.Frames
import proofs.«121421_j52656299049561_1_alg».proof.Proof.Val.Kernel
import proofs.«121421_j52656299049561_1_alg».proof.Proof.Val.Ref
import proofs.«121421_j52656299049561_1_alg».proof.Proof.Val.Out0
import proofs.«121421_j52656299049561_1_alg».proof.Proof.Val.Out1
import proofs.«121421_j52656299049561_1_alg».proof.Proof.Val.Out2
import proofs.«121421_j52656299049561_1_alg».proof.Proof.Val.Out3
import proofs.«121421_j52656299049561_1_alg».proof.Proof.Val.Out4
import proofs.«121421_j52656299049561_1_alg».proof.Proof.Val.Out5

noncomputable section

namespace Cert.Proof.Parts

open Idealize.ShloMosaic Idealize.ShloMosaic.TcCoe Idealize.SL.Sem

theorem algebraic : Cert.algebraic_KernelIdeal_ReferenceIdeal := by
  intro m ρ m' ρ' _ hagree
  refine ⟨fun c => Cert.KernelIdeal.Rg.W12 (F := Ideal) m c (Proc.devRef .tc Cert.KernelIdeal.main_v75), ?_, ?_⟩
  · -- the kernel program: every unscoped buffer ends at the last boundary's contents
    exact (θ_run (Cert.KernelIdeal.defs (F := Ideal)) _ _).mono (fun r h c => ⟨
        h c _ (Cert.KernelIdeal.Rg.mem_uc Cert.KernelIdeal.main_v75 (by decide)),
        (h c _ (Cert.KernelIdeal.Rg.mem_uc Cert.KernelIdeal.main_arg0 (by decide))).trans (Cert.KernelIdeal.Rg.W12_arg0 m c),
        (h c _ (Cert.KernelIdeal.Rg.mem_uc Cert.KernelIdeal.main_arg1 (by decide))).trans (Cert.KernelIdeal.Rg.W12_arg1 m c),
        (h c _ (Cert.KernelIdeal.Rg.mem_uc Cert.KernelIdeal.main_arg2 (by decide))).trans (Cert.KernelIdeal.Rg.W12_arg2 m c),
        (h c _ (Cert.KernelIdeal.Rg.mem_uc Cert.KernelIdeal.main_arg3 (by decide))).trans (Cert.KernelIdeal.Rg.W12_arg3 m c),
        (h c _ (Cert.KernelIdeal.Rg.mem_uc Cert.KernelIdeal.main_arg4 (by decide))).trans (Cert.KernelIdeal.Rg.W12_arg4 m c),
        (h c _ (Cert.KernelIdeal.Rg.mem_uc Cert.KernelIdeal.main_arg5 (by decide))).trans (Cert.KernelIdeal.Rg.W12_arg5 m c),
        (h c _ (Cert.KernelIdeal.Rg.mem_uc Cert.KernelIdeal.main_arg6 (by decide))).trans (Cert.KernelIdeal.Rg.W12_arg6 m c),
        (h c _ (Cert.KernelIdeal.Rg.mem_uc Cert.KernelIdeal.main_arg7 (by decide))).trans (Cert.KernelIdeal.Rg.W12_arg7 m c),
        (h c _ (Cert.KernelIdeal.Rg.mem_uc Cert.KernelIdeal.main_arg8 (by decide))).trans (Cert.KernelIdeal.Rg.W12_arg8 m c),
        (h c _ (Cert.KernelIdeal.Rg.mem_uc Cert.KernelIdeal.main_arg9 (by decide))).trans (Cert.KernelIdeal.Rg.W12_arg9 m c),
        (h c _ (Cert.KernelIdeal.Rg.mem_uc Cert.KernelIdeal.main_arg10 (by decide))).trans (Cert.KernelIdeal.Rg.W12_arg10 m c),
        (h c _ (Cert.KernelIdeal.Rg.mem_uc Cert.KernelIdeal.main_arg11 (by decide))).trans (Cert.KernelIdeal.Rg.W12_arg11 m c),
        (h c _ (Cert.KernelIdeal.Rg.mem_uc Cert.KernelIdeal.main_arg12 (by decide))).trans (Cert.KernelIdeal.Rg.W12_arg12 m c),
        (h c _ (Cert.KernelIdeal.Rg.mem_uc Cert.KernelIdeal.main_arg13 (by decide))).trans (Cert.KernelIdeal.Rg.W12_arg13 m c),
        (h c _ (Cert.KernelIdeal.Rg.mem_uc Cert.KernelIdeal.main_arg14 (by decide))).trans (Cert.KernelIdeal.Rg.W12_arg14 m c),
        (h c _ (Cert.KernelIdeal.Rg.mem_uc Cert.KernelIdeal.main_arg15 (by decide))).trans (Cert.KernelIdeal.Rg.W12_arg15 m c)⟩)
      (Cert.KernelIdeal.Rg.run_all (F := Ideal) m ρ)
  · -- the reference: its result term is the same model of arguments that agree
    refine (θ_run Cert.ReferenceIdeal.defs _ _).mono (fun _ h c => ⟨(h c).1.trans ?_, (h c).2⟩) (Cert.ReferenceIdeal.Value.run (F := Ideal) m' ρ')
    obtain ⟨e0, e1, e2, e3, e4, e5, e6, e7, e8, e9, e10, e11, e12, e13, e14, e15⟩ := hagree c
    rw [Cert.ReferenceIdeal.RefValue.ref_is_model m' c, e0, e1, e2, e3, e4, e5, e6, e7, e8, e9, e10, e11, e12, e13, e14, e15]
    exact (Cert.KernelIdeal.Val.kernel_is_model m c Cert.KernelIdeal.Val.out0 Cert.KernelIdeal.Val.out1 Cert.KernelIdeal.Val.out2 Cert.KernelIdeal.Val.out3 Cert.KernelIdeal.Val.out4 Cert.KernelIdeal.Val.out5).symm

end Cert.Proof.Parts

end
-- ==== Proof.lean ====
/-
  The certificate. Two programs compute three rounds of graph aggregation on 50000 nodes over 800000 edges: the kernel
  program runs the dense stages (three projections, a bias and rectifier, two matrix layers) as six tiled regions with the
  edge-indexed gather and scatter-add between them on the host; the reference is the same composition in plain array
  operations. On the extended reals a tile's matrix product into a zero accumulator is the sum the whole product is, a
  narrowing of the operands' format is the identity, and a bias laid out as a row and broadcast is the bias added to every
  row; the tiles of each region cover its output array; and both programs apply the same host operations to the same
  values in between. So both result arrays are one function of the sixteen argument arrays.
  Each kernel program, at either instance, terminates without a fault and leaves its argument arrays as launched: nothing
  in it writes one.
-/
import proofs.«121421_j52656299049561_1_alg».proof.Defs
import proofs.«121421_j52656299049561_1_alg».proof.Proof.Gen.Kernel
import proofs.«121421_j52656299049561_1_alg».proof.Proof.Gen.KernelIdeal
import proofs.«121421_j52656299049561_1_alg».proof.Proof.Gen.ReferenceIdeal
import proofs.«121421_j52656299049561_1_alg».proof.Proof.Gen.Pre_finite_inputs
import proofs.«121421_j52656299049561_1_alg».proof.Proof.Frames
import proofs.«121421_j52656299049561_1_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Parts.frame_kernel, Cert.Proof.Parts.frame_kernelIdeal, Cert.Proof.Parts.frame_reference,
    Cert.Proof.Parts.preserves, Cert.Proof.Parts.algebraic⟩

end Cert.Proof

end
